-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x1024 : Shape := ⟨3, ![256, 1024, 1024]⟩
abbrev S_ : Shape := ⟨0, ![]⟩

class Facts : Prop where
  bcast_S_S256x1024x1024 : S_.BroadcastsInDim S256x1024x1024 (![] : Fin 0 → Fin S256x1024x1024.rank)
  reducesTo_S256x1024x1024_S_d0_1_2 : S256x1024x1024.ReducesTo [0, 1, 2] S_
  h_S_ : 0 < S_.numel

variable [Facts]

def fn {F : FTy → Type} [FloatOps F] (main_arg0 : FVec F S256x1024x1024 .f32) : IVec S_ 1 :=
  let main_v0 : FVec F S256x1024x1024 .f32 := Host.absf main_arg0
  let main_cst : FVec F S_ .f32 := constant S_ .f32 0x7F800000#32
  let main_v1 : FVec F S256x1024x1024 .f32 := broadcastInDim S256x1024x1024 ![] bcast_S_S256x1024x1024 main_cst
  let main_v2 : IVec S256x1024x1024 1 := cmpf .olt main_v0 main_v1
  let main_c : IVec S_ 1 := constantI S_ 1 1#1
  let main_v3 : IVec S_ 1 := (fun x v => Host.reduce IntOp.andi x v reducesTo_S256x1024x1024_S_d0_1_2 h_S_) main_v2 main_c
  main_v3
-- ==== Kernel.lean ====
abbrev S256x1024x1024 : Shape := ⟨3, ![256, 1024, 1024]⟩
abbrev S256x1048576 : Shape := ⟨2, ![256, 1048576]⟩
abbrev S256x3 : Shape := ⟨2, ![256, 3]⟩
abbrev S128x16384 : Shape := ⟨2, ![128, 16384]⟩
abbrev S128x3 : Shape := ⟨2, ![128, 3]⟩
abbrev S128 : Shape := ⟨1, ![128]⟩
abbrev S128x1 : Shape := ⟨2, ![128, 1]⟩
abbrev S256x1 : Shape := ⟨2, ![256, 1]⟩
abbrev S256 : Shape := ⟨1, ![256]⟩
abbrev S_ : Shape := ⟨0, ![]⟩
abbrev S3x256 : Shape := ⟨2, ![3, 256]⟩
abbrev S256x256 : Shape := ⟨2, ![256, 256]⟩

abbrev nBuf : Space → Nat
  | .hbm => 62
  | .vmem => 4
  | .smem => 0
  | _ => 0

abbrev bufTy : (tb : Table) → Fin (tcTables nBuf tb) → BufTy
  | .hbm, ⟨0, _⟩ => ⟨S256x1024x1024, .f32⟩
  | .hbm, ⟨1, _⟩ => ⟨S256x1048576, .f32⟩
  | .hbm, ⟨2, _⟩ => ⟨S256x3, .f32⟩
  | .hbm, ⟨3, _⟩ => ⟨S256x1, .f32⟩
  | .hbm, ⟨4, _⟩ => ⟨S256, .f32⟩
  | .hbm, ⟨5, _⟩ => ⟨S256x1, .f32⟩
  | .hbm, ⟨6, _⟩ => ⟨S256, .f32⟩
  | .hbm, ⟨7, _⟩ => ⟨S256x1, .f32⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S_, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S256x1, .f32⟩
  | .hbm, ⟨28, _⟩ => ⟨S256x1, .f32⟩
  | .hbm, ⟨29, _⟩ => ⟨S256x1, .f32⟩
  | .hbm, ⟨30, _⟩ => ⟨S256x3, .f32⟩
  | .hbm, ⟨31, _⟩ => ⟨S256x3, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S256x3, .f32⟩
  | .hbm, ⟨40, _⟩ => ⟨S256x3, .f32⟩
  | .hbm, ⟨41, _⟩ => ⟨S3x256, .f32⟩
  | .hbm, ⟨42, _⟩ => ⟨S256x256, .f32⟩
  | .hbm, ⟨43, _⟩ => ⟨S_, .f32⟩
  | .hbm, ⟨44, _⟩ => ⟨S256, .f32⟩
  | .hbm, ⟨45, _⟩ => ⟨S_, .f32⟩
  | .hbm, ⟨46, _⟩ => ⟨S256, .f32⟩
  | .hbm, ⟨47, _⟩ => ⟨S256, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S256, .f32⟩
  | .hbm, ⟨53, _⟩ => ⟨S256, .f32⟩
  | .hbm, ⟨54, _⟩ => ⟨S256, .f32⟩
  | .hbm, ⟨55, _⟩ => ⟨S256, .f32⟩
  | .hbm, ⟨56, _⟩ => ⟨S_, .f32⟩
  | .hbm, ⟨57, _⟩ => ⟨S256, .f32⟩
  | .hbm, ⟨58, _⟩ => ⟨S256, .f32⟩
  | .hbm, ⟨59, _⟩ => ⟨S_, .f32⟩
  | .hbm, ⟨60, _⟩ => ⟨S256, .f32⟩
  | .hbm, ⟨61, _⟩ => ⟨S256, .f32⟩
  | .local _ .vmem, ⟨0, _⟩ => ⟨S128x16384, .f32⟩
  | .local _ .vmem, ⟨1, _⟩ => ⟨S128x16384, .f32⟩
  | .local _ .vmem, ⟨2, _⟩ => ⟨S128x3, .f32⟩
  | .local _ .vmem, ⟨3, _⟩ => ⟨S128x3, .f32⟩
  | _, _ => ⟨S256x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_call0_v2 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S256x1024x1024_S256x1048576 : S256x1024x1024.ShapeCasts S256x1048576
  inb_S128x3_S128x3_0_0 : ∀ a, (![0, 0] : Fin 2 → Nat) a + S128x3.size a ≤ S128x3.size a
  h_S128x3 : 0 < S128x3.numel
  inb_S128x16384_S128x16384_0_0 : ∀ a, (![0, 0] : Fin 2 → Nat) a + S128x16384.size a ≤ S128x16384.size a
  h_S128x16384 : 0 < S128x16384.numel
  shapeCasts_S128x16384_S128x16384 : S128x16384.ShapeCasts S128x16384
  reduces_S128x16384_S128 : S128x16384.Reduces [1] S128
  shapeCasts_S128_S128x1 : S128.ShapeCasts S128x1
  natLt_1_32 : 1 < 32
  concatenates_S128x1_S128x1_S128x1_S128x3_d1 : Shape.Concatenates [S128x1, S128x1, S128x1] S128x3 1
  shapeCasts_S128x3_S128x3 : S128x3.ShapeCasts S128x3
  slices_S256x3_S256x1_0_0 : S256x3.Slices ![0, 0] S256x1
  shapeCasts_S256x1_S256 : S256x1.ShapeCasts S256
  slices_S256x3_S256x1_0_1 : S256x3.Slices ![0, 1] S256x1
  slices_S256x3_S256x1_0_2 : S256x3.Slices ![0, 2] S256x1
  bcast_S_S256 : S_.BroadcastsInDim S256 (![] : Fin 0 → Fin S256.rank)
  bcast_S256_S256x1_0 : S256.BroadcastsInDim S256x1 (![0] : Fin 1 → Fin S256x1.rank)
  concatenates_S256x1_S256x1_S256x1_S256x3_d1 : Shape.Concatenates [S256x1, S256x1, S256x1] S256x3 1
  reducesTo_S256x3_S256_d1 : S256x3.ReducesTo [1] S256
  h_S_ : 0 < S_.numel
  bcast_S_S256x1 : S_.BroadcastsInDim S256x1 (![] : Fin 0 → Fin S256x1.rank)
  bcast_S256x1_S256x3_0_1 : S256x1.BroadcastsInDim S256x3 (![0, 1] : Fin 2 → Fin S256x3.rank)
  transposes_S256x3_S3x256_1_0 : S256x3.Transposes [1, 0] S3x256
  reducesTo_S256x256_S256_d1 : S256x256.ReducesTo [1] S256
  reducesTo_S256_S_d0 : S256.ReducesTo [0] S_
  dot_S256x3_S3x256_S256x256_1_0_0_1_n_n_wf : DotDims.WF S256x3 S3x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S256x1048576.size a
  hwx0_0 : ∀ i : grid0.Coords, EltTy.bits .f32 = 32 ∨ (Rect.block (s := S256x1048576) S128x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S256x3.size a
  hwx0_1 : ∀ i : grid0.Coords, EltTy.bits .f32 = 32 ∨ (Rect.block (s := S256x3) S128x3.size (cc0_transform_1 i) (hinb0_1 i)).WholeWords (EltTy.packing .f32)

variable [Facts₀]

def dot_S256x3_S3x256_S256x256_1_0_0_1_n_n : DotDims S256x3 S3x256 S256x256 where
  lhsContracting := [1]
  rhsContracting := [0]
  lhsNonContracting := [0]
  rhsNonContracting := [1]
  lhsBatch := []
  rhsBatch := []
  wf := dot_S256x3_S3x256_S256x256_1_0_0_1_n_n_wf

abbrev win0_0 : Pipeline.Window sig grid0 :=
  Pipeline.Window.ofSpec (Memref.whole main_v0) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x3.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x1024x1024 : Shape := ⟨3, ![256, 1024, 1024]⟩
abbrev S_ : Shape := ⟨0, ![]⟩
abbrev S256 : Shape := ⟨1, ![256]⟩
abbrev S256x1x1 : Shape := ⟨3, ![256, 1, 1]⟩
abbrev S256x1 : Shape := ⟨2, ![256, 1]⟩
abbrev S256x3 : Shape := ⟨2, ![256, 3]⟩
abbrev S3x256 : Shape := ⟨2, ![3, 256]⟩
abbrev S256x256 : Shape := ⟨2, ![256, 256]⟩

abbrev nBuf : Space → Nat
  | .hbm => 80
  | .vmem => 0
  | .smem => 0
  | _ => 0

abbrev bufTy : (tb : Table) → Fin (tcTables nBuf tb) → BufTy
  | .hbm, ⟨0, _⟩ => ⟨S256x1024x1024, .f32⟩
  | .hbm, ⟨1, _⟩ => ⟨S256x1024x1024, .f32⟩
  | .hbm, ⟨2, _⟩ => ⟨S256x1024x1024, .f32⟩
  | .hbm, ⟨3, _⟩ => ⟨S_, .f32⟩
  | .hbm, ⟨4, _⟩ => ⟨S256x1024x1024, .f32⟩
  | .hbm, ⟨5, _⟩ => ⟨S256x1024x1024, .f32⟩
  | .hbm, ⟨6, _⟩ => ⟨S_, .f32⟩
  | .hbm, ⟨7, _⟩ => ⟨S256x1024x1024, .f32⟩
  | .hbm, ⟨8, _⟩ => ⟨S256x1024x1024, .f32⟩
  | .hbm, ⟨9, _⟩ => ⟨S_, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S_, .i32⟩
  | .hbm, ⟨15, _⟩ => ⟨S_, .f32⟩
  | .hbm, ⟨16, _⟩ => ⟨S256, .f32⟩
  | .hbm, ⟨17, _⟩ => ⟨S256x1x1, .f32⟩
  | .hbm, ⟨18, _⟩ => ⟨S_, .f32⟩
  | .hbm, ⟨19, _⟩ => ⟨S256x1x1, .f32⟩
  | .hbm, ⟨20, _⟩ => ⟨S256x1x1, .f32⟩
  | .hbm, ⟨21, _⟩ => ⟨S256x1024x1024, .f32⟩
  | .hbm, ⟨22, _⟩ => ⟨S256x1024x1024, .f32⟩
  | .hbm, ⟨23, _⟩ => ⟨S256x1024x1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S_, .f32⟩
  | .hbm, ⟨39, _⟩ => ⟨S256x1024x1024, .f32⟩
  | .hbm, ⟨40, _⟩ => ⟨S256x1024x1024, .i1⟩
  | .hbm, ⟨41, _⟩ => ⟨S256x1024x1024, .i32⟩
  | .hbm, ⟨42, _⟩ => ⟨S_, .i32⟩
  | .hbm, ⟨43, _⟩ => ⟨S256, .i32⟩
  | .hbm, ⟨44, _⟩ => ⟨S256, .f32⟩
  | .hbm, ⟨45, _⟩ => ⟨S256x1, .f32⟩
  | .hbm, ⟨46, _⟩ => ⟨S256x1, .f32⟩
  | .hbm, ⟨47, _⟩ => ⟨S256x1, .f32⟩
  | .hbm, ⟨48, _⟩ => ⟨S256x3, .f32⟩
  | .hbm, ⟨49, _⟩ => ⟨S256x3, .f32⟩
  | .hbm, ⟨50, _⟩ => ⟨S_, .f32⟩
  | .hbm, ⟨51, _⟩ => ⟨S256, .f32⟩
  | .hbm, ⟨52, _⟩ => ⟨S256x1, .f32⟩
  | .hbm, ⟨53, _⟩ => ⟨S256x1, .f32⟩
  | .hbm, ⟨54, _⟩ => ⟨S_, .f32⟩
  | .hbm, ⟨55, _⟩ => ⟨S256x1, .f32⟩
  | .hbm, ⟨56, _⟩ => ⟨S256x1, .f32⟩
  | .hbm, ⟨57, _⟩ => ⟨S256x3, .f32⟩
  | .hbm, ⟨58, _⟩ => ⟨S256x3, .f32⟩
  | .hbm, ⟨59, _⟩ => ⟨S3x256, .f32⟩
  | .hbm, ⟨60, _⟩ => ⟨S256x256, .f32⟩
  | .hbm, ⟨61, _⟩ => ⟨S_, .f32⟩
  | .hbm, ⟨62, _⟩ => ⟨S256, .f32⟩
  | .hbm, ⟨63, _⟩ => ⟨S_, .f32⟩
  | .hbm, ⟨64, _⟩ => ⟨S256, .f32⟩
  | .hbm, ⟨65, _⟩ => ⟨S256, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S256, .f32⟩
  | .hbm, ⟨71, _⟩ => ⟨S256, .f32⟩
  | .hbm, ⟨72, _⟩ => ⟨S256, .f32⟩
  | .hbm, ⟨73, _⟩ => ⟨S256, .f32⟩
  | .hbm, ⟨74, _⟩ => ⟨S_, .f32⟩
  | .hbm, ⟨75, _⟩ => ⟨S256, .f32⟩
  | .hbm, ⟨76, _⟩ => ⟨S256, .f32⟩
  | .hbm, ⟨77, _⟩ => ⟨S_, .f32⟩
  | .hbm, ⟨78, _⟩ => ⟨S256, .f32⟩
  | .hbm, ⟨79, _⟩ => ⟨S256, .f32⟩
  | _, _ => ⟨S256x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_cst_0 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_cst_1 : Ref sig .tc := ⟨.hbm, 25, rfl⟩
abbrev main_call0_call0_v8 : Ref sig .tc := ⟨.hbm, 26, rfl⟩
abbrev main_call0_call0_cst_2 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_call0_cst_3 : Ref sig .tc := ⟨.hbm, 31, rfl⟩
abbrev main_call0_call0_v12 : Ref sig .tc := ⟨.hbm, 32, rfl⟩
abbrev main_call0_call0_cst_4 : Ref sig .tc := ⟨.hbm, 33, rfl⟩
abbrev main_call0_call0_call0_v0 : Ref sig .tc := ⟨.hbm, 34, rfl⟩
abbrev main_call0_call0_call0_v1 : Ref sig .tc := ⟨.hbm, 35, rfl⟩
abbrev main_call0_v0 : Ref sig .tc := ⟨.hbm, 36, rfl⟩
abbrev main_v9 : Ref sig .tc := ⟨.hbm, 37, rfl⟩
abbrev main_cst_3 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_c_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_call1_v0 : Ref sig .tc := ⟨.hbm, 49, rfl⟩
abbrev main_call1_cst : Ref sig .tc := ⟨.hbm, 50, rfl⟩
abbrev main_call1_v1 : Ref sig .tc := ⟨.hbm, 51, rfl⟩
abbrev main_call1_v2 : Ref sig .tc := ⟨.hbm, 52, rfl⟩
abbrev main_v19 : Ref sig .tc := ⟨.hbm, 53, rfl⟩
abbrev main_cst_5 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_cst_7 : Ref sig .tc := ⟨.hbm, 63, rfl⟩
abbrev main_v27 : Ref sig .tc := ⟨.hbm, 64, rfl⟩
abbrev main_v28 : Ref sig .tc := ⟨.hbm, 65, rfl⟩
abbrev main_cst_8 : Ref sig .tc := ⟨.hbm, 66, rfl⟩
abbrev main_v29 : Ref sig .tc := ⟨.hbm, 67, rfl⟩
abbrev main_cst_9 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_10 : Ref sig .tc := ⟨.hbm, 74, rfl⟩
abbrev main_v35 : Ref sig .tc := ⟨.hbm, 75, rfl⟩
abbrev main_v36 : Ref sig .tc := ⟨.hbm, 76, rfl⟩
abbrev main_cst_11 : Ref sig .tc := ⟨.hbm, 77, rfl⟩
abbrev main_v37 : Ref sig .tc := ⟨.hbm, 78, rfl⟩
abbrev main_v38 : Ref sig .tc := ⟨.hbm, 79, rfl⟩

abbrev nD : Nat := 1
abbrev τ : Topo := Topo.v7x

variable {F : FTy → Type} [FloatOps F]

class Facts₀ : Prop where
  bcast_S_S256x1024x1024 : S_.BroadcastsInDim S256x1024x1024 (![] : Fin 0 → Fin S256x1024x1024.rank)
  reducesTo_S256x1024x1024_S256_d1_2 : S256x1024x1024.ReducesTo [1, 2] S256
  h_S_ : 0 < S_.numel
  bcast_S_S256 : S_.BroadcastsInDim S256 (![] : Fin 0 → Fin S256.rank)
  bcast_S256_S256x1x1_0 : S256.BroadcastsInDim S256x1x1 (![0] : Fin 1 → Fin S256x1x1.rank)
  bcast_S_S256x1x1 : S_.BroadcastsInDim S256x1x1 (![] : Fin 0 → Fin S256x1x1.rank)
  bcast_S256x1x1_S256x1024x1024_0_1_2 : S256x1x1.BroadcastsInDim S256x1024x1024 (![0, 1, 2] : Fin 3 → Fin S256x1024x1024.rank)
  natLt_1_32 : 1 < 32
  bcast_S256_S256x1_0 : S256.BroadcastsInDim S256x1 (![0] : Fin 1 → Fin S256x1.rank)
  concatenates_S256x1_S256x1_S256x1_S256x3_d1 : Shape.Concatenates [S256x1, S256x1, S256x1] S256x3 1
  reducesTo_S256x3_S256_d1 : S256x3.ReducesTo [1] S256
  bcast_S_S256x1 : S_.BroadcastsInDim S256x1 (![] : Fin 0 → Fin S256x1.rank)
  bcast_S256x1_S256x3_0_1 : S256x1.BroadcastsInDim S256x3 (![0, 1] : Fin 2 → Fin S256x3.rank)
  transposes_S256x3_S3x256_1_0 : S256x3.Transposes [1, 0] S3x256
  reducesTo_S256x256_S256_d1 : S256x256.ReducesTo [1] S256
  reducesTo_S256_S_d0 : S256.ReducesTo [0] S_
  dot_S256x3_S3x256_S256x256_1_0_0_1_n_n_wf : DotDims.WF S256x3 S3x256 S256x256 [1] [0] [0] [1] [] []

variable [Facts₀]

def dot_S256x3_S3x256_S256x256_1_0_0_1_n_n : DotDims S256x3 S3x256 S256x256 where
  lhsContracting := [1]
  rhsContracting := [0]
  lhsNonContracting := [0]
  rhsNonContracting := [1]
  lhsBatch := []
  rhsBatch := []
  wf := dot_S256x3_S3x256_S256x256_1_0_0_1_n_n_wf

class Facts : Prop extends Facts₀ where

variable [Facts]
-- ==== Proof.KSetup.lean ====
/-
  The statistics kernel's launch, around its one pipelined region.

  @main reshapes the logits to [256, 1048576], runs the region over a 2 × 64 grid — grid axis 0 picks a
  block of 128 instances, grid axis 1 a block of 16384 columns; the [128, 3] output block depends on
  axis 0 alone, so it stays in its staging buffer across the 64 column steps of one instance block and
  is written back after the last — and then continues with host operations on the [256, 3] result.
  Here: the contents the region finds, @main as prefix / region / suffix, what the suffix touches,
  the input block at a grid point, the branch condition of the body (column step 0 resets the
  accumulator) in closed form, and the frame claim read off a frame run.
-/
import proofs.«114488_j90417651516041_2_alg».proof.Proof.Gen.Kernel.Launch
import proofs.«114488_j90417651516041_2_alg».proof.Proof.Gen.Kernel.Skeleton
import proofs.«114488_j90417651516041_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the reshape of the logits. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the reshape, the region, and the three stretches of host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The operations after the region touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No operation of a list writes `b`, when each writes one buffer other than `b`. -/
theorem keeps_of_forall (ops : List (HloOp τ sig (Elt F))) (b : DevRef τ sig)
    (h : ops.Forall fun op => b ∉ op.writes) : ∀ op ∈ ops, b ∉ op.writes :=
  List.forall_iff_forall_mem.mp h

theorem hostOps1_keeps (w : Fin 2) : (hostOps1 : List (HloOp τ sig (Elt F))).Forall fun op =>
    Proc.devRef .tc (Pipeline.arrRef spec0 w) ∉ op.writes := by
  fin_cases w <;>
  · simp only [hostOps1, List.Forall, StableHlo.nullary_writes, StableHlo.unary_writes, StableHlo.binary_writes, StableHlo.reshape_writes,
      StableHlo.nary_writes, Finset.mem_singleton]
    repeat' apply And.intro
    all_goals exact StableHlo.devRef_ne_of_ne (by decide)
theorem hostOps1_1_keeps (w : Fin 2) : (hostOps1_1 : List (HloOp τ sig (Elt F))).Forall fun op =>
    Proc.devRef .tc (Pipeline.arrRef spec0 w) ∉ op.writes := by
  fin_cases w <;>
  · simp only [hostOps1_1, List.Forall, StableHlo.TRef.nullary, StableHlo.TRef.unary, StableHlo.TRef.binary,
      StableHlo.nullary_writes, StableHlo.unary_writes, StableHlo.binary_writes, Finset.mem_singleton]
    repeat' apply And.intro
    all_goals exact StableHlo.devRef_ne_of_ne (by decide)
theorem hostOps1_2_keeps (w : Fin 2) : (hostOps1_2 : List (HloOp τ sig (Elt F))).Forall fun op =>
    Proc.devRef .tc (Pipeline.arrRef spec0 w) ∉ op.writes := by
  fin_cases w <;>
  · simp only [hostOps1_2, List.Forall, StableHlo.nullary_writes, StableHlo.unary_writes, StableHlo.binary_writes, StableHlo.reshape_writes,
      Finset.mem_singleton]
    repeat' apply And.intro
    all_goals exact StableHlo.devRef_ne_of_ne (by decide)

/-- And write neither the reshaped logits nor the region's result (each writes only its own result buffer). -/
theorem sfx_keeps : ∀ ops ∈ (tailOps : List (List (HloOp τ sig (Elt F)))), ∀ op ∈ ops,
    ∀ w, Proc.devRef .tc (Pipeline.arrRef spec0 w) ∉ op.writes := by
  intro ops hops op hop w
  simp only [tailOps, List.mem_cons, List.mem_nil_iff, or_false] at hops
  rcases hops with rfl | rfl | rfl
  · exact keeps_of_forall _ _ (hostOps1_keeps w) op hop
  · exact keeps_of_forall _ _ (hostOps1_1_keeps w) op hop
  · exact keeps_of_forall _ _ (hostOps1_2_keeps w) op hop

/-- The reshape before the region does not write the logits: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- The logits are no window's array and no operation after the region writes them, so after the run
    they are as launched. -/
theorem tail_keeps_arg0 : ∀ op ∈ (List.flatten (tailOps (F := F))), Proc.devRef .tc main_arg0 ∉ op.writes :=
  List.forall_iff_forall_mem.mp (by
    simp only [tailOps, hostOps1, hostOps1_1, hostOps1_2, List.flatten_cons, List.flatten_nil, List.append_nil, List.cons_append,
      List.nil_append, List.Forall, StableHlo.TRef.nullary, StableHlo.TRef.unary, StableHlo.TRef.binary,
      StableHlo.nullary_writes, StableHlo.unary_writes, StableHlo.binary_writes, StableHlo.reshape_writes,
      StableHlo.nary_writes, Finset.mem_singleton]
    repeat' apply And.intro
    all_goals exact StableHlo.devRef_ne_of_ne (by decide))

/-- So what the run's post says of the logits is their launch contents. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ tail_keeps_arg0,
    Pipeline.withArrays_of_ne _ c (V0 m c) _ main_arg0 (by exact (by decide : ∀ w, Pipeline.arrRef spec0 w ≠ main_arg0))]
  exact V_main_arg0 m c

/-- The frame claim from a frame run: the logits are an unscoped buffer that is no window's array, and
    the run's post has every such buffer at what the operations after the region leave. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

/-! ## The body's branch condition -/

/-- The body resets its accumulator when the column step (grid coordinate 1) is zero. -/
abbrev cond0_0 (i : grid0.Coords) : Prop := (Scalar.cmpi .ne (Scalar.extui (Scalar.cmpi .eq (BitVec.ofNat 32 (i 1).val) 0#32)) 0#32) = 1#1
/-- That is at the points ≡ 0 (mod 64): decided over the 128 points of the grid. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging memrefs at a point -/

/-- One staging buffer of the output window, through which its contents are stated. -/
abbrev VO0_1 : View sig .tc .vmem S128x3 .f32 := (Memref.whole cc0_stg1_0 : Memref sig .tc .vmem S128x3 .f32).view
abbrev ms0_0 (t : Fin cfg0.N) : Memref sig .tc .vmem S128x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x3 .f32 := win0_1.stage (cfg0.slots t 1)
abbrev hs0_1 (t : Fin cfg0.N) : (ms0_1 t).IsWhole := hstage0_1 ((cfg0.slots t 1).cast nbuf0_1)

end Cert.Kernel.HFrame

end
-- ==== Proof.KRunA.lean ====
/-
  The kernel body at a grid point whose column step is 0: it first overwrites the whole [128, 3]
  accumulator with zeros, then adds the block's three row statistics to it.  The run is stated on any
  whole staging memrefs; what the body's stores leave in the accumulator is found by the run itself, as the
  list of pieces written (last first).
-/
import proofs.«114488_j90417651516041_2_alg».proof.Proof.KSetup

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body with the reset taken: from the input block `x0` in its buffer and anything in the
    accumulator's, it runs to the end with the input as it was and the accumulator holding the pieces. -/
noncomputable def kernelRun0_A (c : Dev nD) (i : grid0.Coords) (arg2 : Memref sig .tc .vmem S128x16384 .f32) (harg2 : arg2.IsWhole) (arg3 : Memref sig .tc .vmem S128x3 .f32) (harg3 : arg3.IsWhole) (hc0 : cond0_0 i)
    (x0 : Vec F S128x16384 .f32) :
    { L1 : List (View.Piece (Elt F) S128x3 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__stats_kernel i arg2 harg2 arg3 harg3) K } := by
  refine ⟨?_, fun E K => ?run⟩
  case run =>
    simp only [cc0__stats_kernel_eq_skeleton]; unfold cc0__stats_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

end Cert.Kernel.HFrame

end
-- ==== Proof.KRunB.lean ====
/-
  The kernel body at a grid point whose column step is not 0: it adds the block's three row statistics
  to what the accumulator already holds.  Stated like the reset case, with the accumulator's running
  contents `xo1` named.
-/
import proofs.«114488_j90417651516041_2_alg».proof.Proof.KRunA

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body with the reset skipped: from the input block `x0` and the accumulator at `xo1`, it runs
    to the end with the input as it was and the accumulator holding the pieces. -/
noncomputable def kernelRun0_B (c : Dev nD) (i : grid0.Coords) (arg2 : Memref sig .tc .vmem S128x16384 .f32) (harg2 : arg2.IsWhole) (arg3 : Memref sig .tc .vmem S128x3 .f32) (harg3 : arg3.IsWhole) (hc0 : ¬cond0_0 i)
    (x0 : Vec F S128x16384 .f32) (xo1 : Vec F S128x3 .f32) :
    { L1 : List (View.Piece (Elt F) S128x3 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__stats_kernel i arg2 harg2 arg3 harg3) K } := by
  refine ⟨?_, fun E K => ?run⟩
  case run =>
    simp only [cc0__stats_kernel_eq_skeleton]; unfold cc0__stats_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.Kernel.HFrame

end
-- ==== Proof.KFrame.lean ====
/-
  The frame of the statistics kernel.

  What the [128, 3] accumulator block holds after the body at each grid point is defined by recursion on
  the point: at a point whose column step is 0 the body resets it and adds the block's statistics; at any
  other point it adds them to what the point before left (the block is written back only after column step
  63, so between two such points the staging buffer is untouched).  With these contents as proof data the
  body meets the pipeline's obligation at every point, the launch theorem gives the run of @main — the
  reshape, the region, the host operations after it — and the logits end as launched.
-/
import proofs.«114488_j90417651516041_2_alg».proof.Proof.KRunB

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a reset point the pieces written tile the accumulator block. -/
theorem cover0_A_1 (c : Dev nD) (i : grid0.Coords) (arg2 : Memref sig .tc .vmem S128x16384 .f32) (harg2 : arg2.IsWhole) (arg3 : Memref sig .tc .vmem S128x3 .f32) (harg3 : arg3.IsWhole) (hc0 : cond0_0 i)
    (x0 : Vec F S128x16384 .f32) (y : S128x3.Idx) :
    ∃ pc ∈ (kernelRun0_A c i arg2 harg2 arg3 harg3 hc0 x0).1, y ∈ pc.1.set :=
  View.cover_of_tiledL (kernelRun0_A c i arg2 harg2 arg3 harg3 hc0 x0).1 S128x3.size (by sl_kernel_rfl) y

/-- What a reset point leaves in the accumulator block. -/
def out0_A_1 (c : Dev nD) (i : grid0.Coords) (arg2 : Memref sig .tc .vmem S128x16384 .f32) (harg2 : arg2.IsWhole) (arg3 : Memref sig .tc .vmem S128x3 .f32) (harg3 : arg3.IsWhole) (hc0 : cond0_0 i)
    (x0 : Vec F S128x16384 .f32) : Vec F S128x3 .f32 :=
  VO0_1.read (Elt F) (VO0_1.writes (Elt F) VO0_1.junk (kernelRun0_A c i arg2 harg2 arg3 harg3 hc0 x0).1)

/-- At an accumulating point the pieces written tile the accumulator block. -/
theorem cover0_B_1 (c : Dev nD) (i : grid0.Coords) (arg2 : Memref sig .tc .vmem S128x16384 .f32) (harg2 : arg2.IsWhole) (arg3 : Memref sig .tc .vmem S128x3 .f32) (harg3 : arg3.IsWhole) (hc0 : ¬cond0_0 i)
    (x0 : Vec F S128x16384 .f32) (xo1 : Vec F S128x3 .f32) (y : S128x3.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S128x3.size (by sl_kernel_rfl) y

/-- What an accumulating point leaves in the accumulator block, from what it found there. -/
def out0_B_1 (c : Dev nD) (i : grid0.Coords) (arg2 : Memref sig .tc .vmem S128x16384 .f32) (harg2 : arg2.IsWhole) (arg3 : Memref sig .tc .vmem S128x3 .f32) (harg3 : arg3.IsWhole) (hc0 : ¬cond0_0 i)
    (x0 : Vec F S128x16384 .f32) (xo1 : Vec F S128x3 .f32) : Vec F S128x3 .f32 :=
  VO0_1.read (Elt F) (VO0_1.writes (Elt F) VO0_1.junk (kernelRun0_B c i arg2 harg2 arg3 harg3 hc0 x0 xo1).1)

/-! ## The accumulator point by point -/

/-- What the accumulator block holds after the body at position `n` of the grid's enumeration. -/
def outsAt0 (c : Dev nD) : (n : ℕ) → n < cfg0.N → Vec F S128x3 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (iblk m c 0 ⟨0, hn⟩)
  | n + 1, hn =>
    if h0 : (n + 1) % 64 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (iblk m c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (iblk m c 0 ⟨n + 1, hn⟩) (outsAt0 c n (Nat.lt_of_succ_lt hn))

/-- At a reset point: that case's contents. -/
theorem outsAt0_A (c : Dev nD) (t : Fin cfg0.N) (h0 : t.val % 64 = 0) :
    outsAt0 m c t.val t.isLt = out0_A_1 c (grid0.coords t) (ms0_0 t) (hs0_0 t) (ms0_1 t) (hs0_1 t) ((hcond0_0 t).mpr h0) (iblk m c 0 t) := by
  obtain ⟨n, hn⟩ := t
  cases n with
  | zero => exact rfl
  | succ n => exact (dif_pos h0).trans rfl

/-- At an accumulating point: that case's contents, over what the point before left. -/
theorem outsAt0_B (c : Dev nD) (t : Fin cfg0.N) (h0 : ¬t.val % 64 = 0) :
    outsAt0 m c t.val t.isLt = out0_B_1 c (grid0.coords t) (ms0_0 t) (hs0_0 t) (ms0_1 t) (hs0_1 t) (fun h => h0 ((hcond0_0 t).mp h)) (iblk m c 0 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` the
    input's buffer at its block and the accumulator's at `outsAt0`; the class's invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-- At an accumulating point the accumulator's staging buffer holds what the body left at the point before:
    the point is not the first, and the block was not written back in between. -/
theorem before0_1_B (c : Dev nD) (t : Fin cfg0.N) (h0 : ¬t.val % 64 = 0) (d) :
    (dats m 0 c).before 1 t d = (outsAt0 m c (t.val - 1) (Nat.lt_of_le_of_lt (Nat.sub_le _ _) t.isLt)) := by
  have hN : t.val < 128 := lt_of_lt_of_eq t.isLt (show cfg0.N = 128 from N_0)
  rw [Dat.before_out_kept _ 1 rfl t (by omega) (Bool.eq_false_iff.mpr fun h => by have := (flush0_1 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 800000 in
/-- The body at any point: the closed form says which case the point is in, and that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  have hN : t.val < 128 := lt_of_lt_of_eq t.isLt (show cfg0.N = 128 from N_0)
  by_cases h0 : t.val % 64 = 0
  · rw [outsAt0_A m c t h0]
    unfold out0_A_1
    iintro ⟨HΦ, Ho, ⟨%d0, H0⟩, ⟨%d1, H1⟩⟩
    iapply ((kernelRun0_A c (grid0.coords t) _ _ _ _ ((hcond0_0 t).mpr h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _)
  · rw [outsAt0_B m c t h0]
    simp only [before0_1_B m c t h0]
    unfold out0_B_1
    iintro ⟨HΦ, Ho, ⟨%d0, H0⟩, ⟨%d1, H1⟩⟩
    iapply ((kernelRun0_B c (grid0.coords t) _ _ _ _ (fun h => h0 ((hcond0_0 t).mp h)) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at the end the region's result holds what the
    proof data say was written back, and every other unscoped buffer what the operations after the
    region leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: @main runs to the end and the logits are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (run_main m ρ)

end Cert.Kernel.HFrame

end
-- ==== Proof.KISetup.lean ====
/-
  The statistics kernel's launch, around its one pipelined region.

  @main reshapes the logits to [256, 1048576], runs the region over a 2 × 64 grid — grid axis 0 picks a
  block of 128 instances, grid axis 1 a block of 16384 columns; the [128, 3] output block depends on
  axis 0 alone, so it stays in its staging buffer across the 64 column steps of one instance block and
  is written back after the last — and then continues with host operations on the [256, 3] result.
  Here: the contents the region finds, @main as prefix / region / suffix, what the suffix touches,
  the input block at a grid point, the branch condition of the body (column step 0 resets the
  accumulator) in closed form, and the frame claim read off a frame run.
-/
import proofs.«114488_j90417651516041_2_alg».proof.Proof.Gen.KernelIdeal.Launch
import proofs.«114488_j90417651516041_2_alg».proof.Proof.Gen.KernelIdeal.Skeleton
import proofs.«114488_j90417651516041_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the reshape of the logits. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the reshape, the region, and the three stretches of host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The operations after the region touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No operation of a list writes `b`, when each writes one buffer other than `b`. -/
theorem keeps_of_forall (ops : List (HloOp τ sig (Elt F))) (b : DevRef τ sig)
    (h : ops.Forall fun op => b ∉ op.writes) : ∀ op ∈ ops, b ∉ op.writes :=
  List.forall_iff_forall_mem.mp h

theorem hostOps1_keeps (w : Fin 2) : (hostOps1 : List (HloOp τ sig (Elt F))).Forall fun op =>
    Proc.devRef .tc (Pipeline.arrRef spec0 w) ∉ op.writes := by
  fin_cases w <;>
  · simp only [hostOps1, List.Forall, StableHlo.nullary_writes, StableHlo.unary_writes, StableHlo.binary_writes, StableHlo.reshape_writes,
      StableHlo.nary_writes, Finset.mem_singleton]
    repeat' apply And.intro
    all_goals exact StableHlo.devRef_ne_of_ne (by decide)
theorem hostOps1_1_keeps (w : Fin 2) : (hostOps1_1 : List (HloOp τ sig (Elt F))).Forall fun op =>
    Proc.devRef .tc (Pipeline.arrRef spec0 w) ∉ op.writes := by
  fin_cases w <;>
  · simp only [hostOps1_1, List.Forall, StableHlo.TRef.nullary, StableHlo.TRef.unary, StableHlo.TRef.binary,
      StableHlo.nullary_writes, StableHlo.unary_writes, StableHlo.binary_writes, Finset.mem_singleton]
    repeat' apply And.intro
    all_goals exact StableHlo.devRef_ne_of_ne (by decide)
theorem hostOps1_2_keeps (w : Fin 2) : (hostOps1_2 : List (HloOp τ sig (Elt F))).Forall fun op =>
    Proc.devRef .tc (Pipeline.arrRef spec0 w) ∉ op.writes := by
  fin_cases w <;>
  · simp only [hostOps1_2, List.Forall, StableHlo.nullary_writes, StableHlo.unary_writes, StableHlo.binary_writes, StableHlo.reshape_writes,
      Finset.mem_singleton]
    repeat' apply And.intro
    all_goals exact StableHlo.devRef_ne_of_ne (by decide)

/-- And write neither the reshaped logits nor the region's result (each writes only its own result buffer). -/
theorem sfx_keeps : ∀ ops ∈ (tailOps : List (List (HloOp τ sig (Elt F)))), ∀ op ∈ ops,
    ∀ w, Proc.devRef .tc (Pipeline.arrRef spec0 w) ∉ op.writes := by
  intro ops hops op hop w
  simp only [tailOps, List.mem_cons, List.mem_nil_iff, or_false] at hops
  rcases hops with rfl | rfl | rfl
  · exact keeps_of_forall _ _ (hostOps1_keeps w) op hop
  · exact keeps_of_forall _ _ (hostOps1_1_keeps w) op hop
  · exact keeps_of_forall _ _ (hostOps1_2_keeps w) op hop

/-- The reshape before the region does not write the logits: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- The logits are no window's array and no operation after the region writes them, so after the run
    they are as launched. -/
theorem tail_keeps_arg0 : ∀ op ∈ (List.flatten (tailOps (F := F))), Proc.devRef .tc main_arg0 ∉ op.writes :=
  List.forall_iff_forall_mem.mp (by
    simp only [tailOps, hostOps1, hostOps1_1, hostOps1_2, List.flatten_cons, List.flatten_nil, List.append_nil, List.cons_append,
      List.nil_append, List.Forall, StableHlo.TRef.nullary, StableHlo.TRef.unary, StableHlo.TRef.binary,
      StableHlo.nullary_writes, StableHlo.unary_writes, StableHlo.binary_writes, StableHlo.reshape_writes,
      StableHlo.nary_writes, Finset.mem_singleton]
    repeat' apply And.intro
    all_goals exact StableHlo.devRef_ne_of_ne (by decide))

/-- So what the run's post says of the logits is their launch contents. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ tail_keeps_arg0,
    Pipeline.withArrays_of_ne _ c (V0 m c) _ main_arg0 (by exact (by decide : ∀ w, Pipeline.arrRef spec0 w ≠ main_arg0))]
  exact V_main_arg0 m c

/-- The frame claim from a frame run: the logits are an unscoped buffer that is no window's array, and
    the run's post has every such buffer at what the operations after the region leave. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

/-! ## The body's branch condition -/

/-- The body resets its accumulator when the column step (grid coordinate 1) is zero. -/
abbrev cond0_0 (i : grid0.Coords) : Prop := (Scalar.cmpi .ne (Scalar.extui (Scalar.cmpi .eq (BitVec.ofNat 32 (i 1).val) 0#32)) 0#32) = 1#1
/-- That is at the points ≡ 0 (mod 64): decided over the 128 points of the grid. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging memrefs at a point -/

/-- One staging buffer of the output window, through which its contents are stated. -/
abbrev VO0_1 : View sig .tc .vmem S128x3 .f32 := (Memref.whole cc0_stg1_0 : Memref sig .tc .vmem S128x3 .f32).view
abbrev ms0_0 (t : Fin cfg0.N) : Memref sig .tc .vmem S128x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x3 .f32 := win0_1.stage (cfg0.slots t 1)
abbrev hs0_1 (t : Fin cfg0.N) : (ms0_1 t).IsWhole := hstage0_1 ((cfg0.slots t 1).cast nbuf0_1)

end Cert.KernelIdeal.HFrame

end
-- ==== Proof.KIRunA.lean ====
/-
  The kernel body at a grid point whose column step is 0: it first overwrites the whole [128, 3]
  accumulator with zeros, then adds the block's three row statistics to it.  The run is stated on any
  whole staging memrefs; what the body's stores leave in the accumulator is found by the run itself, as the
  list of pieces written (last first).
-/
import proofs.«114488_j90417651516041_2_alg».proof.Proof.KISetup

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body with the reset taken: from the input block `x0` in its buffer and anything in the
    accumulator's, it runs to the end with the input as it was and the accumulator holding the pieces. -/
noncomputable def kernelRun0_A (c : Dev nD) (i : grid0.Coords) (arg2 : Memref sig .tc .vmem S128x16384 .f32) (harg2 : arg2.IsWhole) (arg3 : Memref sig .tc .vmem S128x3 .f32) (harg3 : arg3.IsWhole) (hc0 : cond0_0 i)
    (x0 : Vec F S128x16384 .f32) :
    { L1 : List (View.Piece (Elt F) S128x3 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__stats_kernel i arg2 harg2 arg3 harg3) K } := by
  refine ⟨?_, fun E K => ?run⟩
  case run =>
    simp only [cc0__stats_kernel_eq_skeleton]; unfold cc0__stats_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

end Cert.KernelIdeal.HFrame

end
-- ==== Proof.KIRunB.lean ====
/-
  The kernel body at a grid point whose column step is not 0: it adds the block's three row statistics
  to what the accumulator already holds.  Stated like the reset case, with the accumulator's running
  contents `xo1` named.
-/
import proofs.«114488_j90417651516041_2_alg».proof.Proof.KIRunA

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body with the reset skipped: from the input block `x0` and the accumulator at `xo1`, it runs
    to the end with the input as it was and the accumulator holding the pieces. -/
noncomputable def kernelRun0_B (c : Dev nD) (i : grid0.Coords) (arg2 : Memref sig .tc .vmem S128x16384 .f32) (harg2 : arg2.IsWhole) (arg3 : Memref sig .tc .vmem S128x3 .f32) (harg3 : arg3.IsWhole) (hc0 : ¬cond0_0 i)
    (x0 : Vec F S128x16384 .f32) (xo1 : Vec F S128x3 .f32) :
    { L1 : List (View.Piece (Elt F) S128x3 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__stats_kernel i arg2 harg2 arg3 harg3) K } := by
  refine ⟨?_, fun E K => ?run⟩
  case run =>
    simp only [cc0__stats_kernel_eq_skeleton]; unfold cc0__stats_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.KernelIdeal.HFrame

end
-- ==== Proof.KIFrame.lean ====
/-
  The frame of the statistics kernel.

  What the [128, 3] accumulator block holds after the body at each grid point is defined by recursion on
  the point: at a point whose column step is 0 the body resets it and adds the block's statistics; at any
  other point it adds them to what the point before left (the block is written back only after column step
  63, so between two such points the staging buffer is untouched).  With these contents as proof data the
  body meets the pipeline's obligation at every point, the launch theorem gives the run of @main — the
  reshape, the region, the host operations after it — and the logits end as launched.
-/
import proofs.«114488_j90417651516041_2_alg».proof.Proof.KIRunB

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a reset point the pieces written tile the accumulator block. -/
theorem cover0_A_1 (c : Dev nD) (i : grid0.Coords) (arg2 : Memref sig .tc .vmem S128x16384 .f32) (harg2 : arg2.IsWhole) (arg3 : Memref sig .tc .vmem S128x3 .f32) (harg3 : arg3.IsWhole) (hc0 : cond0_0 i)
    (x0 : Vec F S128x16384 .f32) (y : S128x3.Idx) :
    ∃ pc ∈ (kernelRun0_A c i arg2 harg2 arg3 harg3 hc0 x0).1, y ∈ pc.1.set :=
  View.cover_of_tiledL (kernelRun0_A c i arg2 harg2 arg3 harg3 hc0 x0).1 S128x3.size (by sl_kernel_rfl) y

/-- What a reset point leaves in the accumulator block. -/
def out0_A_1 (c : Dev nD) (i : grid0.Coords) (arg2 : Memref sig .tc .vmem S128x16384 .f32) (harg2 : arg2.IsWhole) (arg3 : Memref sig .tc .vmem S128x3 .f32) (harg3 : arg3.IsWhole) (hc0 : cond0_0 i)
    (x0 : Vec F S128x16384 .f32) : Vec F S128x3 .f32 :=
  VO0_1.read (Elt F) (VO0_1.writes (Elt F) VO0_1.junk (kernelRun0_A c i arg2 harg2 arg3 harg3 hc0 x0).1)

/-- At an accumulating point the pieces written tile the accumulator block. -/
theorem cover0_B_1 (c : Dev nD) (i : grid0.Coords) (arg2 : Memref sig .tc .vmem S128x16384 .f32) (harg2 : arg2.IsWhole) (arg3 : Memref sig .tc .vmem S128x3 .f32) (harg3 : arg3.IsWhole) (hc0 : ¬cond0_0 i)
    (x0 : Vec F S128x16384 .f32) (xo1 : Vec F S128x3 .f32) (y : S128x3.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S128x3.size (by sl_kernel_rfl) y

/-- What an accumulating point leaves in the accumulator block, from what it found there. -/
def out0_B_1 (c : Dev nD) (i : grid0.Coords) (arg2 : Memref sig .tc .vmem S128x16384 .f32) (harg2 : arg2.IsWhole) (arg3 : Memref sig .tc .vmem S128x3 .f32) (harg3 : arg3.IsWhole) (hc0 : ¬cond0_0 i)
    (x0 : Vec F S128x16384 .f32) (xo1 : Vec F S128x3 .f32) : Vec F S128x3 .f32 :=
  VO0_1.read (Elt F) (VO0_1.writes (Elt F) VO0_1.junk (kernelRun0_B c i arg2 harg2 arg3 harg3 hc0 x0 xo1).1)

/-! ## The accumulator point by point -/

/-- What the accumulator block holds after the body at position `n` of the grid's enumeration. -/
def outsAt0 (c : Dev nD) : (n : ℕ) → n < cfg0.N → Vec F S128x3 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (iblk m c 0 ⟨0, hn⟩)
  | n + 1, hn =>
    if h0 : (n + 1) % 64 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (iblk m c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (iblk m c 0 ⟨n + 1, hn⟩) (outsAt0 c n (Nat.lt_of_succ_lt hn))

/-- At a reset point: that case's contents. -/
theorem outsAt0_A (c : Dev nD) (t : Fin cfg0.N) (h0 : t.val % 64 = 0) :
    outsAt0 m c t.val t.isLt = out0_A_1 c (grid0.coords t) (ms0_0 t) (hs0_0 t) (ms0_1 t) (hs0_1 t) ((hcond0_0 t).mpr h0) (iblk m c 0 t) := by
  obtain ⟨n, hn⟩ := t
  cases n with
  | zero => exact rfl
  | succ n => exact (dif_pos h0).trans rfl

/-- At an accumulating point: that case's contents, over what the point before left. -/
theorem outsAt0_B (c : Dev nD) (t : Fin cfg0.N) (h0 : ¬t.val % 64 = 0) :
    outsAt0 m c t.val t.isLt = out0_B_1 c (grid0.coords t) (ms0_0 t) (hs0_0 t) (ms0_1 t) (hs0_1 t) (fun h => h0 ((hcond0_0 t).mp h)) (iblk m c 0 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` the
    input's buffer at its block and the accumulator's at `outsAt0`; the class's invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-- At an accumulating point the accumulator's staging buffer holds what the body left at the point before:
    the point is not the first, and the block was not written back in between. -/
theorem before0_1_B (c : Dev nD) (t : Fin cfg0.N) (h0 : ¬t.val % 64 = 0) (d) :
    (dats m 0 c).before 1 t d = (outsAt0 m c (t.val - 1) (Nat.lt_of_le_of_lt (Nat.sub_le _ _) t.isLt)) := by
  have hN : t.val < 128 := lt_of_lt_of_eq t.isLt (show cfg0.N = 128 from N_0)
  rw [Dat.before_out_kept _ 1 rfl t (by omega) (Bool.eq_false_iff.mpr fun h => by have := (flush0_1 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 800000 in
/-- The body at any point: the closed form says which case the point is in, and that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  have hN : t.val < 128 := lt_of_lt_of_eq t.isLt (show cfg0.N = 128 from N_0)
  by_cases h0 : t.val % 64 = 0
  · rw [outsAt0_A m c t h0]
    unfold out0_A_1
    iintro ⟨HΦ, Ho, ⟨%d0, H0⟩, ⟨%d1, H1⟩⟩
    iapply ((kernelRun0_A c (grid0.coords t) _ _ _ _ ((hcond0_0 t).mpr h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _)
  · rw [outsAt0_B m c t h0]
    simp only [before0_1_B m c t h0]
    unfold out0_B_1
    iintro ⟨HΦ, Ho, ⟨%d0, H0⟩, ⟨%d1, H1⟩⟩
    iapply ((kernelRun0_B c (grid0.coords t) _ _ _ _ (fun h => h0 ((hcond0_0 t).mp h)) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at the end the region's result holds what the
    proof data say was written back, and every other unscoped buffer what the operations after the
    region leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: @main runs to the end and the logits are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (run_main m ρ)

end Cert.KernelIdeal.HFrame

end
-- ==== Proof.KVal1.lean ====
/-
  What the accumulator holds, as values.

  At a reset point the body stores the zero block, reads it back and stores "zeros + the block's
  statistics"; at any other point it stores "what was there + the block's statistics".  Both are one
  payload of the body, `k0_pay2 x acc`, at `acc` the zero block or the previous contents.  So the
  accumulator after each grid point is a plain recursion over that payload and the input blocks.
-/
import proofs.«114488_j90417651516041_2_alg».proof.Proof.KIFrame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.HValue

open Cert.KernelIdeal Cert.KernelIdeal.Gen Cert.KernelIdeal.HFrame

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- An accumulating point leaves the body's sum payload of the input block and the previous contents. -/
theorem out_B (c : Dev nD) (i : grid0.Coords) (a2 : Memref sig .tc .vmem S128x16384 .f32) (h2 : a2.IsWhole)
    (a3 : Memref sig .tc .vmem S128x3 .f32) (h3 : a3.IsWhole) (hc : ¬cond0_0 i) (x : Vec F S128x16384 .f32) (xo : Vec F S128x3 .f32) :
    out0_B_1 c i a2 h2 a3 h3 hc x xo = k0_pay2 x xo := by
  unfold out0_B_1
  rw [View.read_writes_eq_canon _ _ _ (cover0_B_1 c i a2 h2 a3 h3 hc x xo)]
  unfold kernelRun0_B
  dsimp only
  rw [View.canon_unit_zero hz]
  simp only [View.readAt_eq_ld, h2.read_unread, h3.read_unread, View.ld_unit_zero (S := S128x16384) hz, View.ld_unit_zero (S := S128x3) hz]

/-- A reset point leaves the same payload of the input block and the zero block. -/
theorem out_A (c : Dev nD) (i : grid0.Coords) (a2 : Memref sig .tc .vmem S128x16384 .f32) (h2 : a2.IsWhole)
    (a3 : Memref sig .tc .vmem S128x3 .f32) (h3 : a3.IsWhole) (hc : cond0_0 i) (x : Vec F S128x16384 .f32) :
    out0_A_1 c i a2 h2 a3 h3 hc x = k0_pay2 x (k0_pay1 (F := F)) := by
  unfold out0_A_1
  rw [View.read_writes_eq_canon _ _ _ (cover0_A_1 c i a2 h2 a3 h3 hc x)]
  unfold kernelRun0_A
  dsimp only
  sl_unfold_words
  rw [View.canon_cons_unit_zero (S := S128x3) hz, View.readCov_unit_zero (S := S128x3) _ hz]
  simp only [View.readAt_eq_ld, h2.read_unread, View.ld_unit_zero (S := S128x16384) hz, View.ld_unit_zero (S := S128x3) hz]

/-- The accumulator after position `n`: restarted from zeros where the column step is 0, else continued. -/
def chain (c : Dev nD) : (n : ℕ) → n < cfg0.N → Vec F S128x3 .f32
  | 0, h => k0_pay2 (iblk m c 0 ⟨0, h⟩) (k0_pay1 (F := F))
  | n + 1, h =>
    if (n + 1) % 64 = 0 then k0_pay2 (iblk m c 0 ⟨n + 1, h⟩) (k0_pay1 (F := F))
    else k0_pay2 (iblk m c 0 ⟨n + 1, h⟩) (chain c n (Nat.lt_of_succ_lt h))

/-- The frame's point-by-point accumulator is that recursion. -/
theorem outsAt_eq (c : Dev nD) : ∀ (n : ℕ) (h : n < cfg0.N), outsAt0 m c n h = chain m c n h
  | 0, h => (outsAt0_A m c ⟨0, h⟩ rfl).trans (out_A ..)
  | n + 1, h => by
    by_cases h0 : (n + 1) % 64 = 0
    · rw [outsAt0_A m c ⟨n + 1, h⟩ h0, out_A]
      simp only [chain, if_pos h0]
    · rw [outsAt0_B m c ⟨n + 1, h⟩ h0, out_B]
      simp only [chain, if_neg h0]
      show k0_pay2 _ (outsAt0 m c n _) = k0_pay2 _ (chain m c n _)
      rw [outsAt_eq c n]

end Cert.KernelIdeal.HValue

end
-- ==== Proof.KTerms.lean ====
/-
  The per-entry terms of the kernel's three row sums, as functions of one extended real.

  The kernel forms the probability as `1/2 · (tanh (1/2 · x) + 1)`, and sums over a row the centred
  probability, its square, and the indicator of "probability > 1/2" (a comparison, widened to an
  integer and converted to a float).
-/
import Idealize.ShloMosaic.PureOps.Ideal

noncomputable section

namespace Cert.Stats

open Idealize.ShloMosaic

/-- The probability as the kernel forms it. -/
def pk (x : EReal) : EReal :=
  Ideal.ofBits .f32 0x3F000000#32 * (Ideal.tanh (Ideal.ofBits .f32 0x3F000000#32 * x) + Ideal.ofBits .f32 0x3F800000#32)

/-- The centred probability. -/
def g0 (x : EReal) : EReal := pk x - Ideal.ofBits .f32 0x3F000000#32

/-- Its square. -/
def g1 (x : EReal) : EReal := g0 x * g0 x

/-- The indicator of "probability > 1/2", as a float. -/
def g2 (x : EReal) : EReal :=
  FloatOps.sitofp (F := Ideal) .f32
    ((FloatOps.cmpf (F := Ideal) (φ := .f32) .ogt (pk x) (Ideal.ofBits .f32 0x3F000000#32)).setWidth 32)

end Cert.Stats

end
-- ==== Proof.LibColumn.lean ====
/-
  Two layout operations read at an index, for a column kept as a trailing unit axis (a row statistic `[a]` carried as
  `[a, 1]` and spread over the `b` entries of each row), in the style of the library's `shapeCast_a_1a_apply` and
  `broadcastTo_1b_ab_apply`.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KVal2.lean ====
/-
  The body's sum payload at an index.

  The payload adds to the accumulator block, in row `r`, three sums over the 16384 columns of the input
  block's row `r`: of the centred probability (column 0), of its square (column 1), of the indicator of
  "probability > 1/2" (column 2).  The three sums are lane reductions kept as [128, 1] columns and
  concatenated side by side.
-/
import proofs.«114488_j90417651516041_2_alg».proof.Proof.KVal1
import proofs.«114488_j90417651516041_2_alg».proof.Proof.KTerms
import proofs.«114488_j90417651516041_2_alg».proof.Proof.LibColumn
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.HValue

open Cert.KernelIdeal Cert.KernelIdeal.Gen Cert.KernelIdeal.HFrame

open Cert.Stats Idealize.ShloMosaic.ValueIdx

/-- Over row `r` of the lane reduction's result, the reduced coordinate `k` names entry `(r, k)`. -/
theorem lift_row (r : Fin 128) (k : Fin (S128x16384.size 1)) :
    reduces_S128x16384_S128.lift (ix1 r) k = ix2 r (⟨k.val, k.isLt⟩ : Fin 16384) := by
  funext c
  apply Fin.ext
  match c with
  | ⟨0, _⟩ => rw [Shape.Reduces.lift_val]; simp [Shape.Reduces.liftVal]
  | ⟨1, _⟩ => rw [Shape.Reduces.lift_val]; simp [Shape.Reduces.liftVal]

/-- A lane sum of a [128, 16384] block at row `r` is the sum of the row's entries. -/
theorem rowsum_apply (v : FVec Ideal S128x16384 .f32) (r : Fin 128) :
    multiReduction (F := Ideal) .add [1] S128 v 0x00000000#32 reduces_S128x16384_S128 (.inl rfl) rfl (ix1 r)
      = ∑ k : Fin 16384, v (ix2 r k) := by
  refine (Ideal.multiReduction_add_single v 0x00000000#32 reduces_S128x16384_S128 (.inl rfl) rfl (ix1 r)).trans ?_
  exact Finset.sum_congr rfl (fun k _ => congrArg v (lift_row r k))

/-- The concatenation of three [128, 1] columns at `(r, cc)` is column `cc` at `(r, 0)`. -/
theorem concat3_apply (c0 c1 c2 : FVec Ideal S128x1 .f32) (r : Fin 128) :
    concatenate S128x3 1 [⟨S128x1, c0⟩, ⟨S128x1, c1⟩, ⟨S128x1, c2⟩] concatenates_S128x1_S128x1_S128x1_S128x3_d1 (ix2 r (0 : Fin 3)) = c0 (ix2 r (0 : Fin 1))
    ∧ concatenate S128x3 1 [⟨S128x1, c0⟩, ⟨S128x1, c1⟩, ⟨S128x1, c2⟩] concatenates_S128x1_S128x1_S128x1_S128x3_d1 (ix2 r (1 : Fin 3)) = c1 (ix2 r (0 : Fin 1))
    ∧ concatenate S128x3 1 [⟨S128x1, c0⟩, ⟨S128x1, c1⟩, ⟨S128x1, c2⟩] concatenates_S128x1_S128x1_S128x1_S128x3_d1 (ix2 r (2 : Fin 3)) = c2 (ix2 r (0 : Fin 1)) := by
  have hi : ∀ (cc : Fin 3) (b : Fin S128x1.rank), b.cast (rfl : S128x1.rank = S128x3.rank) ≠ (1 : Fin S128x3.rank) →
      ((ix2 r (0 : Fin 1) : S128x1.Idx) b).val = ((ix2 r cc : S128x3.Idx) (b.cast rfl)).val := by
    intro cc b hb
    match b with
    | ⟨0, _⟩ => rfl
    | ⟨1, _⟩ => exact absurd rfl hb
  refine ⟨?_, ?_, ?_⟩
  · exact concatenate_apply_piece (1 : Fin S128x3.rank) _ _ (ix2 r (0 : Fin 3)) 0 (by simp) S128x1 c0 rfl rfl 0 (by rfl)
      (ix2 r (0 : Fin 1)) (hi 0) (by rfl)
  · exact concatenate_apply_piece (1 : Fin S128x3.rank) _ _ (ix2 r (1 : Fin 3)) 1 (by simp) S128x1 c1 rfl rfl 1 (by rfl)
      (ix2 r (0 : Fin 1)) (hi 1) (by rfl)
  · exact concatenate_apply_piece (1 : Fin S128x3.rank) _ _ (ix2 r (2 : Fin 3)) 2 (by simp) S128x1 c2 rfl rfl 2 (by rfl)
      (ix2 r (0 : Fin 1)) (hi 2) (by rfl)

/-- A shape cast to the same shape reads the operand. -/
theorem entry_terms (x : Vec Ideal S128x16384 .f32) (h : S128x16384.ShapeCasts S128x16384) (j : S128x16384.Idx) :
    shapeCast S128x16384 x h j = x j := congrFun (shapeCast_self x h) j

/-- The payload at row `r`, column by column. -/
theorem pay2_apply (x : Vec Ideal S128x16384 .f32) (acc : Vec Ideal S128x3 .f32) (r : Fin 128) :
    k0_pay2 (F := Ideal) x acc (ix2 r (0 : Fin 3)) = acc (ix2 r (0 : Fin 3)) + ∑ k : Fin 16384, g0 (x (ix2 r k))
    ∧ k0_pay2 (F := Ideal) x acc (ix2 r (1 : Fin 3)) = acc (ix2 r (1 : Fin 3)) + ∑ k : Fin 16384, g1 (x (ix2 r k))
    ∧ k0_pay2 (F := Ideal) x acc (ix2 r (2 : Fin 3)) = acc (ix2 r (2 : Fin 3)) + ∑ k : Fin 16384, g2 (x (ix2 r k)) := by
  unfold k0_pay2
  dsimp only
  refine ⟨?_, ?_, ?_⟩
  · refine (addf_apply _ _ _).trans ?_
    refine congrArg₂ (· + ·) (congrFun (shapeCast_self acc _) _) ?_
    refine ((concat3_apply _ _ _ r).1).trans ?_
    refine (Cert.LibColumn.shapeCast_a_a1_apply _ shapeCasts_S128_S128x1 r (0 : Fin 1)).trans ?_
    refine (rowsum_apply _ r).trans ?_
    refine Finset.sum_congr rfl (fun k _ => ?_)
    show g0 (shapeCast S128x16384 x _ (ix2 r k)) = _
    rw [entry_terms]
  · refine (addf_apply _ _ _).trans ?_
    refine congrArg₂ (· + ·) (congrFun (shapeCast_self acc _) _) ?_
    refine ((concat3_apply _ _ _ r).2.1).trans ?_
    refine (Cert.LibColumn.shapeCast_a_a1_apply _ shapeCasts_S128_S128x1 r (0 : Fin 1)).trans ?_
    refine (rowsum_apply _ r).trans ?_
    refine Finset.sum_congr rfl (fun k _ => ?_)
    show g1 (shapeCast S128x16384 x _ (ix2 r k)) = _
    rw [entry_terms]
  · refine (addf_apply _ _ _).trans ?_
    refine congrArg₂ (· + ·) (congrFun (shapeCast_self acc _) _) ?_
    refine ((concat3_apply _ _ _ r).2.2).trans ?_
    refine (Cert.LibColumn.shapeCast_a_a1_apply _ shapeCasts_S128_S128x1 r (0 : Fin 1)).trans ?_
    refine (rowsum_apply _ r).trans ?_
    refine Finset.sum_congr rfl (fun k _ => ?_)
    show g2 (shapeCast S128x16384 x _ (ix2 r k)) = _
    rw [entry_terms]

/-- The zero block at any entry. -/
theorem pay1_apply (i : S128x3.Idx) : k0_pay1 (F := Ideal) i = Ideal.ofBits .f32 0x00000000#32 := rfl

end Cert.KernelIdeal.HValue

end
-- ==== Proof.KVal3.lean ====
/-
  The input block at a grid point, entry by entry, in terms of the logits.

  Point `t` of the 2 × 64 grid is (instance block `t / 64`, column step `t % 64`).  Entry `(r, k)` of
  its [128, 16384] input block is entry `(128 · (t / 64) + r, 16384 · (t % 64) + k)` of the reshaped
  [256, 1048576] logits, that is entry `(n, col / 1024, col % 1024)` of the [256, 1024, 1024] argument
  with `n` that row and `col` that column: a reshape keeps the row-major position.
-/
import proofs.«114488_j90417651516041_2_alg».proof.Proof.KVal2

set_option maxRecDepth 16384

noncomputable section

open Idealize.ShloMosaic Idealize.ShloMosaic.TcCoe Idealize.SL.Sem
open Idealize.ShloMosaic.Pipeline (Dat)

namespace Cert.KernelIdeal.HValue

open Cert.KernelIdeal Cert.KernelIdeal.Gen Cert.KernelIdeal.HFrame

open Cert.Stats Idealize.ShloMosaic.ValueIdx

variable (m : (ℓ : Loc nD τ sig) → Buf (Elt Ideal) ℓ)

/-- The block index maps over the grid: the input moves with both grid axes, the output with axis 0 only. -/
theorem idx_facts0 : ∀ t : Fin cfg0.N, win0_0.index t (0 : Fin 2) = t.val / 64 ∧ win0_0.index t (1 : Fin 2) = t.val % 64 :=
  (by decide +kernel : ∀ t : Fin grid0.N, win0_0.index t (0 : Fin 2) = t.val / 64 ∧ win0_0.index t (1 : Fin 2) = t.val % 64)
theorem idx_facts1 : ∀ t : Fin cfg0.N, win0_1.index t (0 : Fin 2) = t.val / 64 ∧ win0_1.index t (1 : Fin 2) = 0 :=
  (by decide +kernel : ∀ t : Fin grid0.N, win0_1.index t (0 : Fin 2) = t.val / 64 ∧ win0_1.index t (1 : Fin 2) = 0)

/-- The logits as launched. -/
abbrev X (c : Dev nD) : S256x1024x1024.Idx → EReal := m ((c : Thread nD τ).loc main_arg0)

/-- The region finds, as its input array, the reshape of the logits. -/
theorem V_v0 (c : Dev nD) :
    (V m c main_v0 : S256x1048576.Idx → EReal) = shapeCast S256x1048576 (X m c) shapeCasts_S256x1024x1024_S256x1048576 := by
  show StableHlo.after hostOps0 (fun b => m (c, b)) (Proc.devRef .tc main_v0) = _
  after_results
  rfl

/-- The reshape [256, 1024, 1024] → [256, 1048576] at `(n, col)` reads `(n, col / 1024, col % 1024)`. -/
theorem reshape_apply (x : S256x1024x1024.Idx → EReal) (n : Fin 256) (col : Fin 1048576) :
    shapeCast S256x1048576 x shapeCasts_S256x1024x1024_S256x1048576 (ix2 n col)
      = x (ix3 n (⟨col.val / 1024, by omega⟩ : Fin 1024) (⟨col.val % 1024, by omega⟩ : Fin 1024)) :=
  shapeCast_apply x _ _ _ (by
    rw [Shape.rowMajor_val_two, Shape.rowMajor_val_three]
    show (n.val * 1024 + col.val / 1024) * 1024 + col.val % 1024 = n.val * 1048576 + col.val
    omega)

/-- The row of the logits that row `r` of point `t`'s block is, and the column that its column `k` is. -/
def rowOf (t : Fin cfg0.N) (r : Fin 128) : Fin 256 :=
  ⟨128 * (t.val / 64) + r.val, by have h := t.isLt; have hN : cfg0.N = 128 := N_0; omega⟩
def colOf (t : Fin cfg0.N) (k : Fin 16384) : Fin 1048576 :=
  ⟨(t.val % 64) * 16384 + k.val, by omega⟩

/-- Entry `(r, k)` of the input block at point `t`, in the reshaped logits. -/
theorem iblk_apply (c : Dev nD) (t : Fin cfg0.N) (r : Fin 128) (k : Fin 16384) :
    (iblk m c 0 t : Vec Ideal S128x16384 .f32) (ix2 r k) = (V m c main_v0 : S256x1048576.Idx → EReal) (ix2 (rowOf t r) (colOf t k)) := by
  unfold iblk
  rw [View.read_apply]
  show (V m c main_v0 : S256x1048576.Idx → EReal) _ = _
  congr 1
  funext a
  apply Fin.ext
  match a with
  | ⟨0, _⟩ =>
    show win0_0.index t (0 : Fin 2) * 128 + 1 * r.val = 128 * (t.val / 64) + r.val
    rw [(idx_facts0 t).1]; omega
  | ⟨1, _⟩ =>
    show win0_0.index t (1 : Fin 2) * 16384 + 1 * k.val = (t.val % 64) * 16384 + k.val
    rw [(idx_facts0 t).2]; omega

/-- The same entry in the logits themselves. -/
theorem blk_entry (c : Dev nD) (t : Fin cfg0.N) (r : Fin 128) (k : Fin 16384) :
    (iblk m c 0 t : Vec Ideal S128x16384 .f32) (ix2 r k)
      = X m c (ix3 (rowOf t r) (⟨(colOf t k).val / 1024, by omega⟩ : Fin 1024) (⟨(colOf t k).val % 1024, by omega⟩ : Fin 1024)) := by
  rw [iblk_apply, V_v0, reshape_apply]

end Cert.KernelIdeal.HValue

end
-- ==== Proof.KVal4a.lean ====
/-
  The accumulator within one instance block: after column step `s` it holds zero plus the block sums of
  steps 0 … s, column by column (induction on the grid position).
-/
import proofs.«114488_j90417651516041_2_alg».proof.Proof.KVal3

set_option maxRecDepth 16384

noncomputable section

open Idealize.ShloMosaic Idealize.ShloMosaic.TcCoe Idealize.SL.Sem
open Idealize.ShloMosaic.Pipeline (Dat)

namespace Cert.KernelIdeal.HValue

open Cert.KernelIdeal Cert.KernelIdeal.Gen Cert.KernelIdeal.HFrame
open Cert.Stats Idealize.ShloMosaic.ValueIdx

variable (m : (ℓ : Loc nD τ sig) → Buf (Elt Ideal) ℓ)

/-- The sum of `g` over row `r` of the input block at position `n` (zero past the grid). -/
def usum (g : EReal → EReal) (c : Dev nD) (n : ℕ) (r : Fin 128) : EReal :=
  if h : n < cfg0.N then ∑ k : Fin 16384, g ((iblk m c 0 ⟨n, h⟩ : Vec Ideal S128x16384 .f32) (ix2 r k)) else 0

/-- The accumulator after position `n`, in a column whose payload adds row sums of `g`: zero plus the block
    sums of the column steps so far of the current instance block. -/
theorem chain_closed (g : EReal → EReal) (cc : Fin 3)
    (hp : ∀ (x : Vec Ideal S128x16384 .f32) (acc : Vec Ideal S128x3 .f32) (r : Fin 128),
      k0_pay2 (F := Ideal) x acc (ix2 r cc) = acc (ix2 r cc) + ∑ k : Fin 16384, g (x (ix2 r k)))
    (c : Dev nD) (r : Fin 128) : ∀ (n : ℕ) (h : n < cfg0.N),
    chain m c n h (ix2 r cc) = Ideal.ofBits .f32 0x00000000#32 + ∑ s ∈ Finset.range (n % 64 + 1), usum m g c (n - n % 64 + s) r
  | 0, h => by
    have e : chain m c 0 h = k0_pay2 (F := Ideal) (iblk m c 0 ⟨0, h⟩) (k0_pay1 (F := Ideal)) := by simp only [chain]
    rw [e, hp, pay1_apply]
    simp only [Nat.zero_mod, Nat.sub_self, zero_add, Finset.sum_range_one, usum, dif_pos h]
  | n + 1, h => by
    have e4 : usum m g c (n + 1) r = ∑ k : Fin 16384, g ((iblk m c 0 ⟨n + 1, h⟩ : Vec Ideal S128x16384 .f32) (ix2 r k)) := by
      simp only [usum, dif_pos h]
    by_cases h0 : (n + 1) % 64 = 0
    · have e : chain m c (n + 1) h = k0_pay2 (F := Ideal) (iblk m c 0 ⟨n + 1, h⟩) (k0_pay1 (F := Ideal)) := by
        simp only [chain, if_pos h0]
      rw [e, hp, pay1_apply, h0, ← e4]
      simp only [zero_add, Finset.sum_range_one, Nat.sub_zero, Nat.add_zero]
    · have e : chain m c (n + 1) h = k0_pay2 (F := Ideal) (iblk m c 0 ⟨n + 1, h⟩) (chain m c n (Nat.lt_of_succ_lt h)) := by
        simp only [chain, if_neg h0]
      have e1 : (n + 1) % 64 = n % 64 + 1 := by omega
      have e2 : n + 1 - (n % 64 + 1) = n - n % 64 := by omega
      have e3 : n - n % 64 + (n % 64 + 1) = n + 1 := by omega
      rw [e, hp, chain_closed g cc hp c r n (Nat.lt_of_succ_lt h), ← e4, e1, e2, Finset.sum_range_succ _ (n % 64 + 1), e3, add_assoc]

end Cert.KernelIdeal.HValue

end
-- ==== Proof.Spec.lean ====
/-
  The statistics both programs compute, as plain real functions.

  An instance is a row of 1024·1024 = 1048576 logits.  Both programs turn each logit into the
  probability `sig x = 1 / (1 + e^{-x})`, and describe the row by three numbers: the mean of the
  probabilities, their sample standard deviation (divisor 1048575), and how many of them exceed 1/2.
  Everything after that (normalising the three-vector, the cosine similarities, the final logistic)
  is a function of these three columns alone.

  The row of a [256, 1024, 1024] array is flattened row-major: column `j` is the entry
  `(j / 1024, j % 1024)` of the instance's 1024 × 1024 map.
-/
import Idealize.ShloMosaic.Lib.ValueIdx

noncomputable section

namespace Cert.Stats

open Idealize.ShloMosaic

/-- The logistic function on the reals. -/
def sig (x : ℝ) : ℝ := 1 / (1 + Real.exp (-x))

/-- Row `n` of a [256, 1024, 1024] array of extended reals, as a real function of the flat column
    `j = h · 1024 + w` (an infinite entry reads as `0`; the rows are only used at finite arrays). -/
def row (x : (⟨3, ![256, 1024, 1024]⟩ : Shape).Idx → EReal) (n : Fin 256) (j : Fin 1048576) : ℝ :=
  (x (ValueIdx.ix3 n (⟨j.val / 1024, by omega⟩ : Fin 1024) (⟨j.val % 1024, by omega⟩ : Fin 1024))).toReal

/-- The mean probability of a row. -/
def meanS (f : Fin 1048576 → ℝ) : ℝ := (∑ j, sig (f j)) / 1048576

/-- The sample variance of the probabilities of a row (divisor 1048575). -/
def varS (f : Fin 1048576 → ℝ) : ℝ :=
  (∑ j, (sig (f j) - meanS f) * (sig (f j) - meanS f)) / 1048575

/-- The sample standard deviation of the probabilities of a row. -/
def stdS (f : Fin 1048576 → ℝ) : ℝ := Real.sqrt (varS f)

/-- How many probabilities of a row exceed 1/2, as a real number. -/
def cntS (f : Fin 1048576 → ℝ) : ℝ := ∑ j, (if 1 / 2 < sig (f j) then (1 : ℝ) else 0)

/-- The three statistics of every instance, as columns of extended reals indexed like a `[256]` array. -/
def meanV (x : (⟨3, ![256, 1024, 1024]⟩ : Shape).Idx → EReal) : (⟨1, ![256]⟩ : Shape).Idx → EReal :=
  fun i => ((meanS (row x ⟨(i 0).val, (i 0).isLt⟩) : ℝ) : EReal)
def stdV (x : (⟨3, ![256, 1024, 1024]⟩ : Shape).Idx → EReal) : (⟨1, ![256]⟩ : Shape).Idx → EReal :=
  fun i => ((stdS (row x ⟨(i 0).val, (i 0).isLt⟩) : ℝ) : EReal)
def cntV (x : (⟨3, ![256, 1024, 1024]⟩ : Shape).Idx → EReal) : (⟨1, ![256]⟩ : Shape).Idx → EReal :=
  fun i => ((cntS (row x ⟨(i 0).val, (i 0).isLt⟩) : ℝ) : EReal)

/-- An array of extended reals all of whose entries are real numbers. -/
def Finite {s : Shape} (x : s.Idx → EReal) : Prop := ∀ i, ∃ r : ℝ, x i = (r : EReal)

end Cert.Stats

end
-- ==== Proof.StatsReal.lean ====
/-
  The real-number algebra behind the three statistics of a row.

  A row has N = 1048576 probabilities s_j = sig (f j), each strictly between 0 and 1.  One program
  sums the centred values c_j = s_j - 1/2 and their squares, block by block; the other sums the
  s_j themselves.  With C = Σ c_j and Q = Σ c_j², the mean is 1/2 + C/N, and since
  s_j - mean = c_j - C/N the sum of squared deviations is Q - C²/N, a nonnegative number.
  The last two lemmas regroup a sum over the N flat columns as a double sum: over 64 blocks of
  16384 columns, or over the 1024 × 1024 positions of the instance's map.
-/
import proofs.«114488_j90417651516041_2_alg».proof.Proof.Spec

noncomputable section

namespace Cert.Stats

/-- A probability is positive. -/
theorem sig_pos (x : ℝ) : 0 < sig x := by
  unfold sig; positivity

/-- A probability is below one. -/
theorem sig_lt_one (x : ℝ) : sig x < 1 := by
  have h : 0 < Real.exp (-x) := Real.exp_pos _
  rw [sig, div_lt_one (by positivity)]
  linarith

/-- The logistic function through the hyperbolic tangent: `(tanh (x/2) + 1) / 2 = 1 / (1 + e^{-x})`. -/
theorem half_tanh_eq_sig (x : ℝ) : (1 / 2 : ℝ) * (Real.tanh ((1 / 2 : ℝ) * x) + 1) = sig x := by
  have hx : Real.exp (-x) = Real.exp (-((1 / 2 : ℝ) * x)) * Real.exp (-((1 / 2 : ℝ) * x)) := by
    rw [← Real.exp_add]; congr 1; ring
  have hinv : Real.exp (-((1 / 2 : ℝ) * x)) = (Real.exp ((1 / 2 : ℝ) * x))⁻¹ := Real.exp_neg _
  have hpos : 0 < Real.exp ((1 / 2 : ℝ) * x) := Real.exp_pos _
  rw [sig, Real.tanh_eq_sinh_div_cosh, Real.sinh_eq, Real.cosh_eq, hx, hinv]
  field_simp
  ring

/-- The sum of the squared deviations from any constant `d`, expanded. -/
theorem sum_sq_sub {ι : Type*} [Fintype ι] (c : ι → ℝ) (d : ℝ) :
    ∑ j, (c j - d) * (c j - d)
      = (∑ j, c j * c j) - 2 * d * (∑ j, c j) + (Fintype.card ι : ℝ) * (d * d) := by
  have h : ∀ j, (c j - d) * (c j - d) = c j * c j - 2 * d * c j + d * d := fun j => by ring
  simp only [h]
  rw [Finset.sum_add_distrib, Finset.sum_sub_distrib, ← Finset.mul_sum, Finset.sum_const, Finset.card_univ,
    nsmul_eq_mul]

/-- The mean from the sum of the centred values. -/
theorem mean_centered (f : Fin 1048576 → ℝ) :
    (1 / 2 : ℝ) + (∑ j, (sig (f j) - 1 / 2)) / 1048576 = meanS f := by
  rw [Finset.sum_sub_distrib, Finset.sum_const, Finset.card_univ, Fintype.card_fin, nsmul_eq_mul, meanS]
  push_cast
  ring

/-- The sample variance is nonnegative. -/
theorem varS_nonneg (f : Fin 1048576 → ℝ) : 0 ≤ varS f := by
  unfold varS
  exact div_nonneg (Finset.sum_nonneg fun j _ => mul_self_nonneg _) (by norm_num)

/-- The sample variance from the sums of the centred values and of their squares; the clamp at
    zero changes nothing because the value is nonnegative. -/
theorem var_centered (f : Fin 1048576 → ℝ) :
    max (((∑ j, (sig (f j) - 1 / 2) * (sig (f j) - 1 / 2))
          - ((∑ j, (sig (f j) - 1 / 2)) * (∑ j, (sig (f j) - 1 / 2))) / 1048576) / 1048575) 0 = varS f := by
  have key : ((∑ j, (sig (f j) - 1 / 2) * (sig (f j) - 1 / 2))
          - ((∑ j, (sig (f j) - 1 / 2)) * (∑ j, (sig (f j) - 1 / 2))) / 1048576) / 1048575 = varS f := by
    have hm : ∀ j, sig (f j) - meanS f
        = (sig (f j) - 1 / 2) - (∑ j, (sig (f j) - 1 / 2)) / 1048576 := fun j => by
      rw [← mean_centered f]; ring
    unfold varS
    simp only [hm]
    rw [sum_sq_sub (fun j => sig (f j) - 1 / 2) ((∑ j, (sig (f j) - 1 / 2)) / 1048576), Fintype.card_fin]
    push_cast
    ring
  rw [key, max_eq_left (varS_nonneg f)]

/-- A sum over the 1048576 columns, regrouped as 64 blocks of 16384 consecutive columns. -/
theorem sum_blocks {M : Type*} [AddCommMonoid M] (g : Fin 1048576 → M) :
    (∑ k : Fin 64, ∑ j : Fin 16384, g ⟨k.val * 16384 + j.val, by omega⟩) = ∑ c : Fin 1048576, g c := by
  rw [← Equiv.sum_comp ((finProdFinEquiv (m := 64) (n := 16384)).trans
      (finCongr (by norm_num : 64 * 16384 = 1048576))) g, Fintype.sum_prod_type]
  refine Finset.sum_congr rfl fun k _ => Finset.sum_congr rfl fun j _ => congrArg g (Fin.ext ?_)
  simp only [Equiv.trans_apply, finProdFinEquiv_apply_val, finCongr_apply, Fin.val_cast]
  omega

/-- A sum over the 1048576 columns, regrouped by the 1024 × 1024 positions `(h, w)` of the
    instance's map, column `h · 1024 + w`. -/
theorem sum_hw {M : Type*} [AddCommMonoid M] (g : Fin 1048576 → M) :
    (∑ h : Fin 1024, ∑ w : Fin 1024, g ⟨h.val * 1024 + w.val, by omega⟩) = ∑ c : Fin 1048576, g c := by
  rw [← Equiv.sum_comp ((finProdFinEquiv (m := 1024) (n := 1024)).trans
      (finCongr (by norm_num : 1024 * 1024 = 1048576))) g, Fintype.sum_prod_type]
  refine Finset.sum_congr rfl fun h _ => Finset.sum_congr rfl fun w _ => congrArg g (Fin.ext ?_)
  simp only [Equiv.trans_apply, finProdFinEquiv_apply_val, finCongr_apply, Fin.val_cast]
  omega

end Cert.Stats

end
-- ==== Proof.KVal4b.lean ====
/-
  The 64 block sums of an instance block, each over 16384 columns, are the sum over all 1048576 entries of
  the instance: the blocks' columns `s · 16384 + k` enumerate the flat columns once each.
-/
import proofs.«114488_j90417651516041_2_alg».proof.Proof.KVal4a
import proofs.«114488_j90417651516041_2_alg».proof.Proof.StatsReal

set_option maxRecDepth 16384

noncomputable section

open Idealize.ShloMosaic Idealize.ShloMosaic.TcCoe Idealize.SL.Sem
open Idealize.ShloMosaic.Pipeline (Dat)

namespace Cert.KernelIdeal.HValue

open Cert.KernelIdeal Cert.KernelIdeal.Gen Cert.KernelIdeal.HFrame
open Cert.Stats Idealize.ShloMosaic.ValueIdx

variable (m : (ℓ : Loc nD τ sig) → Buf (Elt Ideal) ℓ)

/-- The sum of `g` over all of instance `n`'s entries, by flat column. -/
def Gk (x : S256x1024x1024.Idx → EReal) (g : EReal → EReal) (n : Fin 256) : EReal :=
  ∑ col : Fin 1048576, g (x (ix3 n (⟨col.val / 1024, by omega⟩ : Fin 1024) (⟨col.val % 1024, by omega⟩ : Fin 1024)))

/-- After the last column step of an instance block the 64 block sums are the sum over the whole instance. -/
theorem usum_all (g : EReal → EReal) (c : Dev nD) (t : Fin cfg0.N) (ht : t.val % 64 = 63) (r : Fin 128) :
    ∑ s ∈ Finset.range 64, usum m g c (t.val - 63 + s) r = Gk (X m c) g (rowOf t r) := by
  have hN : cfg0.N = 128 := N_0
  have hlt := t.isLt
  rw [Finset.sum_range (fun s => usum m g c (t.val - 63 + s) r)]
  unfold Gk
  rw [← sum_blocks (fun col : Fin 1048576 => g (X m c (ix3 (rowOf t r) (⟨col.val / 1024, by omega⟩ : Fin 1024) (⟨col.val % 1024, by omega⟩ : Fin 1024))))]
  refine Finset.sum_congr rfl (fun s _ => ?_)
  have hs : t.val - 63 + s.val < cfg0.N := by have := s.isLt; omega
  have e : usum m g c (t.val - 63 + s.val) r = ∑ k : Fin 16384, g ((iblk m c 0 ⟨t.val - 63 + s.val, hs⟩ : Vec Ideal S128x16384 .f32) (ix2 r k)) := by
    simp only [usum, dif_pos hs]
  rw [e]
  refine Finset.sum_congr rfl (fun k _ => ?_)
  rw [blk_entry]
  have hr : rowOf ⟨t.val - 63 + s.val, hs⟩ r = rowOf t r := by
    apply Fin.ext; show 128 * ((t.val - 63 + s.val) / 64) + r.val = 128 * (t.val / 64) + r.val
    have := s.isLt; omega
  have hc : (colOf ⟨t.val - 63 + s.val, hs⟩ k).val = s.val * 16384 + k.val := by
    show ((t.val - 63 + s.val) % 64) * 16384 + k.val = _
    have := s.isLt
    have : (t.val - 63 + s.val) % 64 = s.val := by omega
    rw [this]
  congr 2
  rw [hr]
  have e1 : (colOf ⟨t.val - 63 + s.val, hs⟩ k).val / 1024 = (s.val * 16384 + k.val) / 1024 := by rw [hc]
  have e2 : (colOf ⟨t.val - 63 + s.val, hs⟩ k).val % 1024 = (s.val * 16384 + k.val) % 1024 := by rw [hc]
  funext a
  match a with
  | ⟨0, _⟩ => rfl
  | ⟨1, _⟩ => exact Fin.ext e1
  | ⟨2, _⟩ => exact Fin.ext e2

end Cert.KernelIdeal.HValue

end
-- ==== Proof.KVal4c.lean ====
/-
  The region's result array: row `n`, column `cc` holds zero plus the sum over instance `n` of the centred
  probability (cc = 0), its square (cc = 1), the indicator of "probability > 1/2" (cc = 2).  The two flushing
  points (63 and 127) write back the accumulator after the last column step, each to its 128 rows, and the two
  blocks cover the array.
-/
import proofs.«114488_j90417651516041_2_alg».proof.Proof.KVal4b

set_option maxRecDepth 16384

noncomputable section

open Idealize.ShloMosaic Idealize.ShloMosaic.TcCoe Idealize.SL.Sem
open Idealize.ShloMosaic.Pipeline (Dat)

namespace Cert.KernelIdeal.HValue

open Cert.KernelIdeal Cert.KernelIdeal.Gen Cert.KernelIdeal.HFrame
open Cert.Stats Idealize.ShloMosaic.ValueIdx

variable (m : (ℓ : Loc nD τ sig) → Buf (Elt Ideal) ℓ)

/-- Which per-entry term a column of the result sums. -/
def gsel (cc : ℕ) : EReal → EReal := if cc = 0 then g0 else if cc = 1 then g1 else g2

/-- The region's result array as one function of the logits. -/
def Gfin (x : S256x1024x1024.Idx → EReal) : S256x3.Idx → EReal :=
  fun i => Ideal.ofBits .f32 0x00000000#32 + Gk x (gsel (i 1).val) (⟨(i 0).val, (i 0).isLt⟩ : Fin 256)

/-- The accumulator at a flushing point, entry by entry. -/
theorem chain_flush (c : Dev nD) (t : Fin cfg0.N) (ht : t.val % 64 = 63) (r : Fin 128) (cc : Fin 3) :
    chain m c t.val t.isLt (ix2 r cc) = Ideal.ofBits .f32 0x00000000#32 + Gk (X m c) (gsel cc.val) (rowOf t r) := by
  have key : ∀ (g : EReal → EReal) (cc' : Fin 3)
      (hp : ∀ (x : Vec Ideal S128x16384 .f32) (acc : Vec Ideal S128x3 .f32) (r : Fin 128),
        k0_pay2 (F := Ideal) x acc (ix2 r cc') = acc (ix2 r cc') + ∑ k : Fin 16384, g (x (ix2 r k))),
      chain m c t.val t.isLt (ix2 r cc') = Ideal.ofBits .f32 0x00000000#32 + Gk (X m c) g (rowOf t r) := by
    intro g cc' hp
    rw [chain_closed m g cc' hp c r t.val t.isLt, ht]
    exact congrArg (fun z => Ideal.ofBits .f32 0x00000000#32 + z) (usum_all m g c t ht r)
  match cc with
  | ⟨0, _⟩ => exact key g0 0 (fun x acc r => (pay2_apply x acc r).1)
  | ⟨1, _⟩ => exact key g1 1 (fun x acc r => (pay2_apply x acc r).2.1)
  | ⟨2, _⟩ => exact key g2 2 (fun x acc r => (pay2_apply x acc r).2.2)

end Cert.KernelIdeal.HValue

end
-- ==== Proof.KVal4d.lean ====
/-
  The two flushed blocks cover the [256, 3] result array: row `i` lies in the block of the flushing point of its
  instance block, `64 · (i / 128) + 63`.
-/
import proofs.«114488_j90417651516041_2_alg».proof.Proof.KVal4c

set_option maxRecDepth 16384

noncomputable section

open Idealize.ShloMosaic Idealize.ShloMosaic.TcCoe Idealize.SL.Sem
open Idealize.ShloMosaic.Pipeline (Dat)

namespace Cert.KernelIdeal.HValue

open Cert.KernelIdeal Cert.KernelIdeal.Gen Cert.KernelIdeal.HFrame
open Cert.Stats Idealize.ShloMosaic.ValueIdx

variable (m : (ℓ : Loc nD τ sig) → Buf (Elt Ideal) ℓ)

/-- An index of the result array is in point `t`'s block iff each coordinate is in the block's range. -/
theorem mem_blk (t : Fin cfg0.N) (i : S256x3.Idx) :
    i ∈ ((cfg0.win 1).blk t).view.set ↔ ∀ a : Fin 2, win0_1.index t a * S128x3.size a ≤ (i a).val ∧ (i a).val < win0_1.index t a * S128x3.size a + S128x3.size a := by
  show i ∈ ((View.whole main_v1).slice (win0_1.rect t)).set ↔ _
  rw [View.set_slice_whole, Rect.mem_set_unit]
  exact Iff.rfl

/-- The two flushed blocks cover the [256, 3] array. -/
theorem covered (i : S256x3.Idx) :
    ∃ t : Fin cfg0.N, (cfg0.win 1).flush t = true ∧ i ∈ ((cfg0.win 1).blk t).view.set := by
  have h0 : (i 0).val < 256 := (i 0).isLt
  have h1 : (i 1).val < 3 := (i 1).isLt
  have hN : cfg0.N = 128 := N_0
  have ht' : 64 * ((i 0).val / 128) + 63 < cfg0.N := by omega
  have f := idx_facts1 ⟨64 * ((i 0).val / 128) + 63, ht'⟩
  have f1 : win0_1.index ⟨64 * ((i 0).val / 128) + 63, ht'⟩ (0 : Fin 2) = (64 * ((i 0).val / 128) + 63) / 64 := f.1
  have f2 : win0_1.index ⟨64 * ((i 0).val / 128) + 63, ht'⟩ (1 : Fin 2) = 0 := f.2
  refine ⟨⟨64 * ((i 0).val / 128) + 63, ht'⟩, (flush0_1 _).mpr (by show (64 * ((i 0).val / 128) + 63) % 64 = 63; omega), ?_⟩
  rw [mem_blk]
  intro a
  match a with
  | ⟨0, _⟩ =>
    show win0_1.index ⟨64 * ((i 0).val / 128) + 63, ht'⟩ (0 : Fin 2) * 128 ≤ (i 0).val ∧ (i 0).val < win0_1.index ⟨64 * ((i 0).val / 128) + 63, ht'⟩ (0 : Fin 2) * 128 + 128
    rw [f1]; omega
  | ⟨1, _⟩ =>
    show win0_1.index ⟨64 * ((i 0).val / 128) + 63, ht'⟩ (1 : Fin 2) * 3 ≤ (i 1).val ∧ (i 1).val < win0_1.index ⟨64 * ((i 0).val / 128) + 63, ht'⟩ (1 : Fin 2) * 3 + 3
    rw [f2]; omega

end Cert.KernelIdeal.HValue

end
-- ==== Proof.KVal4e.lean ====
/-
  Where an entry of a flushing point's output block sits in the result array, and the result function at an
  explicit row and column.
-/
import proofs.«114488_j90417651516041_2_alg».proof.Proof.KVal4c

set_option maxRecDepth 16384

noncomputable section

open Idealize.ShloMosaic Idealize.ShloMosaic.TcCoe Idealize.SL.Sem
open Idealize.ShloMosaic.Pipeline (Dat)

namespace Cert.KernelIdeal.HValue

open Cert.KernelIdeal Cert.KernelIdeal.Gen Cert.KernelIdeal.HFrame
open Cert.Stats Idealize.ShloMosaic.ValueIdx

variable (m : (ℓ : Loc nD τ sig) → Buf (Elt Ideal) ℓ)

/-- The result array at an explicit row and column. -/
theorem Gfin_apply (x : S256x1024x1024.Idx → EReal) (n : Fin 256) (cc : Fin 3) :
    Gfin x (ix2 n cc) = Ideal.ofBits .f32 0x00000000#32 + Gk x (gsel cc.val) n := by
  unfold Gfin
  rfl

/-- Where entry `(r, cc)` of point `t`'s output block sits in the array. -/
theorem emb_out (t : Fin cfg0.N) (r : Fin 128) (cc : Fin 3) :
    ((cfg0.win 1).blk t).view.emb (ix2 r cc) = (ix2 (rowOf t r) cc : S256x3.Idx) := by
  funext a
  apply Fin.ext
  match a with
  | ⟨0, _⟩ =>
    show win0_1.index t (0 : Fin 2) * 128 + 1 * r.val = 128 * (t.val / 64) + r.val
    rw [(idx_facts1 t).1]; omega
  | ⟨1, _⟩ =>
    show win0_1.index t (1 : Fin 2) * 3 + 1 * cc.val = cc.val
    rw [(idx_facts1 t).2]; omega

end Cert.KernelIdeal.HValue

end
-- ==== Proof.KVal4g.lean ====
/-
  What a flushing point writes back: its 128 rows of the result array, each entry zero plus the sum over the
  whole instance of the column's per-entry term.
-/
import proofs.«114488_j90417651516041_2_alg».proof.Proof.KVal4e

set_option maxRecDepth 16384

noncomputable section

open Idealize.ShloMosaic Idealize.ShloMosaic.TcCoe Idealize.SL.Sem
open Idealize.ShloMosaic.Pipeline (Dat)

namespace Cert.KernelIdeal.HValue

open Cert.KernelIdeal Cert.KernelIdeal.Gen Cert.KernelIdeal.HFrame
open Cert.Stats Idealize.ShloMosaic.ValueIdx

variable (m : (ℓ : Loc nD τ sig) → Buf (Elt Ideal) ℓ)

/-- What point `t` writes back is its block of any array function that the accumulator agrees with there. -/
theorem flushed_of (c : Dev nD) (t : Fin cfg0.N) (G : S256x3.Idx → EReal)
    (h : ∀ (r : Fin 128) (cc : Fin 3), chain m c t.val t.isLt (ix2 r cc) = G (((cfg0.win 1).blk t).view.emb (ix2 r cc))) :
    (dats m 0 c).flushed 1 t = ((cfg0.win 1).blk t).view.read (Elt Ideal) G := by
  show (cfg0.win 1).cut (grid0.coords t) ((dats m 0 c).after 1 t) = _
  rw [after0_1, outsAt_eq]
  funext j
  have hj0 : (j 0).val < 128 := (j 0).isLt
  have hj1 : (j 1).val < 3 := (j 1).isLt
  have hj : j = ix2 (⟨(j 0).val, hj0⟩ : Fin 128) (⟨(j 1).val, hj1⟩ : Fin 3) := by
    funext a
    match a with
    | ⟨0, _⟩ => rfl
    | ⟨1, _⟩ => rfl
  rw [hj]
  exact h _ _

/-- The accumulator at a flushing point, entry by entry, is the result function at the entry's place. -/
theorem chain_pt (c : Dev nD) (t : Fin cfg0.N) (ht : t.val % 64 = 63) (r : Fin 128) (cc : Fin 3) :
    chain m c t.val t.isLt (ix2 r cc) = Gfin (X m c) (((cfg0.win 1).blk t).view.emb (ix2 r cc)) := by
  rw [emb_out, Gfin_apply, chain_flush m c t ht r cc]

/-- What a flushing point writes back is its block of `Gfin`. -/
theorem flushed_eq (c : Dev nD) (t : Fin cfg0.N) (hf : (cfg0.win 1).flush t = true) :
    (dats m 0 c).flushed 1 t = ((cfg0.win 1).blk t).view.read (Elt Ideal) (Gfin (X m c)) :=
  flushed_of m c t (Gfin (X m c)) (chain_pt m c t ((flush0_1 t).mp hf))

end Cert.KernelIdeal.HValue

end
-- ==== Proof.KVal4f.lean ====
/-
  The region's result array after the run is `Gfin` of the logits.
-/
import proofs.«114488_j90417651516041_2_alg».proof.Proof.KVal4d
import proofs.«114488_j90417651516041_2_alg».proof.Proof.KVal4g

set_option maxRecDepth 16384

noncomputable section

open Idealize.ShloMosaic Idealize.ShloMosaic.TcCoe Idealize.SL.Sem
open Idealize.ShloMosaic.Pipeline (Dat)

namespace Cert.KernelIdeal.HValue

open Cert.KernelIdeal Cert.KernelIdeal.Gen Cert.KernelIdeal.HFrame
open Cert.Stats Idealize.ShloMosaic.ValueIdx

variable (m : (ℓ : Loc nD τ sig) → Buf (Elt Ideal) ℓ)

/-- The region's result array ends holding `Gfin` of the logits. -/
theorem final_1 (c : Dev nD) : (dats m 0 c).arrAt 1 cfg0.N = Gfin (X m c) :=
  (dats m 0 c).arrAt_eq_of_cover 1 (Gfin (X m c)) (flushed_eq m c) covered

end Cert.KernelIdeal.HValue

end
-- ==== Proof.IdealFacts.lean ====
/-
  The exact float operations read at real arguments.

  At the exact instance a float is an extended real.  Every value this certificate meets is a real
  number, so each operation is needed only on coerced reals: there it is the coercion of the real
  operation.  This module states those facts once, together with the real values of the float
  literals the two programs spell: 1/2, 1, 0, the row length 1048576 and the sample divisor 1048575.
-/
import proofs.«114488_j90417651516041_2_alg».proof.Proof.Spec
import Idealize.ShloMosaic.PureOps.Ideal
import Idealize.ShloMosaic.PureOps.Ideal.Laws

noncomputable section

namespace Cert.Stats

open Idealize.ShloMosaic

/-- The coercion of a finite real sum is the sum of the coercions. -/
theorem coe_sum {ι : Type*} (s : Finset ι) (g : ι → ℝ) :
    ((∑ j ∈ s, g j : ℝ) : EReal) = ∑ j ∈ s, ((g j : ℝ) : EReal) := by
  classical
  induction s using Finset.induction_on with
  | empty => simp
  | insert a s ha ih => rw [Finset.sum_insert ha, Finset.sum_insert ha, EReal.coe_add, ih]

/-- The hyperbolic tangent of a real. -/
theorem tanh_coe (r : ℝ) : Ideal.tanh (r : EReal) = ((Real.tanh r : ℝ) : EReal) := Ideal.tanh_coe r

/-- The exponential of a real. -/
theorem exp_coe (r : ℝ) : Ideal.exp (r : EReal) = ((Real.exp r : ℝ) : EReal) := Ideal.exp_coe r

/-- A quotient of reals with a nonzero divisor. -/
theorem div_coe_coe (a b : ℝ) (hb : b ≠ 0) : Ideal.div (a : EReal) (b : EReal) = ((a / b : ℝ) : EReal) := by
  rw [Ideal.div_coe hb, ← EReal.coe_mul, mul_one_div]

/-- The square root of a nonnegative real. -/
theorem sqrt_coe (r : ℝ) (hr : 0 ≤ r) : Ideal.sqrt (r : EReal) = ((Real.sqrt r : ℝ) : EReal) := by
  rw [Ideal.sqrt_coe, if_neg (not_lt.mpr hr)]

/-- The pattern of `0.5` denotes the real `1/2`. -/
theorem ofBits_half : Ideal.ofBits .f32 0x3F000000#32 = ((1 / 2 : ℝ) : EReal) := by
  simp [Ideal.ofBits, Ideal.ieee, -EReal.coe_mul]; norm_num

/-- The pattern of `1.0` denotes the real `1`. -/
theorem ofBits_one : Ideal.ofBits .f32 0x3F800000#32 = ((1 : ℝ) : EReal) := by
  simp [Ideal.ofBits, Ideal.ieee, -EReal.coe_mul]; norm_num

/-- The pattern of `+0.0` denotes the real `0`. -/
theorem ofBits_zero : Ideal.ofBits .f32 0x00000000#32 = ((0 : ℝ) : EReal) := by
  rw [Ideal.ofBits_zero_f32, EReal.coe_zero]

/-- The pattern of `1048576.0 = 2^20`, the number of entries of a row. -/
theorem ofBits_n : Ideal.ofBits .f32 0x49800000#32 = ((1048576 : ℝ) : EReal) := by
  simp [Ideal.ofBits, Ideal.ieee, -EReal.coe_mul]; norm_num

/-- The pattern of `1048575.0`, the sample divisor. -/
theorem ofBits_n1 : Ideal.ofBits .f32 0x497FFFF0#32 = ((1048575 : ℝ) : EReal) := by
  simp [Ideal.ofBits, Ideal.ieee, -EReal.coe_mul]; norm_num

/-- The logistic function spelt as `1 / (1 + e^{-r})` over the float literal `1.0`. -/
theorem logistic_chain (r : ℝ) :
    Ideal.div (Ideal.ofBits .f32 0x3F800000#32) (Ideal.ofBits .f32 0x3F800000#32 + Ideal.exp (-(r : EReal)))
      = ((sig r : ℝ) : EReal) := by
  have hne : (1 + Real.exp (-r) : ℝ) ≠ 0 := by positivity
  rw [ofBits_one, ← EReal.coe_neg, Ideal.exp_coe, ← EReal.coe_add, div_coe_coe _ _ hne, sig]

/-- The ordered comparison `a > b` of two reals, as a one-bit word. -/
theorem cmpf_ogt_coe (a b : ℝ) :
    FloatOps.cmpf (F := Ideal) (φ := .f32) .ogt (a : EReal) (b : EReal) = (if b < a then 1#1 else 0#1) := by
  rw [Ideal.cmpf_def]
  unfold Ideal.cmp
  by_cases h : b < a
  · simp [h]
  · simp [h]

/-- A signed integer word converts to the integer it denotes. -/
theorem sitofp_coe {w : Nat} (b : BitVec w) :
    FloatOps.sitofp (F := Ideal) .f32 b = (((b.toInt : ℤ) : ℝ) : EReal) := rfl

/-- The one-bit word `1`, widened without sign to 32 bits and converted, is the real `1`. -/
theorem sitofp_extui_one :
    FloatOps.sitofp (F := Ideal) .f32 ((1#1 : BitVec 1).setWidth 32) = ((1 : ℝ) : EReal) := by
  rw [sitofp_coe, show ((1#1 : BitVec 1).setWidth 32).toInt = 1 from by decide]
  norm_num

/-- The one-bit word `0`, widened without sign to 32 bits and converted, is the real `0`. -/
theorem sitofp_extui_zero :
    FloatOps.sitofp (F := Ideal) .f32 ((0#1 : BitVec 1).setWidth 32) = ((0 : ℝ) : EReal) := by
  rw [sitofp_coe, show ((0#1 : BitVec 1).setWidth 32).toInt = 0 from by decide]
  norm_num

end Cert.Stats

end
-- ==== Proof.KernelCols.lean ====
/-
  The kernel's three columns at a row of real logits.

  At a real logit the kernel's probability `1/2 · (tanh (x/2) + 1)` is the logistic function, so its
  three per-entry terms are the coercions of the centred probability, of its square, and of the
  indicator of "probability > 1/2".  Their sums over a row are therefore coerced real sums, and the
  kernel's closing arithmetic — `1/2 + C/N` for the mean, `√(max ((Q - C·C/N)/(N-1)) 0)` for the
  standard deviation — is the real identity of the centred sums `C` and `Q`, read on coerced reals.
-/
import proofs.«114488_j90417651516041_2_alg».proof.Proof.Spec
import proofs.«114488_j90417651516041_2_alg».proof.Proof.StatsReal
import proofs.«114488_j90417651516041_2_alg».proof.Proof.IdealFacts
import proofs.«114488_j90417651516041_2_alg».proof.Proof.KTerms

noncomputable section

namespace Cert.Stats

open Idealize.ShloMosaic

/-- The coercion of the larger of two reals is the larger of the coercions. -/
theorem coe_max (a b : ℝ) : ((max a b : ℝ) : EReal) = max (a : EReal) (b : EReal) :=
  EReal.coe_strictMono.monotone.map_max

/-- The kernel's probability at a real logit is the logistic function. -/
theorem pk_coe (r : ℝ) : pk (r : EReal) = ((sig r : ℝ) : EReal) := by
  unfold pk
  rw [ofBits_half, ofBits_one, ← EReal.coe_mul, tanh_coe, ← EReal.coe_add, ← EReal.coe_mul, half_tanh_eq_sig]

/-- The centred probability at a real logit. -/
theorem g0_coe (r : ℝ) : g0 (r : EReal) = ((sig r - 1 / 2 : ℝ) : EReal) := by
  unfold g0
  rw [pk_coe, ofBits_half, ← EReal.coe_sub]

/-- Its square at a real logit. -/
theorem g1_coe (r : ℝ) : g1 (r : EReal) = (((sig r - 1 / 2) * (sig r - 1 / 2) : ℝ) : EReal) := by
  unfold g1
  rw [g0_coe, ← EReal.coe_mul]

/-- The indicator of "probability > 1/2" at a real logit. -/
theorem g2_coe (r : ℝ) : g2 (r : EReal) = (((if 1 / 2 < sig r then (1 : ℝ) else 0) : ℝ) : EReal) := by
  unfold g2
  rw [pk_coe, ofBits_half, cmpf_ogt_coe]
  by_cases h : 1 / 2 < sig r
  · rw [if_pos h, if_pos h, sitofp_extui_one]
  · rw [if_neg h, if_neg h, sitofp_extui_zero]

/-- The row sum of the centred probabilities is a coerced real sum. -/
theorem sum_g0 (f : Fin 1048576 → ℝ) :
    (∑ j, g0 (f j : EReal)) = ((∑ j, (sig (f j) - 1 / 2) : ℝ) : EReal) := by
  rw [coe_sum]
  exact Finset.sum_congr rfl fun j _ => g0_coe (f j)

/-- The row sum of their squares is a coerced real sum. -/
theorem sum_g1 (f : Fin 1048576 → ℝ) :
    (∑ j, g1 (f j : EReal)) = ((∑ j, (sig (f j) - 1 / 2) * (sig (f j) - 1 / 2) : ℝ) : EReal) := by
  rw [coe_sum]
  exact Finset.sum_congr rfl fun j _ => g1_coe (f j)

/-- The kernel's mean column: `1/2 + C/N`. -/
theorem kmean (f : Fin 1048576 → ℝ) :
    Ideal.ofBits .f32 0x3F000000#32 + Ideal.div (∑ j, g0 (f j : EReal)) (Ideal.ofBits .f32 0x49800000#32)
      = ((meanS f : ℝ) : EReal) := by
  rw [sum_g0, ofBits_n, div_coe_coe _ _ (by norm_num), ofBits_half, ← EReal.coe_add, mean_centered]

/-- The kernel's standard-deviation column: `√(max ((Q - C·C/N)/(N-1)) 0)`. -/
theorem kstd (f : Fin 1048576 → ℝ) :
    Ideal.sqrt (max (Ideal.div ((∑ j, g1 (f j : EReal))
        - Ideal.div ((∑ j, g0 (f j : EReal)) * (∑ j, g0 (f j : EReal))) (Ideal.ofBits .f32 0x49800000#32))
        (Ideal.ofBits .f32 0x497FFFF0#32)) (Ideal.ofBits .f32 0x00000000#32))
      = ((stdS f : ℝ) : EReal) := by
  rw [sum_g0, sum_g1, ofBits_n, ofBits_n1, ofBits_zero, ← EReal.coe_mul, div_coe_coe _ _ (by norm_num),
    ← EReal.coe_sub, div_coe_coe _ _ (by norm_num), ← coe_max, var_centered, sqrt_coe _ (varS_nonneg f)]
  rfl

/-- The kernel's count column: the number of probabilities above 1/2. -/
theorem kcnt (f : Fin 1048576 → ℝ) : (∑ j, g2 (f j : EReal)) = ((cntS f : ℝ) : EReal) := by
  unfold cntS
  rw [coe_sum]
  exact Finset.sum_congr rfl fun j _ => g2_coe (f j)

end Cert.Stats

end
-- ==== Proof.KVal6.lean ====
/-
  The three columns of the region's result array, read through the host operations that follow, are the
  specification's statistics of each instance — when every logit is a real number.

  Column 0 holds the sum of the centred probabilities: `1/2 + that / 1048576` is the mean probability.
  Column 1 holds the sum of their squares: the centred-sums form of the sample variance, clipped at zero,
  has the sample standard deviation as its square root.  Column 2 holds the count of probabilities
  above 1/2.  Each sum of extended reals is the coerced real sum because every term is real.
-/
import proofs.«114488_j90417651516041_2_alg».proof.Proof.KVal4c
import proofs.«114488_j90417651516041_2_alg».proof.Proof.KernelCols

set_option maxRecDepth 16384

noncomputable section

open Idealize.ShloMosaic Idealize.ShloMosaic.TcCoe Idealize.SL.Sem
open Idealize.ShloMosaic.Pipeline (Dat)

namespace Cert.KernelIdeal.HValue

open Cert.KernelIdeal Cert.KernelIdeal.Gen Cert.KernelIdeal.HFrame

open Cert.Stats Idealize.ShloMosaic.ValueIdx

/-- An entry of a finite array is the coercion of the specification's row entry. -/
theorem entry_coe (x : S256x1024x1024.Idx → EReal) (hfin : Cert.Stats.Finite x) (n : Fin 256) (col : Fin 1048576) :
    x (ix3 n (⟨col.val / 1024, by omega⟩ : Fin 1024) (⟨col.val % 1024, by omega⟩ : Fin 1024)) = ((row x n col : ℝ) : EReal) := by
  obtain ⟨r, hr⟩ := hfin (ix3 n (⟨col.val / 1024, by omega⟩ : Fin 1024) (⟨col.val % 1024, by omega⟩ : Fin 1024))
  unfold row
  rw [hr, EReal.toReal_coe]

/-- The sum of a per-entry term over an instance of a finite array, over the specification's row. -/
theorem Gk_coe (x : S256x1024x1024.Idx → EReal) (hfin : Cert.Stats.Finite x) (g : EReal → EReal) (n : Fin 256) :
    Gk x g n = ∑ col : Fin 1048576, g ((row x n col : ℝ) : EReal) := by
  unfold Gk
  exact Finset.sum_congr rfl (fun col _ => congrArg g (entry_coe x hfin n col))

theorem zero_word : Ideal.ofBits .f32 0x00000000#32 = (0 : EReal) := by
  rw [ofBits_zero, EReal.coe_zero]

/-- The three columns of the result array at row `n`. -/
theorem Gfin_col0 (x : S256x1024x1024.Idx → EReal) (hfin : Cert.Stats.Finite x) (n : Fin 256) :
    Gfin x (ix2 n (0 : Fin 3)) = ∑ col : Fin 1048576, g0 ((row x n col : ℝ) : EReal) := by
  show Ideal.ofBits .f32 0x00000000#32 + Gk x (gsel 0) n = _
  rw [zero_word, zero_add, Gk_coe x hfin]
  rfl
theorem Gfin_col1 (x : S256x1024x1024.Idx → EReal) (hfin : Cert.Stats.Finite x) (n : Fin 256) :
    Gfin x (ix2 n (1 : Fin 3)) = ∑ col : Fin 1048576, g1 ((row x n col : ℝ) : EReal) := by
  show Ideal.ofBits .f32 0x00000000#32 + Gk x (gsel 1) n = _
  rw [zero_word, zero_add, Gk_coe x hfin]
  rfl
theorem Gfin_col2 (x : S256x1024x1024.Idx → EReal) (hfin : Cert.Stats.Finite x) (n : Fin 256) :
    Gfin x (ix2 n (2 : Fin 3)) = ∑ col : Fin 1048576, g2 ((row x n col : ℝ) : EReal) := by
  show Ideal.ofBits .f32 0x00000000#32 + Gk x (gsel 2) n = _
  rw [zero_word, zero_add, Gk_coe x hfin]
  rfl

/-- The mean the kernel's host operations form is the specification's. -/
theorem mean_spec (x : S256x1024x1024.Idx → EReal) (hfin : Cert.Stats.Finite x) (n : Fin 256) :
    Ideal.ofBits .f32 0x3F000000#32 + Ideal.div (Gfin x (ix2 n (0 : Fin 3))) (Ideal.ofBits .f32 0x49800000#32) = meanV x (ix1 n) := by
  rw [Gfin_col0 x hfin, kmean]
  rfl

/-- The standard deviation the kernel's host operations form is the specification's. -/
theorem std_spec (x : S256x1024x1024.Idx → EReal) (hfin : Cert.Stats.Finite x) (n : Fin 256) :
    Ideal.sqrt (max (Ideal.div (Gfin x (ix2 n (1 : Fin 3)) - Ideal.div (Gfin x (ix2 n (0 : Fin 3)) * Gfin x (ix2 n (0 : Fin 3))) (Ideal.ofBits .f32 0x49800000#32)) (Ideal.ofBits .f32 0x497FFFF0#32)) (Ideal.ofBits .f32 0x00000000#32))
      = stdV x (ix1 n) := by
  rw [Gfin_col0 x hfin, Gfin_col1 x hfin, kstd]
  rfl

/-- The count column is the specification's count. -/
theorem cnt_spec (x : S256x1024x1024.Idx → EReal) (hfin : Cert.Stats.Finite x) (n : Fin 256) :
    Gfin x (ix2 n (2 : Fin 3)) = cntV x (ix1 n) := by
  rw [Gfin_col2 x hfin, kcnt]
  rfl

end Cert.KernelIdeal.HValue

end
-- ==== Proof.RefRun.lean ====
/-
  The reference program's run, read back: @main with its module-local functions unfolded at their
  calls is one straight line of 79 host operations.  The line is cut into five stretches — the
  probabilities, the row means, the row standard deviations (the variance function's chain, its
  select, the square root), the counts, and the tail shared by both programs — and each stretch's
  result is named as a pure function of the buffers it reads.
-/
import proofs.«114488_j90417651516041_2_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## The operations -/

section Ops
variable {F : FTy → Type} [FloatOps F]

/-- Stretch P: operations 1–8. -/
abbrev segP : List (HloOp τ sig (Elt F)) :=
  [ StableHlo.unary main_arg0 main_v0 (Host.negf : (⟨S256x1024x1024, .f32⟩ : BufTy).Contents (Elt F) → (⟨S256x1024x1024, .f32⟩ : BufTy).Contents (Elt F)),
    StableHlo.unary main_v0 main_v1 (Host.exp : (⟨S256x1024x1024, .f32⟩ : BufTy).Contents (Elt F) → (⟨S256x1024x1024, .f32⟩ : BufTy).Contents (Elt F)),
    StableHlo.nullary main_cst (constant S_ .f32 0x3F800000#32),
    StableHlo.unary main_cst main_v2 (broadcastInDim S256x1024x1024 ![] bcast_S_S256x1024x1024 : (⟨S_, .f32⟩ : BufTy).Contents (Elt F) → (⟨S256x1024x1024, .f32⟩ : BufTy).Contents (Elt F)),
    StableHlo.binary main_v2 main_v1 main_v3 (addf : (⟨S256x1024x1024, .f32⟩ : BufTy).Contents (Elt F) → (⟨S256x1024x1024, .f32⟩ : BufTy).Contents (Elt F) → (⟨S256x1024x1024, .f32⟩ : BufTy).Contents (Elt F)),
    StableHlo.nullary main_cst_0 (constant S_ .f32 0x3F800000#32),
    StableHlo.unary main_cst_0 main_v4 (broadcastInDim S256x1024x1024 ![] bcast_S_S256x1024x1024 : (⟨S_, .f32⟩ : BufTy).Contents (Elt F) → (⟨S256x1024x1024, .f32⟩ : BufTy).Contents (Elt F)),
    StableHlo.binary main_v4 main_v3 main_v5 (Host.divf : (⟨S256x1024x1024, .f32⟩ : BufTy).Contents (Elt F) → (⟨S256x1024x1024, .f32⟩ : BufTy).Contents (Elt F) → (⟨S256x1024x1024, .f32⟩ : BufTy).Contents (Elt F)) ]

/-- Stretch M: operations 9–13. -/
abbrev segM : List (HloOp τ sig (Elt F)) :=
  [ StableHlo.nullary main_cst_1 (constant S_ .f32 0x00000000#32),
    StableHlo.binary main_v5 main_cst_1 main_v6 ((fun x v => Host.reduceAdd x v reducesTo_S256x1024x1024_S256_d1_2 h_S_) : (⟨S256x1024x1024, .f32⟩ : BufTy).Contents (Elt F) → (⟨S_, .f32⟩ : BufTy).Contents (Elt F) → (⟨S256, .f32⟩ : BufTy).Contents (Elt F)),
    StableHlo.nullary main_cst_2 (constant S_ .f32 0x49800000#32),
    StableHlo.unary main_cst_2 main_v7 (broadcastInDim S256 ![] bcast_S_S256 : (⟨S_, .f32⟩ : BufTy).Contents (Elt F) → (⟨S256, .f32⟩ : BufTy).Contents (Elt F)),
    StableHlo.binary main_v6 main_v7 main_v8 (Host.divf : (⟨S256, .f32⟩ : BufTy).Contents (Elt F) → (⟨S256, .f32⟩ : BufTy).Contents (Elt F) → (⟨S256, .f32⟩ : BufTy).Contents (Elt F)) ]

/-- Stretch S: operations 14–37. -/
abbrev segS : List (HloOp τ sig (Elt F)) :=
  [ StableHlo.nullary main_c (constantI S_ 32 1#32),
    StableHlo.TRef.nullary main_call0.call0.cst (constant S_ .f32 0x00000000#32),
    StableHlo.TRef.binary (TRef.of main_v5 : TRef sig ⟨S256x1024x1024, .f32⟩) main_call0.call0.cst main_call0.call0.v0 (fun x v => Host.reduceAdd x v reducesTo_S256x1024x1024_S256_d1_2 h_S_),
    StableHlo.TRef.unary main_call0.call0.v0 main_call0.call0.v1 (broadcastInDim S256x1x1 ![0] bcast_S256_S256x1x1_0),
    StableHlo.TRef.nullary main_call0.call0.cst_0 (constant S_ .f32 0x49800000#32),
    StableHlo.TRef.unary main_call0.call0.cst_0 main_call0.call0.v2 (broadcastInDim S256x1x1 ![] bcast_S_S256x1x1),
    StableHlo.TRef.binary main_call0.call0.v1 main_call0.call0.v2 main_call0.call0.v3 Host.divf,
    StableHlo.TRef.unary main_call0.call0.v3 main_call0.call0.v4 (broadcastInDim S256x1024x1024 ![0, 1, 2] bcast_S256x1x1_S256x1024x1024_0_1_2),
    StableHlo.TRef.binary (TRef.of main_v5 : TRef sig ⟨S256x1024x1024, .f32⟩) main_call0.call0.v4 main_call0.call0.v5 subf,
    StableHlo.TRef.binary main_call0.call0.v5 main_call0.call0.v5 main_call0.call0.v6 mulf,
    StableHlo.TRef.unary (TRef.of main_c : TRef sig ⟨S_, .i32⟩) main_call0.call0.v7 (sitofp .f32),
    StableHlo.TRef.nullary main_call0.call0.cst_1 (constant S_ .f32 0x49800000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S256x1024x1024_S256_d1_2 h_S_),
    StableHlo.TRef.unary main_call0.call0.v8 main_call0.call0.v10 (broadcastInDim S256 ![] bcast_S_S256),
    StableHlo.TRef.binary main_call0.call0.v9 main_call0.call0.v10 main_call0.call0.v11 Host.divf,
    StableHlo.TRef.nullary main_call0.call0.cst_3 (constant S_ .f32 0x00000000#32),
    StableHlo.TRef.binary main_call0.call0.v8 main_call0.call0.cst_3 main_call0.call0.v12 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S256 ![] bcast_S_S256),
    StableHlo.TRef.ternary main_call0.call0.v12 main_call0.call0.v11 main_call0.call0.call0.v1 main_call0.call0.call0.v2 (fun p a b => select (broadcastInDim S256 ![] bcast_S_S256 p) a b),
    StableHlo.TRef.unary main_call0.call0.call0.v2 main_call0.v1 Host.sqrt ]

/-- Stretch C: operations 38–44. -/
abbrev segC : List (HloOp τ sig (Elt F)) :=
  [ StableHlo.nullary main_cst_3 (constant S_ .f32 0x3F000000#32),
    StableHlo.unary main_cst_3 main_v10 (broadcastInDim S256x1024x1024 ![] bcast_S_S256x1024x1024 : (⟨S_, .f32⟩ : BufTy).Contents (Elt F) → (⟨S256x1024x1024, .f32⟩ : BufTy).Contents (Elt F)),
    StableHlo.binary main_v5 main_v10 main_v11 (cmpf .ogt : (⟨S256x1024x1024, .f32⟩ : BufTy).Contents (Elt F) → (⟨S256x1024x1024, .f32⟩ : BufTy).Contents (Elt F) → (⟨S256x1024x1024, .i1⟩ : BufTy).Contents (Elt F)),
    StableHlo.unary main_v11 main_v12 ((extui 32 · natLt_1_32) : (⟨S256x1024x1024, .i1⟩ : BufTy).Contents (Elt F) → (⟨S256x1024x1024, .i32⟩ : BufTy).Contents (Elt F)),
    StableHlo.nullary main_c_4 (constantI S_ 32 0#32),
    StableHlo.binary main_v12 main_c_4 main_v13 ((fun x v => Host.reduce IntOp.addi x v reducesTo_S256x1024x1024_S256_d1_2 h_S_) : (⟨S256x1024x1024, .i32⟩ : BufTy).Contents (Elt F) → (⟨S_, .i32⟩ : BufTy).Contents (Elt F) → (⟨S256, .i32⟩ : BufTy).Contents (Elt F)),
    StableHlo.unary main_v13 main_v14 (sitofp .f32 : (⟨S256, .i32⟩ : BufTy).Contents (Elt F) → (⟨S256, .f32⟩ : BufTy).Contents (Elt F)) ]

/-- Stretch T: operations 45–79. -/
abbrev segT : List (HloOp τ sig (Elt F)) :=
  [ StableHlo.unary main_v8 main_v15 (broadcastInDim S256x1 ![0] bcast_S256_S256x1_0 : (⟨S256, .f32⟩ : BufTy).Contents (Elt F) → (⟨S256x1, .f32⟩ : BufTy).Contents (Elt F)),
    StableHlo.unary main_v9 main_v16 (broadcastInDim S256x1 ![0] bcast_S256_S256x1_0 : (⟨S256, .f32⟩ : BufTy).Contents (Elt F) → (⟨S256x1, .f32⟩ : BufTy).Contents (Elt F)),
    StableHlo.unary main_v14 main_v17 (broadcastInDim S256x1 ![0] bcast_S256_S256x1_0 : (⟨S256, .f32⟩ : BufTy).Contents (Elt F) → (⟨S256x1, .f32⟩ : BufTy).Contents (Elt F)),
    StableHlo.nary ![main_v15, main_v16, main_v17] main_v18 (fun u => concatenate S256x3 1 [⟨S256x1, u 0⟩, ⟨S256x1, u 1⟩, ⟨S256x1, u 2⟩] concatenates_S256x1_S256x1_S256x1_S256x3_d1),
    StableHlo.TRef.binary (TRef.of main_v18 : TRef sig ⟨S256x3, .f32⟩) (TRef.of main_v18 : TRef sig ⟨S256x3, .f32⟩) main_call1.v0 mulf,
    StableHlo.TRef.nullary main_call1.cst (constant S_ .f32 0x00000000#32),
    StableHlo.TRef.binary main_call1.v0 main_call1.cst main_call1.v1 (fun x v => Host.reduceAdd x v reducesTo_S256x3_S256_d1 h_S_),
    StableHlo.TRef.unary main_call1.v1 main_call1.v2 (broadcastInDim S256x1 ![0] bcast_S256_S256x1_0),
    StableHlo.TRef.unary main_call1.v2 main_call1.v3 Host.sqrt,
    StableHlo.nullary main_cst_5 (constant S_ .f32 0x2B8CBCCC#32),
    StableHlo.unary main_cst_5 main_v20 (broadcastInDim S256x1 ![] bcast_S_S256x1 : (⟨S_, .f32⟩ : BufTy).Contents (Elt F) → (⟨S256x1, .f32⟩ : BufTy).Contents (Elt F)),
    StableHlo.binary main_v19 main_v20 main_v21 (maximumf : (⟨S256x1, .f32⟩ : BufTy).Contents (Elt F) → (⟨S256x1, .f32⟩ : BufTy).Contents (Elt F) → (⟨S256x1, .f32⟩ : BufTy).Contents (Elt F)),
    StableHlo.unary main_v21 main_v22 (broadcastInDim S256x3 ![0, 1] bcast_S256x1_S256x3_0_1 : (⟨S256x1, .f32⟩ : BufTy).Contents (Elt F) → (⟨S256x3, .f32⟩ : BufTy).Contents (Elt F)),
    StableHlo.binary main_v18 main_v22 main_v23 (Host.divf : (⟨S256x3, .f32⟩ : BufTy).Contents (Elt F) → (⟨S256x3, .f32⟩ : BufTy).Contents (Elt F) → (⟨S256x3, .f32⟩ : BufTy).Contents (Elt F)),
    StableHlo.unary main_v23 main_v24 ((transpose S3x256 [1, 0] · transposes_S256x3_S3x256_1_0) : (⟨S256x3, .f32⟩ : BufTy).Contents (Elt F) → (⟨S3x256, .f32⟩ : BufTy).Contents (Elt F)),
    StableHlo.binary main_v23 main_v24 main_v25 ((fun l r => Host.dotGeneral dot_S256x3_S3x256_S256x256_1_0_0_1_n_n none l r) : (⟨S256x3, .f32⟩ : BufTy).Contents (Elt F) → (⟨S3x256, .f32⟩ : BufTy).Contents (Elt F) → (⟨S256x256, .f32⟩ : BufTy).Contents (Elt F)),
    StableHlo.nullary main_cst_6 (constant S_ .f32 0x00000000#32),
    StableHlo.binary main_v25 main_cst_6 main_v26 ((fun x v => Host.reduceAdd x v reducesTo_S256x256_S256_d1 h_S_) : (⟨S256x256, .f32⟩ : BufTy).Contents (Elt F) → (⟨S_, .f32⟩ : BufTy).Contents (Elt F) → (⟨S256, .f32⟩ : BufTy).Contents (Elt F)),
    StableHlo.nullary main_cst_7 (constant S_ .f32 0x43800000#32),
    StableHlo.unary main_cst_7 main_v27 (broadcastInDim S256 ![] bcast_S_S256 : (⟨S_, .f32⟩ : BufTy).Contents (Elt F) → (⟨S256, .f32⟩ : BufTy).Contents (Elt F)),
    StableHlo.binary main_v26 main_v27 main_v28 (Host.divf : (⟨S256, .f32⟩ : BufTy).Contents (Elt F) → (⟨S256, .f32⟩ : BufTy).Contents (Elt F) → (⟨S256, .f32⟩ : BufTy).Contents (Elt F)),
    StableHlo.nullary main_cst_8 (constant S_ .f32 0x00000000#32),
    StableHlo.binary main_v28 main_cst_8 main_v29 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    StableHlo.nullary main_cst_9 (constant S_ .f32 0x43800000#32),
    StableHlo.binary main_v29 main_cst_9 main_v30 (Host.divf : (⟨S_, .f32⟩ : BufTy).Contents (Elt F) → (⟨S_, .f32⟩ : BufTy).Contents (Elt F) → (⟨S_, .f32⟩ : BufTy).Contents (Elt F)),
    StableHlo.unary main_v30 main_v31 (broadcastInDim S256 ![] bcast_S_S256 : (⟨S_, .f32⟩ : BufTy).Contents (Elt F) → (⟨S256, .f32⟩ : BufTy).Contents (Elt F)),
    StableHlo.binary main_v28 main_v31 main_v32 (subf : (⟨S256, .f32⟩ : BufTy).Contents (Elt F) → (⟨S256, .f32⟩ : BufTy).Contents (Elt F) → (⟨S256, .f32⟩ : BufTy).Contents (Elt F)),
    StableHlo.unary main_v32 main_v33 (Host.negf : (⟨S256, .f32⟩ : BufTy).Contents (Elt F) → (⟨S256, .f32⟩ : BufTy).Contents (Elt F)),
    StableHlo.unary main_v33 main_v34 (Host.exp : (⟨S256, .f32⟩ : BufTy).Contents (Elt F) → (⟨S256, .f32⟩ : BufTy).Contents (Elt F)),
    StableHlo.nullary main_cst_10 (constant S_ .f32 0x3F800000#32),
    StableHlo.unary main_cst_10 main_v35 (broadcastInDim S256 ![] bcast_S_S256 : (⟨S_, .f32⟩ : BufTy).Contents (Elt F) → (⟨S256, .f32⟩ : BufTy).Contents (Elt F)),
    StableHlo.binary main_v35 main_v34 main_v36 (addf : (⟨S256, .f32⟩ : BufTy).Contents (Elt F) → (⟨S256, .f32⟩ : BufTy).Contents (Elt F) → (⟨S256, .f32⟩ : BufTy).Contents (Elt F)),
    StableHlo.nullary main_cst_11 (constant S_ .f32 0x3F800000#32),
    StableHlo.unary main_cst_11 main_v37 (broadcastInDim S256 ![] bcast_S_S256 : (⟨S_, .f32⟩ : BufTy).Contents (Elt F) → (⟨S256, .f32⟩ : BufTy).Contents (Elt F)),
    StableHlo.binary main_v37 main_v36 main_v38 (Host.divf : (⟨S256, .f32⟩ : BufTy).Contents (Elt F) → (⟨S256, .f32⟩ : BufTy).Contents (Elt F) → (⟨S256, .f32⟩ : BufTy).Contents (Elt F)) ]

/-- @main's 79 operations in order, the calls unfolded. -/
abbrev ops : List (HloOp τ sig (Elt F)) :=
  [ StableHlo.unary main_arg0 main_v0 (Host.negf : (⟨S256x1024x1024, .f32⟩ : BufTy).Contents (Elt F) → (⟨S256x1024x1024, .f32⟩ : BufTy).Contents (Elt F)),
    StableHlo.unary main_v0 main_v1 (Host.exp : (⟨S256x1024x1024, .f32⟩ : BufTy).Contents (Elt F) → (⟨S256x1024x1024, .f32⟩ : BufTy).Contents (Elt F)),
    StableHlo.nullary main_cst (constant S_ .f32 0x3F800000#32),
    StableHlo.unary main_cst main_v2 (broadcastInDim S256x1024x1024 ![] bcast_S_S256x1024x1024 : (⟨S_, .f32⟩ : BufTy).Contents (Elt F) → (⟨S256x1024x1024, .f32⟩ : BufTy).Contents (Elt F)),
    StableHlo.binary main_v2 main_v1 main_v3 (addf : (⟨S256x1024x1024, .f32⟩ : BufTy).Contents (Elt F) → (⟨S256x1024x1024, .f32⟩ : BufTy).Contents (Elt F) → (⟨S256x1024x1024, .f32⟩ : BufTy).Contents (Elt F)),
    StableHlo.nullary main_cst_0 (constant S_ .f32 0x3F800000#32),
    StableHlo.unary main_cst_0 main_v4 (broadcastInDim S256x1024x1024 ![] bcast_S_S256x1024x1024 : (⟨S_, .f32⟩ : BufTy).Contents (Elt F) → (⟨S256x1024x1024, .f32⟩ : BufTy).Contents (Elt F)),
    StableHlo.binary main_v4 main_v3 main_v5 (Host.divf : (⟨S256x1024x1024, .f32⟩ : BufTy).Contents (Elt F) → (⟨S256x1024x1024, .f32⟩ : BufTy).Contents (Elt F) → (⟨S256x1024x1024, .f32⟩ : BufTy).Contents (Elt F)),
    StableHlo.nullary main_cst_1 (constant S_ .f32 0x00000000#32),
    StableHlo.binary main_v5 main_cst_1 main_v6 ((fun x v => Host.reduceAdd x v reducesTo_S256x1024x1024_S256_d1_2 h_S_) : (⟨S256x1024x1024, .f32⟩ : BufTy).Contents (Elt F) → (⟨S_, .f32⟩ : BufTy).Contents (Elt F) → (⟨S256, .f32⟩ : BufTy).Contents (Elt F)),
    StableHlo.nullary main_cst_2 (constant S_ .f32 0x49800000#32),
    StableHlo.unary main_cst_2 main_v7 (broadcastInDim S256 ![] bcast_S_S256 : (⟨S_, .f32⟩ : BufTy).Contents (Elt F) → (⟨S256, .f32⟩ : BufTy).Contents (Elt F)),
    StableHlo.binary main_v6 main_v7 main_v8 (Host.divf : (⟨S256, .f32⟩ : BufTy).Contents (Elt F) → (⟨S256, .f32⟩ : BufTy).Contents (Elt F) → (⟨S256, .f32⟩ : BufTy).Contents (Elt F)),
    StableHlo.nullary main_c (constantI S_ 32 1#32),
    StableHlo.TRef.nullary main_call0.call0.cst (constant S_ .f32 0x00000000#32),
    StableHlo.TRef.binary (TRef.of main_v5 : TRef sig ⟨S256x1024x1024, .f32⟩) main_call0.call0.cst main_call0.call0.v0 (fun x v => Host.reduceAdd x v reducesTo_S256x1024x1024_S256_d1_2 h_S_),
    StableHlo.TRef.unary main_call0.call0.v0 main_call0.call0.v1 (broadcastInDim S256x1x1 ![0] bcast_S256_S256x1x1_0),
    StableHlo.TRef.nullary main_call0.call0.cst_0 (constant S_ .f32 0x49800000#32),
    StableHlo.TRef.unary main_call0.call0.cst_0 main_call0.call0.v2 (broadcastInDim S256x1x1 ![] bcast_S_S256x1x1),
    StableHlo.TRef.binary main_call0.call0.v1 main_call0.call0.v2 main_call0.call0.v3 Host.divf,
    StableHlo.TRef.unary main_call0.call0.v3 main_call0.call0.v4 (broadcastInDim S256x1024x1024 ![0, 1, 2] bcast_S256x1x1_S256x1024x1024_0_1_2),
    StableHlo.TRef.binary (TRef.of main_v5 : TRef sig ⟨S256x1024x1024, .f32⟩) main_call0.call0.v4 main_call0.call0.v5 subf,
    StableHlo.TRef.binary main_call0.call0.v5 main_call0.call0.v5 main_call0.call0.v6 mulf,
    StableHlo.TRef.unary (TRef.of main_c : TRef sig ⟨S_, .i32⟩) main_call0.call0.v7 (sitofp .f32),
    StableHlo.TRef.nullary main_call0.call0.cst_1 (constant S_ .f32 0x49800000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S256x1024x1024_S256_d1_2 h_S_),
    StableHlo.TRef.unary main_call0.call0.v8 main_call0.call0.v10 (broadcastInDim S256 ![] bcast_S_S256),
    StableHlo.TRef.binary main_call0.call0.v9 main_call0.call0.v10 main_call0.call0.v11 Host.divf,
    StableHlo.TRef.nullary main_call0.call0.cst_3 (constant S_ .f32 0x00000000#32),
    StableHlo.TRef.binary main_call0.call0.v8 main_call0.call0.cst_3 main_call0.call0.v12 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S256 ![] bcast_S_S256),
    StableHlo.TRef.ternary main_call0.call0.v12 main_call0.call0.v11 main_call0.call0.call0.v1 main_call0.call0.call0.v2 (fun p a b => select (broadcastInDim S256 ![] bcast_S_S256 p) a b),
    StableHlo.TRef.unary main_call0.call0.call0.v2 main_call0.v1 Host.sqrt,
    StableHlo.nullary main_cst_3 (constant S_ .f32 0x3F000000#32),
    StableHlo.unary main_cst_3 main_v10 (broadcastInDim S256x1024x1024 ![] bcast_S_S256x1024x1024 : (⟨S_, .f32⟩ : BufTy).Contents (Elt F) → (⟨S256x1024x1024, .f32⟩ : BufTy).Contents (Elt F)),
    StableHlo.binary main_v5 main_v10 main_v11 (cmpf .ogt : (⟨S256x1024x1024, .f32⟩ : BufTy).Contents (Elt F) → (⟨S256x1024x1024, .f32⟩ : BufTy).Contents (Elt F) → (⟨S256x1024x1024, .i1⟩ : BufTy).Contents (Elt F)),
    StableHlo.unary main_v11 main_v12 ((extui 32 · natLt_1_32) : (⟨S256x1024x1024, .i1⟩ : BufTy).Contents (Elt F) → (⟨S256x1024x1024, .i32⟩ : BufTy).Contents (Elt F)),
    StableHlo.nullary main_c_4 (constantI S_ 32 0#32),
    StableHlo.binary main_v12 main_c_4 main_v13 ((fun x v => Host.reduce IntOp.addi x v reducesTo_S256x1024x1024_S256_d1_2 h_S_) : (⟨S256x1024x1024, .i32⟩ : BufTy).Contents (Elt F) → (⟨S_, .i32⟩ : BufTy).Contents (Elt F) → (⟨S256, .i32⟩ : BufTy).Contents (Elt F)),
    StableHlo.unary main_v13 main_v14 (sitofp .f32 : (⟨S256, .i32⟩ : BufTy).Contents (Elt F) → (⟨S256, .f32⟩ : BufTy).Contents (Elt F)),
    StableHlo.unary main_v8 main_v15 (broadcastInDim S256x1 ![0] bcast_S256_S256x1_0 : (⟨S256, .f32⟩ : BufTy).Contents (Elt F) → (⟨S256x1, .f32⟩ : BufTy).Contents (Elt F)),
    StableHlo.unary main_v9 main_v16 (broadcastInDim S256x1 ![0] bcast_S256_S256x1_0 : (⟨S256, .f32⟩ : BufTy).Contents (Elt F) → (⟨S256x1, .f32⟩ : BufTy).Contents (Elt F)),
    StableHlo.unary main_v14 main_v17 (broadcastInDim S256x1 ![0] bcast_S256_S256x1_0 : (⟨S256, .f32⟩ : BufTy).Contents (Elt F) → (⟨S256x1, .f32⟩ : BufTy).Contents (Elt F)),
    StableHlo.nary ![main_v15, main_v16, main_v17] main_v18 (fun u => concatenate S256x3 1 [⟨S256x1, u 0⟩, ⟨S256x1, u 1⟩, ⟨S256x1, u 2⟩] concatenates_S256x1_S256x1_S256x1_S256x3_d1),
    StableHlo.TRef.binary (TRef.of main_v18 : TRef sig ⟨S256x3, .f32⟩) (TRef.of main_v18 : TRef sig ⟨S256x3, .f32⟩) main_call1.v0 mulf,
    StableHlo.TRef.nullary main_call1.cst (constant S_ .f32 0x00000000#32),
    StableHlo.TRef.binary main_call1.v0 main_call1.cst main_call1.v1 (fun x v => Host.reduceAdd x v reducesTo_S256x3_S256_d1 h_S_),
    StableHlo.TRef.unary main_call1.v1 main_call1.v2 (broadcastInDim S256x1 ![0] bcast_S256_S256x1_0),
    StableHlo.TRef.unary main_call1.v2 main_call1.v3 Host.sqrt,
    StableHlo.nullary main_cst_5 (constant S_ .f32 0x2B8CBCCC#32),
    StableHlo.unary main_cst_5 main_v20 (broadcastInDim S256x1 ![] bcast_S_S256x1 : (⟨S_, .f32⟩ : BufTy).Contents (Elt F) → (⟨S256x1, .f32⟩ : BufTy).Contents (Elt F)),
    StableHlo.binary main_v19 main_v20 main_v21 (maximumf : (⟨S256x1, .f32⟩ : BufTy).Contents (Elt F) → (⟨S256x1, .f32⟩ : BufTy).Contents (Elt F) → (⟨S256x1, .f32⟩ : BufTy).Contents (Elt F)),
    StableHlo.unary main_v21 main_v22 (broadcastInDim S256x3 ![0, 1] bcast_S256x1_S256x3_0_1 : (⟨S256x1, .f32⟩ : BufTy).Contents (Elt F) → (⟨S256x3, .f32⟩ : BufTy).Contents (Elt F)),
    StableHlo.binary main_v18 main_v22 main_v23 (Host.divf : (⟨S256x3, .f32⟩ : BufTy).Contents (Elt F) → (⟨S256x3, .f32⟩ : BufTy).Contents (Elt F) → (⟨S256x3, .f32⟩ : BufTy).Contents (Elt F)),
    StableHlo.unary main_v23 main_v24 ((transpose S3x256 [1, 0] · transposes_S256x3_S3x256_1_0) : (⟨S256x3, .f32⟩ : BufTy).Contents (Elt F) → (⟨S3x256, .f32⟩ : BufTy).Contents (Elt F)),
    StableHlo.binary main_v23 main_v24 main_v25 ((fun l r => Host.dotGeneral dot_S256x3_S3x256_S256x256_1_0_0_1_n_n none l r) : (⟨S256x3, .f32⟩ : BufTy).Contents (Elt F) → (⟨S3x256, .f32⟩ : BufTy).Contents (Elt F) → (⟨S256x256, .f32⟩ : BufTy).Contents (Elt F)),
    StableHlo.nullary main_cst_6 (constant S_ .f32 0x00000000#32),
    StableHlo.binary main_v25 main_cst_6 main_v26 ((fun x v => Host.reduceAdd x v reducesTo_S256x256_S256_d1 h_S_) : (⟨S256x256, .f32⟩ : BufTy).Contents (Elt F) → (⟨S_, .f32⟩ : BufTy).Contents (Elt F) → (⟨S256, .f32⟩ : BufTy).Contents (Elt F)),
    StableHlo.nullary main_cst_7 (constant S_ .f32 0x43800000#32),
    StableHlo.unary main_cst_7 main_v27 (broadcastInDim S256 ![] bcast_S_S256 : (⟨S_, .f32⟩ : BufTy).Contents (Elt F) → (⟨S256, .f32⟩ : BufTy).Contents (Elt F)),
    StableHlo.binary main_v26 main_v27 main_v28 (Host.divf : (⟨S256, .f32⟩ : BufTy).Contents (Elt F) → (⟨S256, .f32⟩ : BufTy).Contents (Elt F) → (⟨S256, .f32⟩ : BufTy).Contents (Elt F)),
    StableHlo.nullary main_cst_8 (constant S_ .f32 0x00000000#32),
    StableHlo.binary main_v28 main_cst_8 main_v29 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    StableHlo.nullary main_cst_9 (constant S_ .f32 0x43800000#32),
    StableHlo.binary main_v29 main_cst_9 main_v30 (Host.divf : (⟨S_, .f32⟩ : BufTy).Contents (Elt F) → (⟨S_, .f32⟩ : BufTy).Contents (Elt F) → (⟨S_, .f32⟩ : BufTy).Contents (Elt F)),
    StableHlo.unary main_v30 main_v31 (broadcastInDim S256 ![] bcast_S_S256 : (⟨S_, .f32⟩ : BufTy).Contents (Elt F) → (⟨S256, .f32⟩ : BufTy).Contents (Elt F)),
    StableHlo.binary main_v28 main_v31 main_v32 (subf : (⟨S256, .f32⟩ : BufTy).Contents (Elt F) → (⟨S256, .f32⟩ : BufTy).Contents (Elt F) → (⟨S256, .f32⟩ : BufTy).Contents (Elt F)),
    StableHlo.unary main_v32 main_v33 (Host.negf : (⟨S256, .f32⟩ : BufTy).Contents (Elt F) → (⟨S256, .f32⟩ : BufTy).Contents (Elt F)),
    StableHlo.unary main_v33 main_v34 (Host.exp : (⟨S256, .f32⟩ : BufTy).Contents (Elt F) → (⟨S256, .f32⟩ : BufTy).Contents (Elt F)),
    StableHlo.nullary main_cst_10 (constant S_ .f32 0x3F800000#32),
    StableHlo.unary main_cst_10 main_v35 (broadcastInDim S256 ![] bcast_S_S256 : (⟨S_, .f32⟩ : BufTy).Contents (Elt F) → (⟨S256, .f32⟩ : BufTy).Contents (Elt F)),
    StableHlo.binary main_v35 main_v34 main_v36 (addf : (⟨S256, .f32⟩ : BufTy).Contents (Elt F) → (⟨S256, .f32⟩ : BufTy).Contents (Elt F) → (⟨S256, .f32⟩ : BufTy).Contents (Elt F)),
    StableHlo.nullary main_cst_11 (constant S_ .f32 0x3F800000#32),
    StableHlo.unary main_cst_11 main_v37 (broadcastInDim S256 ![] bcast_S_S256 : (⟨S_, .f32⟩ : BufTy).Contents (Elt F) → (⟨S256, .f32⟩ : BufTy).Contents (Elt F)),
    StableHlo.binary main_v37 main_v36 main_v38 (Host.divf : (⟨S256, .f32⟩ : BufTy).Contents (Elt F) → (⟨S256, .f32⟩ : BufTy).Contents (Elt F) → (⟨S256, .f32⟩ : BufTy).Contents (Elt F)) ]

theorem ops_split : (ops : List (HloOp τ sig (Elt F))) = segP ++ (segM ++ (segS ++ (segC ++ segT))) := rfl

set_option maxRecDepth 4096 in
/-- @main is that straight line: the functions unfolded at their calls, sequencing reassociated. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., nullary_bufs_sub .., unary_bufs_sub .., binary_bufs_sub .., unary_bufs_sub .., nullary_bufs_sub .., binary_bufs_sub .., unary_bufs_sub .., unary_bufs_sub .., unary_bufs_sub .., unary_bufs_sub .., nary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., binary_bufs_sub .., nullary_bufs_sub .., unary_bufs_sub .., binary_bufs_sub .., nullary_bufs_sub .., binary_bufs_sub .., nullary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- The contents after two stretches run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

end Ops

/-! ## The stretches' results as named functions (at the ideal instance) -/

/-- The probabilities: `1 / (1 + exp (-x))` entry by entry, as the program writes it. -/
def probs (x : FVec Ideal S256x1024x1024 .f32) : FVec Ideal S256x1024x1024 .f32 :=
  Host.divf (F := Ideal) (broadcastInDim S256x1024x1024 ![] bcast_S_S256x1024x1024 (constant (F := Ideal) S_ .f32 0x3F800000#32))
    (addf (F := Ideal) (broadcastInDim S256x1024x1024 ![] bcast_S_S256x1024x1024 (constant (F := Ideal) S_ .f32 0x3F800000#32))
      (Host.exp (F := Ideal) (Host.negf (F := Ideal) x)))

/-- The row means of an array of probabilities: the sum over the two inner axes divided by 1048576. -/
def meanOf (p : FVec Ideal S256x1024x1024 .f32) : FVec Ideal S256 .f32 :=
  Host.divf (F := Ideal) (Host.reduceAdd (F := Ideal) p (constant (F := Ideal) S_ .f32 0x00000000#32) reducesTo_S256x1024x1024_S256_d1_2 h_S_)
    (broadcastInDim S256 ![] bcast_S_S256 (constant (F := Ideal) S_ .f32 0x49800000#32))

/-- The variance's normaliser, `1048576 - 1` with the `1` an integer converted. -/
def ddofN : FVec Ideal S_ .f32 :=
  subf (F := Ideal) (constant (F := Ideal) S_ .f32 0x49800000#32) (sitofp (F := Ideal) .f32 (constantI S_ 32 1#32))

/-- The probabilities with their row mean taken off (the mean kept with two unit axes and broadcast back). -/
def centredP (p : FVec Ideal S256x1024x1024 .f32) : FVec Ideal S256x1024x1024 .f32 :=
  subf (F := Ideal) p
    (broadcastInDim S256x1024x1024 ![0, 1, 2] bcast_S256x1x1_S256x1024x1024_0_1_2
      (Host.divf (F := Ideal)
        (broadcastInDim S256x1x1 ![0] bcast_S256_S256x1x1_0 (Host.reduceAdd (F := Ideal) p (constant (F := Ideal) S_ .f32 0x00000000#32) reducesTo_S256x1024x1024_S256_d1_2 h_S_))
        (broadcastInDim S256x1x1 ![] bcast_S_S256x1x1 (constant (F := Ideal) S_ .f32 0x49800000#32))))

/-- The row variances: the centred squares summed and divided by the normaliser where it is positive,
    the literal `0x7FC00000` elsewhere. -/
def varOf (p : FVec Ideal S256x1024x1024 .f32) : FVec Ideal S256 .f32 :=
  select (broadcastInDim S256 ![] bcast_S_S256 (cmpf (F := Ideal) .ogt ddofN (constant (F := Ideal) S_ .f32 0x00000000#32)))
    (Host.divf (F := Ideal) (Host.reduceAdd (F := Ideal) (mulf (F := Ideal) (centredP p) (centredP p)) (constant (F := Ideal) S_ .f32 0x00000000#32) reducesTo_S256x1024x1024_S256_d1_2 h_S_)
      (broadcastInDim S256 ![] bcast_S_S256 ddofN))
    (broadcastInDim S256 ![] bcast_S_S256 (constant (F := Ideal) S_ .f32 0x7FC00000#32))

/-- The row standard deviations. -/
def stdOf (p : FVec Ideal S256x1024x1024 .f32) : FVec Ideal S256 .f32 :=
  Host.sqrt (F := Ideal) (varOf p)

/-- The row counts of probabilities above one half: the comparison's bits widened to 32-bit integers,
    summed as integers over the two inner axes, the sum converted to a float. -/
def cntOf (p : FVec Ideal S256x1024x1024 .f32) : FVec Ideal S256 .f32 :=
  sitofp (F := Ideal) .f32
    (Host.reduce IntOp.addi
      (extui 32 (cmpf (F := Ideal) .ogt p (broadcastInDim S256x1024x1024 ![] bcast_S_S256x1024x1024 (constant (F := Ideal) S_ .f32 0x3F000000#32))) natLt_1_32)
      (constantI S_ 32 0#32) reducesTo_S256x1024x1024_S256_d1_2 h_S_)

def meanR (x : FVec Ideal S256x1024x1024 .f32) : FVec Ideal S256 .f32 := meanOf (probs x)
def stdR (x : FVec Ideal S256x1024x1024 .f32) : FVec Ideal S256 .f32 := stdOf (probs x)
def cntR (x : FVec Ideal S256x1024x1024 .f32) : FVec Ideal S256 .f32 := cntOf (probs x)

/-- The three columns side by side: a [256, 3] array. -/
def stack3 (a b c : FVec Ideal S256 .f32) : FVec Ideal S256x3 .f32 :=
  concatenate S256x3 1
    [⟨S256x1, broadcastInDim S256x1 ![0] bcast_S256_S256x1_0 a⟩,
     ⟨S256x1, broadcastInDim S256x1 ![0] bcast_S256_S256x1_0 b⟩,
     ⟨S256x1, broadcastInDim S256x1 ![0] bcast_S256_S256x1_0 c⟩]
    concatenates_S256x1_S256x1_S256x1_S256x3_d1

/-- The rows' Euclidean norms, as a [256, 1] column. -/
def rowNorm (s : FVec Ideal S256x3 .f32) : FVec Ideal S256x1 .f32 :=
  Host.sqrt (F := Ideal) (broadcastInDim S256x1 ![0] bcast_S256_S256x1_0 (Host.reduceAdd (F := Ideal) (mulf (F := Ideal) s s) (constant (F := Ideal) S_ .f32 0x00000000#32) reducesTo_S256x3_S256_d1 h_S_))

/-- Each row divided by the larger of its norm and the literal `0x2B8CBCCC`. -/
def unitRows (s : FVec Ideal S256x3 .f32) : FVec Ideal S256x3 .f32 :=
  Host.divf (F := Ideal) s
    (broadcastInDim S256x3 ![0, 1] bcast_S256x1_S256x3_0_1
      (maximumf (F := Ideal) (rowNorm s) (broadcastInDim S256x1 ![] bcast_S_S256x1 (constant (F := Ideal) S_ .f32 0x2B8CBCCC#32))))

/-- The row means of the matrix of inner products of the rows: row sums divided by 256. -/
def cosRowMean (y : FVec Ideal S256x3 .f32) : FVec Ideal S256 .f32 :=
  Host.divf (F := Ideal)
    (Host.reduceAdd (F := Ideal) (Host.dotGeneral (F := Ideal) dot_S256x3_S3x256_S256x256_1_0_0_1_n_n none y (transpose S3x256 [1, 0] y transposes_S256x3_S3x256_1_0)) (constant (F := Ideal) S_ .f32 0x00000000#32) reducesTo_S256x256_S256_d1 h_S_)
    (broadcastInDim S256 ![] bcast_S_S256 (constant (F := Ideal) S_ .f32 0x43800000#32))

/-- A column with its own mean (sum divided by 256) taken off. -/
def centredCol (r : FVec Ideal S256 .f32) : FVec Ideal S256 .f32 :=
  subf (F := Ideal) r
    (broadcastInDim S256 ![] bcast_S_S256
      (Host.divf (F := Ideal) (Host.reduceAdd (F := Ideal) r (constant (F := Ideal) S_ .f32 0x00000000#32) reducesTo_S256_S_d0 h_S_) (constant (F := Ideal) S_ .f32 0x43800000#32)))

/-- The logistic function of a column, as the program writes it. -/
def logisticCol (r : FVec Ideal S256 .f32) : FVec Ideal S256 .f32 :=
  Host.divf (F := Ideal) (broadcastInDim S256 ![] bcast_S_S256 (constant (F := Ideal) S_ .f32 0x3F800000#32))
    (addf (F := Ideal) (broadcastInDim S256 ![] bcast_S_S256 (constant (F := Ideal) S_ .f32 0x3F800000#32))
      (Host.exp (F := Ideal) (Host.negf (F := Ideal) r)))

/-- The tail both programs share, as a function of the three columns of statistics. -/
def tailR (a b c : FVec Ideal S256 .f32) : FVec Ideal S256 .f32 :=
  logisticCol (centredCol (cosRowMean (unitRows (stack3 a b c))))

/-- The result as a function of the argument array. -/
def res (x : FVec Ideal S256x1024x1024 .f32) : FVec Ideal S256 .f32 :=
  tailR (meanR x) (stdR x) (cntR x)

/-! ## Each stretch read back -/

theorem segP_v5 (W : Valuation τ sig (Elt Ideal)) : after (segP (F := Ideal)) W (main_v5 : DevRef τ sig) = probs (W (main_arg0 : DevRef τ sig)) := by
  after_results_simp
  rfl
theorem segP_arg0 (W : Valuation τ sig (Elt Ideal)) : after (segP (F := Ideal)) W (main_arg0 : DevRef τ sig) = W (main_arg0 : DevRef τ sig) := by
  after_results_simp

theorem segM_v8 (W : Valuation τ sig (Elt Ideal)) : after (segM (F := Ideal)) W (main_v8 : DevRef τ sig) = meanOf (W (main_v5 : DevRef τ sig)) := by
  after_results_simp
  rfl
theorem segM_v5 (W : Valuation τ sig (Elt Ideal)) : after (segM (F := Ideal)) W (main_v5 : DevRef τ sig) = W (main_v5 : DevRef τ sig) := by
  after_results_simp
theorem segM_arg0 (W : Valuation τ sig (Elt Ideal)) : after (segM (F := Ideal)) W (main_arg0 : DevRef τ sig) = W (main_arg0 : DevRef τ sig) := by
  after_results_simp

theorem segS_v9 (W : Valuation τ sig (Elt Ideal)) : after (segS (F := Ideal)) W (main_v9 : DevRef τ sig) = stdOf (W (main_v5 : DevRef τ sig)) := by
  after_results_simp
  rfl
theorem segS_v8 (W : Valuation τ sig (Elt Ideal)) : after (segS (F := Ideal)) W (main_v8 : DevRef τ sig) = W (main_v8 : DevRef τ sig) := by
  after_results_simp
theorem segS_v5 (W : Valuation τ sig (Elt Ideal)) : after (segS (F := Ideal)) W (main_v5 : DevRef τ sig) = W (main_v5 : DevRef τ sig) := by
  after_results_simp
theorem segS_arg0 (W : Valuation τ sig (Elt Ideal)) : after (segS (F := Ideal)) W (main_arg0 : DevRef τ sig) = W (main_arg0 : DevRef τ sig) := by
  after_results_simp

theorem segC_v14 (W : Valuation τ sig (Elt Ideal)) : after (segC (F := Ideal)) W (main_v14 : DevRef τ sig) = cntOf (W (main_v5 : DevRef τ sig)) := by
  after_results_simp
  rfl
theorem segC_v8 (W : Valuation τ sig (Elt Ideal)) : after (segC (F := Ideal)) W (main_v8 : DevRef τ sig) = W (main_v8 : DevRef τ sig) := by
  after_results_simp
theorem segC_v9 (W : Valuation τ sig (Elt Ideal)) : after (segC (F := Ideal)) W (main_v9 : DevRef τ sig) = W (main_v9 : DevRef τ sig) := by
  after_results_simp
theorem segC_arg0 (W : Valuation τ sig (Elt Ideal)) : after (segC (F := Ideal)) W (main_arg0 : DevRef τ sig) = W (main_arg0 : DevRef τ sig) := by
  after_results_simp

/-- A three-operand operation's result with each operand's contents at its own reference. -/
theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

theorem segT_v38 (W : Valuation τ sig (Elt Ideal)) : after (segT (F := Ideal)) W (main_v38 : DevRef τ sig) = tailR (W (main_v8 : DevRef τ sig)) (W (main_v9 : DevRef τ sig)) (W (main_v14 : DevRef τ sig)) := by
  simp (disch := decide) only [after_cons, after_nil,
      nullary_result', unary_result', binary_result', ternary_result', nary3_result',
      nullary_result_ne', unary_result_ne', binary_result_ne', ternary_result_ne', nary_result_ne']
  rfl
theorem segT_arg0 (W : Valuation τ sig (Elt Ideal)) : after (segT (F := Ideal)) W (main_arg0 : DevRef τ sig) = W (main_arg0 : DevRef τ sig) := by
  after_results_simp

/-! ## The whole line -/

theorem res_eq (V : Valuation τ sig (Elt Ideal)) :
    after (ops (F := Ideal)) V (main_v38 : DevRef τ sig) = res (V (main_arg0 : DevRef τ sig)) := by
  rw [ops_split, after_app, after_app, after_app, after_app, segT_v38,
    segC_v8, segC_v9, segC_v14, segS_v8, segS_v9, segS_v5, segM_v8, segM_v5, segP_v5]
  rfl

theorem arg0_eq (V : Valuation τ sig (Elt Ideal)) :
    after (ops (F := Ideal)) V (main_arg0 : DevRef τ sig) = V (main_arg0 : DevRef τ sig) := by
  rw [ops_split, after_app, after_app, after_app, after_app, segT_arg0, segC_arg0, segS_arg0, segM_arg0, segP_arg0]

/-- From any memory with zero counters, every weakly fair execution of @main terminates with the result
    buffer at `res` of the argument's launch contents, the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v38) = res (m ((c.tc : Thread nD τ).loc main_arg0))
      ∧ r.2.mem ((c.tc : Thread nD τ).loc main_arg0) = m ((c.tc : Thread nD τ).loc main_arg0) :=
  (θ_run defs _ _).mono (fun _ h c => ⟨(h c main_v38).trans (res_eq _), (h c main_arg0).trans (arg0_eq _)⟩)
    (run_seq scopedRefs_eq scopedSems_eq defs main (fun _ => ops) main_eq (fun _ => ops_sub) m ρ)

end Cert.ReferenceIdeal.RefRun

end
-- ==== Proof.LibTrailing.lean ====
/-
  Layout operations read at an index, for rank-3 arrays whose last or middle axis is a unit axis (a matrix carried
  as `[a, b, 1]` and spread over a trailing axis, a matrix `[a, c]` carried as `[a, 1, c]` and spread over a middle
  axis, a leading unit axis spread over the batch), a slice along the last of three axes, and the cast `[a, 1]` to
  `[a]` — in the style of the library's `shapeCast_a_1a_apply` and `broadcastTo_1b_ab_apply`.
-/
import Idealize.ShloMosaic.Lib.Pipeline.Value
import Idealize.ShloMosaic.Lib.ValueIdx

namespace Cert.LibTrailing

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, 1]` array cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b, 1]` array broadcast to `[a, b, c]` reads, at `(i, j, k)`, the operand's one entry at `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A rank-3 array cut along its last axis from `o` reads, at `(i, j, e)`, the source at `(i, j, k)` with `k = o + e`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (i : Fin n0) (j : Fin n1) (e : Fin m) (k : Fin n2) (hk : k.val = o + e.val) :
    extractStridedSlice ⟨3, ![n0, n1, m]⟩ ![0, 0, o] X h (ix3 i j e) = X (ix3 i j k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.LibTrailing
-- ==== Proof.KTail.lean ====
/-
  The kernel program's host operations after its region, read back.

  From the region's [256, 3] result the program cuts the three columns, forms the mean
  `1/2 + c₀ / 1048576`, the standard deviation `sqrt (max ((c₁ - c₀² / 1048576) / 1048575) 0)` and
  the count `c₂`, and then applies to these three columns the same operations as the reference's
  tail: stack, divide each row by the larger of its norm and a small constant, inner products of
  the rows, row means, centring, the logistic function.
-/
import proofs.«114488_j90417651516041_2_alg».proof.Proof.KISetup
import proofs.«114488_j90417651516041_2_alg».proof.Proof.RefRun
import proofs.«114488_j90417651516041_2_alg».proof.Proof.LibTrailing
import Idealize.ShloMosaic.Lib.ValueLayout
import Idealize.ShloMosaic.Lib.StableHlo.Run
import Idealize.ShloMosaic.Lib.ValueIdx
import Idealize.ShloMosaic.PureOps.Ideal

noncomputable section

namespace Cert.KernelIdeal.HTail

open Cert.KernelIdeal Cert.KernelIdeal.Gen Cert.KernelIdeal.HFrame Idealize.ShloMosaic Idealize.ShloMosaic.ValueIdx

/-! ## The columns and the three statistics -/

def col0 (v : FVec Ideal S256x3 .f32) : FVec Ideal S256 .f32 :=
  shapeCast S256 (extractStridedSlice S256x1 ![0, 0] v slices_S256x3_S256x1_0_0) shapeCasts_S256x1_S256
def col1 (v : FVec Ideal S256x3 .f32) : FVec Ideal S256 .f32 :=
  shapeCast S256 (extractStridedSlice S256x1 ![0, 1] v slices_S256x3_S256x1_0_1) shapeCasts_S256x1_S256
def col2 (v : FVec Ideal S256x3 .f32) : FVec Ideal S256 .f32 :=
  shapeCast S256 (extractStridedSlice S256x1 ![0, 2] v slices_S256x3_S256x1_0_2) shapeCasts_S256x1_S256

/-- The mean: one half plus column 0 over 1048576. -/
def meanK (v : FVec Ideal S256x3 .f32) : FVec Ideal S256 .f32 :=
  addf (F := Ideal) (broadcastInDim S256 ![] bcast_S_S256 (constant (F := Ideal) S_ .f32 0x3F000000#32)) (Host.divf (F := Ideal) (col0 v) (broadcastInDim S256 ![] bcast_S_S256 (constant (F := Ideal) S_ .f32 0x49800000#32)))

/-- The standard deviation: the square root of the variance clamped at zero. -/
def stdK (v : FVec Ideal S256x3 .f32) : FVec Ideal S256 .f32 :=
  Host.sqrt (F := Ideal)
    (maximumf (F := Ideal)
      (Host.divf (F := Ideal)
        (subf (F := Ideal) (col1 v) (Host.divf (F := Ideal) (mulf (F := Ideal) (col0 v) (col0 v)) (broadcastInDim S256 ![] bcast_S_S256 (constant (F := Ideal) S_ .f32 0x49800000#32))))
        (broadcastInDim S256 ![] bcast_S_S256 (constant (F := Ideal) S_ .f32 0x497FFFF0#32)))
      (broadcastInDim S256 ![] bcast_S_S256 (constant (F := Ideal) S_ .f32 0x00000000#32)))

/-- The count: column 2. -/
def cntK (v : FVec Ideal S256x3 .f32) : FVec Ideal S256 .f32 := col2 v

theorem col0_apply (v : FVec Ideal S256x3 .f32) (n : Fin 256) : col0 v (ix1 n) = v (ix2 n (0 : Fin 3)) := by
  unfold col0
  exact (Cert.LibTrailing.shapeCast_a1_a_apply (extractStridedSlice S256x1 ![0, 0] v slices_S256x3_S256x1_0_0) shapeCasts_S256x1_S256 n).trans
    (slice2_axis1_apply 0 v slices_S256x3_S256x1_0_0 n (0 : Fin 1) (0 : Fin 3) rfl)
theorem col1_apply (v : FVec Ideal S256x3 .f32) (n : Fin 256) : col1 v (ix1 n) = v (ix2 n (1 : Fin 3)) := by
  unfold col1
  exact (Cert.LibTrailing.shapeCast_a1_a_apply (extractStridedSlice S256x1 ![0, 1] v slices_S256x3_S256x1_0_1) shapeCasts_S256x1_S256 n).trans
    (slice2_axis1_apply 1 v slices_S256x3_S256x1_0_1 n (0 : Fin 1) (1 : Fin 3) rfl)
theorem col2_apply (v : FVec Ideal S256x3 .f32) (n : Fin 256) : col2 v (ix1 n) = v (ix2 n (2 : Fin 3)) := by
  unfold col2
  exact (Cert.LibTrailing.shapeCast_a1_a_apply (extractStridedSlice S256x1 ![0, 2] v slices_S256x3_S256x1_0_2) shapeCasts_S256x1_S256 n).trans
    (slice2_axis1_apply 2 v slices_S256x3_S256x1_0_2 n (0 : Fin 1) (2 : Fin 3) rfl)

theorem meanK_apply (v : FVec Ideal S256x3 .f32) (n : Fin 256) :
    meanK v (ix1 n) = Ideal.ofBits .f32 0x3F000000#32 + Ideal.div (v (ix2 n (0 : Fin 3))) (Ideal.ofBits .f32 0x49800000#32) := by
  rw [← col0_apply v n]; rfl

theorem stdK_apply (v : FVec Ideal S256x3 .f32) (n : Fin 256) :
    stdK v (ix1 n) = Ideal.sqrt (max (Ideal.div (v (ix2 n (1 : Fin 3))
        - Ideal.div (v (ix2 n (0 : Fin 3)) * v (ix2 n (0 : Fin 3))) (Ideal.ofBits .f32 0x49800000#32))
      (Ideal.ofBits .f32 0x497FFFF0#32)) (Ideal.ofBits .f32 0x00000000#32)) := by
  rw [← col0_apply v n, ← col1_apply v n]; rfl

theorem cntK_apply (v : FVec Ideal S256x3 .f32) (n : Fin 256) : cntK v (ix1 n) = v (ix2 n (2 : Fin 3)) :=
  col2_apply v n

/-! ## The operations, in two stretches -/

section Ops
variable {F : FTy → Type} [FloatOps F]

/-- The first 24 operations after the region: the columns and the three statistics. -/
abbrev segA : List (HloOp τ sig (Elt F)) :=
  [ StableHlo.unary main_v1 main_v2 ((extractStridedSlice S256x1 ![0, 0] · slices_S256x3_S256x1_0_0) : (⟨S256x3, .f32⟩ : BufTy).Contents (Elt F) → (⟨S256x1, .f32⟩ : BufTy).Contents (Elt F)),
    StableHlo.reshape main_v2 main_v3 rfl shapeCasts_S256x1_S256,
    StableHlo.unary main_v1 main_v4 ((extractStridedSlice S256x1 ![0, 1] · slices_S256x3_S256x1_0_1) : (⟨S256x3, .f32⟩ : BufTy).Contents (Elt F) → (⟨S256x1, .f32⟩ : BufTy).Contents (Elt F)),
    StableHlo.reshape main_v4 main_v5 rfl shapeCasts_S256x1_S256,
    StableHlo.unary main_v1 main_v6 ((extractStridedSlice S256x1 ![0, 2] · slices_S256x3_S256x1_0_2) : (⟨S256x3, .f32⟩ : BufTy).Contents (Elt F) → (⟨S256x1, .f32⟩ : BufTy).Contents (Elt F)),
    StableHlo.reshape main_v6 main_v7 rfl shapeCasts_S256x1_S256,
    StableHlo.nullary main_cst (constant S_ .f32 0x49800000#32),
    StableHlo.unary main_cst main_v8 (broadcastInDim S256 ![] bcast_S_S256 : (⟨S_, .f32⟩ : BufTy).Contents (Elt F) → (⟨S256, .f32⟩ : BufTy).Contents (Elt F)),
    StableHlo.binary main_v3 main_v8 main_v9 (Host.divf : (⟨S256, .f32⟩ : BufTy).Contents (Elt F) → (⟨S256, .f32⟩ : BufTy).Contents (Elt F) → (⟨S256, .f32⟩ : BufTy).Contents (Elt F)),
    StableHlo.nullary main_cst_0 (constant S_ .f32 0x3F000000#32),
    StableHlo.unary main_cst_0 main_v10 (broadcastInDim S256 ![] bcast_S_S256 : (⟨S_, .f32⟩ : BufTy).Contents (Elt F) → (⟨S256, .f32⟩ : BufTy).Contents (Elt F)),
    StableHlo.binary main_v10 main_v9 main_v11 (addf : (⟨S256, .f32⟩ : BufTy).Contents (Elt F) → (⟨S256, .f32⟩ : BufTy).Contents (Elt F) → (⟨S256, .f32⟩ : BufTy).Contents (Elt F)),
    StableHlo.binary main_v3 main_v3 main_v12 (mulf : (⟨S256, .f32⟩ : BufTy).Contents (Elt F) → (⟨S256, .f32⟩ : BufTy).Contents (Elt F) → (⟨S256, .f32⟩ : BufTy).Contents (Elt F)),
    StableHlo.nullary main_cst_1 (constant S_ .f32 0x49800000#32),
    StableHlo.unary main_cst_1 main_v13 (broadcastInDim S256 ![] bcast_S_S256 : (⟨S_, .f32⟩ : BufTy).Contents (Elt F) → (⟨S256, .f32⟩ : BufTy).Contents (Elt F)),
    StableHlo.binary main_v12 main_v13 main_v14 (Host.divf : (⟨S256, .f32⟩ : BufTy).Contents (Elt F) → (⟨S256, .f32⟩ : BufTy).Contents (Elt F) → (⟨S256, .f32⟩ : BufTy).Contents (Elt F)),
    StableHlo.binary main_v5 main_v14 main_v15 (subf : (⟨S256, .f32⟩ : BufTy).Contents (Elt F) → (⟨S256, .f32⟩ : BufTy).Contents (Elt F) → (⟨S256, .f32⟩ : BufTy).Contents (Elt F)),
    StableHlo.nullary main_cst_2 (constant S_ .f32 0x497FFFF0#32),
    StableHlo.unary main_cst_2 main_v16 (broadcastInDim S256 ![] bcast_S_S256 : (⟨S_, .f32⟩ : BufTy).Contents (Elt F) → (⟨S256, .f32⟩ : BufTy).Contents (Elt F)),
    StableHlo.binary main_v15 main_v16 main_v17 (Host.divf : (⟨S256, .f32⟩ : BufTy).Contents (Elt F) → (⟨S256, .f32⟩ : BufTy).Contents (Elt F) → (⟨S256, .f32⟩ : BufTy).Contents (Elt F)),
    StableHlo.nullary main_cst_3 (constant S_ .f32 0x00000000#32),
    StableHlo.unary main_cst_3 main_v18 (broadcastInDim S256 ![] bcast_S_S256 : (⟨S_, .f32⟩ : BufTy).Contents (Elt F) → (⟨S256, .f32⟩ : BufTy).Contents (Elt F)),
    StableHlo.binary main_v17 main_v18 main_v19 (maximumf : (⟨S256, .f32⟩ : BufTy).Contents (Elt F) → (⟨S256, .f32⟩ : BufTy).Contents (Elt F) → (⟨S256, .f32⟩ : BufTy).Contents (Elt F)),
    StableHlo.unary main_v19 main_v20 (Host.sqrt : (⟨S256, .f32⟩ : BufTy).Contents (Elt F) → (⟨S256, .f32⟩ : BufTy).Contents (Elt F)) ]

/-- The remaining 35: the stack, the row norms, and the rest of the tail. -/
abbrev segT : List (HloOp τ sig (Elt F)) :=
  [ StableHlo.unary main_v11 main_v21 (broadcastInDim S256x1 ![0] bcast_S256_S256x1_0 : (⟨S256, .f32⟩ : BufTy).Contents (Elt F) → (⟨S256x1, .f32⟩ : BufTy).Contents (Elt F)),
    StableHlo.unary main_v20 main_v22 (broadcastInDim S256x1 ![0] bcast_S256_S256x1_0 : (⟨S256, .f32⟩ : BufTy).Contents (Elt F) → (⟨S256x1, .f32⟩ : BufTy).Contents (Elt F)),
    StableHlo.unary main_v7 main_v23 (broadcastInDim S256x1 ![0] bcast_S256_S256x1_0 : (⟨S256, .f32⟩ : BufTy).Contents (Elt F) → (⟨S256x1, .f32⟩ : BufTy).Contents (Elt F)),
    StableHlo.nary ![main_v21, main_v22, main_v23] main_v24 (fun u => concatenate S256x3 1 [⟨S256x1, u 0⟩, ⟨S256x1, u 1⟩, ⟨S256x1, u 2⟩] concatenates_S256x1_S256x1_S256x1_S256x3_d1),
    StableHlo.TRef.binary (.of main_v24 : StableHlo.TRef sig ⟨S256x3, .f32⟩) (.of main_v24 : StableHlo.TRef sig ⟨S256x3, .f32⟩) (.of main_call0_v0 : StableHlo.TRef sig ⟨S256x3, .f32⟩) mulf,
    StableHlo.TRef.nullary (.of main_call0_cst : StableHlo.TRef sig ⟨S_, .f32⟩) (constant S_ .f32 0x00000000#32),
    StableHlo.TRef.binary (.of main_call0_v0 : StableHlo.TRef sig ⟨S256x3, .f32⟩) (.of main_call0_cst : StableHlo.TRef sig ⟨S_, .f32⟩) (.of main_call0_v1 : StableHlo.TRef sig ⟨S256, .f32⟩) (fun x v => Host.reduceAdd x v reducesTo_S256x3_S256_d1 h_S_),
    StableHlo.TRef.unary (.of main_call0_v1 : StableHlo.TRef sig ⟨S256, .f32⟩) (.of main_call0_v2 : StableHlo.TRef sig ⟨S256x1, .f32⟩) (broadcastInDim S256x1 ![0] bcast_S256_S256x1_0),
    StableHlo.TRef.unary (.of main_call0_v2 : StableHlo.TRef sig ⟨S256x1, .f32⟩) (.of main_v25 : StableHlo.TRef sig ⟨S256x1, .f32⟩) Host.sqrt,
    StableHlo.nullary main_cst_4 (constant S_ .f32 0x2B8CBCCC#32),
    StableHlo.unary main_cst_4 main_v26 (broadcastInDim S256x1 ![] bcast_S_S256x1 : (⟨S_, .f32⟩ : BufTy).Contents (Elt F) → (⟨S256x1, .f32⟩ : BufTy).Contents (Elt F)),
    StableHlo.binary main_v25 main_v26 main_v27 (maximumf : (⟨S256x1, .f32⟩ : BufTy).Contents (Elt F) → (⟨S256x1, .f32⟩ : BufTy).Contents (Elt F) → (⟨S256x1, .f32⟩ : BufTy).Contents (Elt F)),
    StableHlo.unary main_v27 main_v28 (broadcastInDim S256x3 ![0, 1] bcast_S256x1_S256x3_0_1 : (⟨S256x1, .f32⟩ : BufTy).Contents (Elt F) → (⟨S256x3, .f32⟩ : BufTy).Contents (Elt F)),
    StableHlo.binary main_v24 main_v28 main_v29 (Host.divf : (⟨S256x3, .f32⟩ : BufTy).Contents (Elt F) → (⟨S256x3, .f32⟩ : BufTy).Contents (Elt F) → (⟨S256x3, .f32⟩ : BufTy).Contents (Elt F)),
    StableHlo.unary main_v29 main_v30 ((transpose S3x256 [1, 0] · transposes_S256x3_S3x256_1_0) : (⟨S256x3, .f32⟩ : BufTy).Contents (Elt F) → (⟨S3x256, .f32⟩ : BufTy).Contents (Elt F)),
    StableHlo.binary main_v29 main_v30 main_v31 ((fun l r => Host.dotGeneral dot_S256x3_S3x256_S256x256_1_0_0_1_n_n none l r) : (⟨S256x3, .f32⟩ : BufTy).Contents (Elt F) → (⟨S3x256, .f32⟩ : BufTy).Contents (Elt F) → (⟨S256x256, .f32⟩ : BufTy).Contents (Elt F)),
    StableHlo.nullary main_cst_5 (constant S_ .f32 0x00000000#32),
    StableHlo.binary main_v31 main_cst_5 main_v32 ((fun x v => Host.reduceAdd x v reducesTo_S256x256_S256_d1 h_S_) : (⟨S256x256, .f32⟩ : BufTy).Contents (Elt F) → (⟨S_, .f32⟩ : BufTy).Contents (Elt F) → (⟨S256, .f32⟩ : BufTy).Contents (Elt F)),
    StableHlo.nullary main_cst_6 (constant S_ .f32 0x43800000#32),
    StableHlo.unary main_cst_6 main_v33 (broadcastInDim S256 ![] bcast_S_S256 : (⟨S_, .f32⟩ : BufTy).Contents (Elt F) → (⟨S256, .f32⟩ : BufTy).Contents (Elt F)),
    StableHlo.binary main_v32 main_v33 main_v34 (Host.divf : (⟨S256, .f32⟩ : BufTy).Contents (Elt F) → (⟨S256, .f32⟩ : BufTy).Contents (Elt F) → (⟨S256, .f32⟩ : BufTy).Contents (Elt F)),
    StableHlo.nullary main_cst_7 (constant S_ .f32 0x00000000#32),
    StableHlo.binary main_v34 main_cst_7 main_v35 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    StableHlo.nullary main_cst_8 (constant S_ .f32 0x43800000#32),
    StableHlo.binary main_v35 main_cst_8 main_v36 (Host.divf : (⟨S_, .f32⟩ : BufTy).Contents (Elt F) → (⟨S_, .f32⟩ : BufTy).Contents (Elt F) → (⟨S_, .f32⟩ : BufTy).Contents (Elt F)),
    StableHlo.unary main_v36 main_v37 (broadcastInDim S256 ![] bcast_S_S256 : (⟨S_, .f32⟩ : BufTy).Contents (Elt F) → (⟨S256, .f32⟩ : BufTy).Contents (Elt F)),
    StableHlo.binary main_v34 main_v37 main_v38 (subf : (⟨S256, .f32⟩ : BufTy).Contents (Elt F) → (⟨S256, .f32⟩ : BufTy).Contents (Elt F) → (⟨S256, .f32⟩ : BufTy).Contents (Elt F)),
    StableHlo.unary main_v38 main_v39 (Host.negf : (⟨S256, .f32⟩ : BufTy).Contents (Elt F) → (⟨S256, .f32⟩ : BufTy).Contents (Elt F)),
    StableHlo.unary main_v39 main_v40 (Host.exp : (⟨S256, .f32⟩ : BufTy).Contents (Elt F) → (⟨S256, .f32⟩ : BufTy).Contents (Elt F)),
    StableHlo.nullary main_cst_9 (constant S_ .f32 0x3F800000#32),
    StableHlo.unary main_cst_9 main_v41 (broadcastInDim S256 ![] bcast_S_S256 : (⟨S_, .f32⟩ : BufTy).Contents (Elt F) → (⟨S256, .f32⟩ : BufTy).Contents (Elt F)),
    StableHlo.binary main_v41 main_v40 main_v42 (addf : (⟨S256, .f32⟩ : BufTy).Contents (Elt F) → (⟨S256, .f32⟩ : BufTy).Contents (Elt F) → (⟨S256, .f32⟩ : BufTy).Contents (Elt F)),
    StableHlo.nullary main_cst_10 (constant S_ .f32 0x3F800000#32),
    StableHlo.unary main_cst_10 main_v43 (broadcastInDim S256 ![] bcast_S_S256 : (⟨S_, .f32⟩ : BufTy).Contents (Elt F) → (⟨S256, .f32⟩ : BufTy).Contents (Elt F)),
    StableHlo.binary main_v43 main_v42 main_v44 (Host.divf : (⟨S256, .f32⟩ : BufTy).Contents (Elt F) → (⟨S256, .f32⟩ : BufTy).Contents (Elt F) → (⟨S256, .f32⟩ : BufTy).Contents (Elt F)) ]

theorem tail_split : List.flatten (tailOps (F := F)) = segA ++ segT := rfl

/-- The contents after two stretches run one after the other. -/
theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_app l₁ l₂]

end Ops

/-- A three-operand operation's result with each operand's contents at its own reference. -/
theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

theorem segA_v11 (W : Valuation τ sig (Elt Ideal)) : StableHlo.after (segA (F := Ideal)) W (Proc.devRef .tc main_v11) = meanK (W (Proc.devRef .tc main_v1)) := by
  simp (disch := decide) only [StableHlo.after_cons, StableHlo.after_nil,
      StableHlo.nullary_result', StableHlo.unary_result', StableHlo.binary_result', StableHlo.reshape_result', nary3_result',
      StableHlo.nullary_result_ne', StableHlo.unary_result_ne', StableHlo.binary_result_ne', StableHlo.reshape_result_ne',
      StableHlo.nary_result_ne']
  rfl
theorem segA_v20 (W : Valuation τ sig (Elt Ideal)) : StableHlo.after (segA (F := Ideal)) W (Proc.devRef .tc main_v20) = stdK (W (Proc.devRef .tc main_v1)) := by
  simp (disch := decide) only [StableHlo.after_cons, StableHlo.after_nil,
      StableHlo.nullary_result', StableHlo.unary_result', StableHlo.binary_result', StableHlo.reshape_result', nary3_result',
      StableHlo.nullary_result_ne', StableHlo.unary_result_ne', StableHlo.binary_result_ne', StableHlo.reshape_result_ne',
      StableHlo.nary_result_ne']
  rfl
theorem segA_v7 (W : Valuation τ sig (Elt Ideal)) : StableHlo.after (segA (F := Ideal)) W (Proc.devRef .tc main_v7) = cntK (W (Proc.devRef .tc main_v1)) := by
  simp (disch := decide) only [StableHlo.after_cons, StableHlo.after_nil,
      StableHlo.nullary_result', StableHlo.unary_result', StableHlo.binary_result', StableHlo.reshape_result', nary3_result',
      StableHlo.nullary_result_ne', StableHlo.unary_result_ne', StableHlo.binary_result_ne', StableHlo.reshape_result_ne',
      StableHlo.nary_result_ne']
  rfl

theorem segT_v44 (W : Valuation τ sig (Elt Ideal)) : StableHlo.after (segT (F := Ideal)) W (Proc.devRef .tc main_v44)
    = Cert.ReferenceIdeal.RefRun.tailR (W (Proc.devRef .tc main_v11)) (W (Proc.devRef .tc main_v20)) (W (Proc.devRef .tc main_v7)) := by
  simp (disch := decide) only [StableHlo.after_cons, StableHlo.after_nil,
      StableHlo.nullary_result', StableHlo.unary_result', StableHlo.binary_result', StableHlo.reshape_result', nary3_result',
      StableHlo.nullary_result_ne', StableHlo.unary_result_ne', StableHlo.binary_result_ne', StableHlo.reshape_result_ne',
      StableHlo.nary_result_ne']
  rfl

/-- The tail's result buffer after all the host operations that follow the region. -/
theorem tail_eq (W : Valuation τ sig (Elt Ideal)) :
    StableHlo.after (List.flatten (tailOps (F := Ideal))) W (Proc.devRef .tc main_v44)
      = Cert.ReferenceIdeal.RefRun.tailR (meanK (W (Proc.devRef .tc main_v1))) (stdK (W (Proc.devRef .tc main_v1))) (cntK (W (Proc.devRef .tc main_v1))) := by
  rw [tail_split, after_app, segT_v44, segA_v11, segA_v20, segA_v7]

end Cert.KernelIdeal.HTail

end
-- ==== Proof.KFinal.lean ====
/-
  The idealized kernel's run, read as a value.

  After the run the result buffer holds what the host operations after the region make of the region's
  [256, 3] result array, and that array is `Gfin` of the logits.  The host operations form the mean, the
  standard deviation and the count of each instance from its three columns, and then apply the tail both
  programs share.  When every logit is real the three are the specification's statistics.
-/
import proofs.«114488_j90417651516041_2_alg».proof.Proof.KVal4f
import proofs.«114488_j90417651516041_2_alg».proof.Proof.KVal6
import proofs.«114488_j90417651516041_2_alg».proof.Proof.KTail

set_option maxRecDepth 16384

noncomputable section

open Idealize.ShloMosaic Idealize.ShloMosaic.TcCoe Idealize.SL.Sem
open Idealize.ShloMosaic.Pipeline (Dat)

namespace Cert.KernelIdeal.HValue

open Cert.KernelIdeal Cert.KernelIdeal.Gen Cert.KernelIdeal.HFrame

open Cert.Stats Idealize.ShloMosaic.ValueIdx Cert.KernelIdeal.HTail

variable (m : (ℓ : Loc nD τ sig) → Buf (Elt Ideal) ℓ) (ρ : Dev nD → PrngReg)

/-- What the operations after the region find in the region's result buffer. -/
theorem tail_input (c : Dev nD) :
    Pipeline.withArrays (cfgs 0).spec c (V0 m c) (fun w => (dats m 0 c).arrAt w (cfgs 0).N) (Proc.devRef .tc main_v1) = Gfin (X m c) :=
  (Pipeline.withArrays_arr spec0 launch0.win.arr_inj c _ _ (1 : Fin 2)).trans (final_1 m c)

/-- The result buffer after the run. -/
theorem result_eq (c : Dev nD) :
    Pipeline.afterTail₀ cfgs (dats m) 0 (V0 m) tailOps c main_v44
      = Cert.ReferenceIdeal.RefRun.tailR (meanK (Gfin (X m c))) (stdK (Gfin (X m c))) (cntK (Gfin (X m c))) := by
  unfold Pipeline.afterTail₀
  refine (tail_eq _).trans ?_
  rw [tail_input m c]

/-- Every weakly fair execution of the idealized kernel's @main terminates with the result buffer at the
    shared tail of the three statistics columns, and the logits unchanged. -/
theorem run : θ_run defs (onTc (τ := τ) (main (F := Ideal))) ⟨m, fun _ => 0, ρ⟩ fun r => ∀ c : Dev nD,
      r.2.mem ((c.tc : Thread nD τ).loc main_v44)
        = Cert.ReferenceIdeal.RefRun.tailR (meanK (Gfin (X m c))) (stdK (Gfin (X m c))) (cntK (Gfin (X m c)))
      ∧ r.2.mem ((c.tc : Thread nD τ).loc main_arg0) = m ((c.tc : Thread nD τ).loc main_arg0) :=
  (θ_run defs _ _).mono (fun _ h c =>
      ⟨((h c).2 main_v44 (Pipeline.mem_restRefs_of main_v44 (by decide) (by decide))).trans (result_eq m c),
       ((h c).2 main_arg0 (Pipeline.mem_restRefs_of main_arg0 (by decide) (by decide))).trans (W_main_arg0 m (dats m) c)⟩)
    (run_main m ρ)

/-- On a finite array the kernel's three columns are the specification's statistics. -/
theorem cols_spec (x : S256x1024x1024.Idx → EReal) (hfin : Cert.Stats.Finite x) :
    meanK (Gfin x) = meanV x ∧ stdK (Gfin x) = stdV x ∧ cntK (Gfin x) = cntV x := by
  refine ⟨funext fun i => ?_, funext fun i => ?_, funext fun i => ?_⟩
  · obtain ⟨n, rfl⟩ : ∃ n : Fin 256, i = ix1 n := ⟨i 0, eq_ix1 i⟩
    rw [meanK_apply]; exact mean_spec x hfin n
  · obtain ⟨n, rfl⟩ : ∃ n : Fin 256, i = ix1 n := ⟨i 0, eq_ix1 i⟩
    rw [stdK_apply]; exact std_spec x hfin n
  · obtain ⟨n, rfl⟩ : ∃ n : Fin 256, i = ix1 n := ⟨i 0, eq_ix1 i⟩
    rw [cntK_apply]; exact cnt_spec x hfin n

end Cert.KernelIdeal.HValue

end
-- ==== Proof.RefSums.lean ====
/-
  The reference's two row reductions, read at a row.

  The reference sums a [256, 1024, 1024] array over its last two axes: as a float sum (twice) and,
  for the count, as a sum of 32-bit integer words.  The indices that reduce to row `n` are the
  `(n, h, w)`, in bijection with the 1048576 flat columns `c = h · 1024 + w`.  So the float
  reduction at row `n` is the initial value plus the sum over the columns.  The integer reduction
  adds 1048576 words that are each 0 or 1: its value is their number, at most 1048576 < 2^31, so it
  neither wraps nor reads as negative, and converting it to a float gives the count as a real.
-/
import proofs.«114488_j90417651516041_2_alg».proof.Proof.Spec
import proofs.«114488_j90417651516041_2_alg».proof.Proof.StatsReal
import proofs.«114488_j90417651516041_2_alg».proof.Proof.IdealFacts
import proofs.«114488_j90417651516041_2_alg».proof.Proof.Gen.ReferenceIdeal
import Idealize.ShloMosaic.PureOps.Ideal.Laws
import Idealize.ShloMosaic.PureOps.Reduce
import Idealize.ShloMosaic.Lib.ValueIdx
import Idealize.ShloMosaic.Lib.IdealHost
import Idealize.ShloMosaic.Lib.Affine

noncomputable section

namespace Cert.Stats

open Idealize.ShloMosaic Idealize.ShloMosaic.ValueIdx Cert.ReferenceIdeal Cert.ReferenceIdeal.Gen

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping the last two axes of `(a, b, c)` leaves row `a`. -/
theorem drop12_ix3 (h : S256x1024x1024.ReducesTo [1, 2] S256) (a : Fin 256) (b c : Fin 1024) (n : Fin 256) :
    h.drop (ix3 a b c) = ix1 n ↔ a = n := by
  have hv : ∀ a' : Fin 256, ((h.drop (ix3 a' b c)) 0 : ℕ) = a'.val := fun a' =>
    h.drop_apply_val_of_eq (ix3 a' b c) 0 0
  constructor
  · intro e
    have e0 : ((h.drop (ix3 a b c)) 0 : ℕ) = ((ix1 n : S256.Idx) 0 : ℕ) := by rw [e]
    exact Fin.ext ((hv a).symm.trans e0)
  · rintro rfl
    funext d
    match d with
    | ⟨0, _⟩ => exact Fin.ext (hv a)

/-- A sum over the indices that reduce to row `n` is the sum over the row's 1048576 flat columns. -/
theorem sum_filter_drop12 {M : Type*} [AddCommMonoid M] (h : S256x1024x1024.ReducesTo [1, 2] S256)
    (x : S256x1024x1024.Idx → M) (n : Fin 256) [DecidablePred fun i : S256x1024x1024.Idx => h.drop i = ix1 n] :
    ∑ i ∈ Finset.univ.filter (fun i => h.drop i = ix1 n), x i
      = ∑ c : Fin 1048576,
          x (ix3 n (⟨c.val / 1024, by omega⟩ : Fin 1024) (⟨c.val % 1024, by omega⟩ : Fin 1024)) := by
  rw [Finset.sum_filter, sum_idx3]
  simp only [drop12_ix3 h]
  rw [Finset.sum_eq_single n (fun a _ hne => by simp only [if_neg hne, Finset.sum_const_zero])
    (fun hn => absurd (Finset.mem_univ n) hn)]
  simp only [if_true]
  rw [← sum_hw (fun c : Fin 1048576 =>
    x (ix3 n (⟨c.val / 1024, by omega⟩ : Fin 1024) (⟨c.val % 1024, by omega⟩ : Fin 1024)))]
  refine Finset.sum_congr rfl fun b _ => Finset.sum_congr rfl fun c _ => ?_
  have h1 : (b.val * 1024 + c.val) / 1024 = b.val := by omega
  have h2 : (b.val * 1024 + c.val) % 1024 = c.val := by omega
  have hb : (⟨(b.val * 1024 + c.val) / 1024, by omega⟩ : Fin 1024) = b := Fin.ext h1
  have hc : (⟨(b.val * 1024 + c.val) % 1024, by omega⟩ : Fin 1024) = c := Fin.ext h2
  show x (ix3 n b c) = x (ix3 n (⟨(b.val * 1024 + c.val) / 1024, by omega⟩ : Fin 1024)
    (⟨(b.val * 1024 + c.val) % 1024, by omega⟩ : Fin 1024))
  rw [hb, hc]

/-- The reference's float sum over the last two axes, at row `n`: the initial value plus the sum over
    the row's flat columns. -/
theorem reduceAdd12_apply' (h : S256x1024x1024.ReducesTo [1, 2] S256) (hu : 0 < S_.numel)
    (v : FVec Ideal S256x1024x1024 .f32) (init : FVec Ideal S_ .f32) (n : Fin 256) :
    Host.reduceAdd (F := Ideal) v init h hu (ix1 n)
      = init ix0 + ∑ c : Fin 1048576,
          v (ix3 n (⟨c.val / 1024, by omega⟩ : Fin 1024) (⟨c.val % 1024, by omega⟩ : Fin 1024)) := by
  rw [hostReduceAdd_apply]
  unfold Ideal.hostReduceAdd
  rw [sum_filter_drop12 h v n, eq_ix0 (Shape.Idx.first hu)]

theorem reduceAdd12_apply (v : FVec Ideal S256x1024x1024 .f32) (init : FVec Ideal S_ .f32) (n : Fin 256) :
    Host.reduceAdd (F := Ideal) v init reducesTo_S256x1024x1024_S256_d1_2 h_S_ (ix1 n)
      = init ix0 + ∑ c : Fin 1048576,
          v (ix3 n (⟨c.val / 1024, by omega⟩ : Fin 1024) (⟨c.val % 1024, by omega⟩ : Fin 1024)) :=
  reduceAdd12_apply' _ _ v init n

/-- A fold of word addition from zero: as a natural number, the sum of the words' values modulo 2^32. -/
theorem toNat_fold_addi {ι : Type*} (S : Finset ι) (y : ι → BitVec 32) :
    (S.fold IntOp.addi 0#32 y).toNat = (∑ i ∈ S, (y i).toNat) % 4294967296 := by
  induction S using Finset.cons_induction with
  | empty => simp
  | cons a S ha ih =>
    rw [Finset.fold_cons, Finset.sum_cons]
    show (y a + S.fold IntOp.addi 0#32 y).toNat = _
    rw [BitVec.toNat_add, ih]
    omega

/-- A one-bit word widened without sign to 32 bits is 1 or 0 as a natural number. -/
theorem toNat_setWidth_bit (w : BitVec 1) : (w.setWidth 32).toNat = if w = 1#1 then 1 else 0 := by
  revert w; decide

/-- The number of ones among the 1048576 words of a row is at most 1048576. -/
theorem count_le (p : Fin 1048576 → Prop) [DecidablePred p] :
    (∑ c : Fin 1048576, (if p c then 1 else 0 : ℕ)) ≤ 1048576 := by
  calc (∑ c : Fin 1048576, (if p c then 1 else 0 : ℕ))
      ≤ ∑ _c : Fin 1048576, 1 := Finset.sum_le_sum fun c _ => by split_ifs <;> omega
    _ = 1048576 := by rw [Finset.sum_const, Finset.card_univ, Fintype.card_fin, smul_eq_mul, mul_one]

/-- The reference's integer sum of the widened one-bit words over the last two axes, converted to a
    float, at row `n`: the number of words of the row that are 1. -/
theorem reduceAddi12_count' (h : S256x1024x1024.ReducesTo [1, 2] S256) (hu : 0 < S_.numel) (hlt : 1 < 32)
    (b : IVec S256x1024x1024 1) (n : Fin 256) :
    FloatOps.sitofp (F := Ideal) .f32
        (Host.reduce IntOp.addi (extui 32 b hlt) (constantI S_ 32 0#32) h hu (ix1 n))
      = ((∑ c : Fin 1048576,
            (if b (ix3 n (⟨c.val / 1024, by omega⟩ : Fin 1024) (⟨c.val % 1024, by omega⟩ : Fin 1024)) = 1#1
              then (1 : ℝ) else 0) : ℝ) : EReal) := by
  have hW : (Host.reduce IntOp.addi (extui 32 b hlt) (constantI S_ 32 0#32) h hu (ix1 n)).toNat
      = ∑ c : Fin 1048576,
          (if b (ix3 n (⟨c.val / 1024, by omega⟩ : Fin 1024) (⟨c.val % 1024, by omega⟩ : Fin 1024)) = 1#1
            then 1 else 0 : ℕ) := by
    rw [Host.reduce_eq_fold]
    show (Finset.fold IntOp.addi 0#32 (extui 32 b hlt) _).toNat = _
    rw [toNat_fold_addi, sum_filter_drop12 h (fun i => ((extui 32 b hlt) i).toNat) n]
    have hterm : ∀ i, ((extui 32 b hlt) i).toNat = if b i = 1#1 then 1 else 0 := fun i =>
      toNat_setWidth_bit (b i)
    simp only [hterm]
    exact Nat.mod_eq_of_lt (lt_of_le_of_lt (count_le _) (by norm_num))
  have hle := count_le (fun c : Fin 1048576 =>
    b (ix3 n (⟨c.val / 1024, by omega⟩ : Fin 1024) (⟨c.val % 1024, by omega⟩ : Fin 1024)) = 1#1)
  rw [sitofp_coe, BitVec.toInt_eq_toNat_of_lt (by rw [hW]; omega), hW]
  push_cast
  rfl

theorem reduceAddi12_count (b : IVec S256x1024x1024 1) (n : Fin 256) :
    FloatOps.sitofp (F := Ideal) .f32
        (Host.reduce IntOp.addi (extui 32 b natLt_1_32) (constantI S_ 32 0#32)
          reducesTo_S256x1024x1024_S256_d1_2 h_S_ (ix1 n))
      = ((∑ c : Fin 1048576,
            (if b (ix3 n (⟨c.val / 1024, by omega⟩ : Fin 1024) (⟨c.val % 1024, by omega⟩ : Fin 1024)) = 1#1
              then (1 : ℝ) else 0) : ℝ) : EReal) :=
  reduceAddi12_count' _ _ _ b n

end Cert.Stats

end
-- ==== Proof.RefValue.lean ====
/-
  The reference's three columns of statistics are the specification's.

  Entry by entry the reference's probability array is the logistic function of the (real) logit.
  Its row mean is the sum over the two inner axes divided by 1048576; its variance function
  centres the probabilities by that mean, sums the squares, divides by 1048576 - 1 = 1048575 —
  a positive number, so the guarding select keeps the quotient — and the standard deviation is the
  square root of a nonnegative real; its count sums the indicator bits of "probability above 1/2"
  as 32-bit integers, at most 1048576 ones, and converts the sum.
-/
import proofs.«114488_j90417651516041_2_alg».proof.Proof.RefRun
import proofs.«114488_j90417651516041_2_alg».proof.Proof.Spec
import proofs.«114488_j90417651516041_2_alg».proof.Proof.IdealFacts
import proofs.«114488_j90417651516041_2_alg».proof.Proof.StatsReal
import proofs.«114488_j90417651516041_2_alg».proof.Proof.RefSums
import Idealize.ShloMosaic.Lib.ValueIdx
import Idealize.ShloMosaic.Lib.IdealHost
import Idealize.ShloMosaic.Lib.Pipeline.Value

noncomputable section

namespace Cert.ReferenceIdeal.RefValue

open Cert.ReferenceIdeal Cert.ReferenceIdeal.Gen Cert.ReferenceIdeal.RefRun Idealize.ShloMosaic Idealize.ShloMosaic.ValueIdx

/-! ## Entries of a finite array, and the probabilities -/

/-- The probability array at an entry, the operations opened. -/
theorem probs_apply (x : FVec Ideal S256x1024x1024 .f32) (i : S256x1024x1024.Idx) :
    probs x i = Ideal.div (Ideal.ofBits .f32 0x3F800000#32) (Ideal.ofBits .f32 0x3F800000#32 + Ideal.exp (-(x i))) := rfl

/-- At a finite array every probability is the logistic function of the real logit. -/
theorem probs_coe (x : FVec Ideal S256x1024x1024 .f32) (hfin : Cert.Stats.Finite x) (i : S256x1024x1024.Idx) :
    probs x i = ((Cert.Stats.sig (x i).toReal : ℝ) : EReal) := by
  obtain ⟨r, hr⟩ := hfin i
  rw [probs_apply, hr, EReal.toReal_coe, Cert.Stats.logistic_chain]

/-- The probabilities of row `n` at flat column `c`. -/
theorem probs_row (x : FVec Ideal S256x1024x1024 .f32) (hfin : Cert.Stats.Finite x) (n : Fin 256) (c : Fin 1048576) :
    probs x (ix3 n (⟨c.val / 1024, by omega⟩ : Fin 1024) (⟨c.val % 1024, by omega⟩ : Fin 1024)) = ((Cert.Stats.sig (Cert.Stats.row x n c) : ℝ) : EReal) :=
  probs_coe x hfin _

/-! ## The mean -/

theorem meanOf_apply (p : FVec Ideal S256x1024x1024 .f32) (j : S256.Idx) :
    meanOf p j = Ideal.div (Host.reduceAdd (F := Ideal) p (constant (F := Ideal) S_ .f32 0x00000000#32) reducesTo_S256x1024x1024_S256_d1_2 h_S_ j)
      (Ideal.ofBits .f32 0x49800000#32) := rfl

/-- The sum of a row of probabilities. -/
theorem sum_probs (x : FVec Ideal S256x1024x1024 .f32) (hfin : Cert.Stats.Finite x) (n : Fin 256) :
    ∑ c : Fin 1048576, probs x (ix3 n (⟨c.val / 1024, by omega⟩ : Fin 1024) (⟨c.val % 1024, by omega⟩ : Fin 1024))
      = ((∑ c : Fin 1048576, Cert.Stats.sig (Cert.Stats.row x n c) : ℝ) : EReal) := by
  rw [Cert.Stats.coe_sum]
  exact Finset.sum_congr rfl fun c _ => probs_row x hfin n c

theorem meanOf_at (x : FVec Ideal S256x1024x1024 .f32) (hfin : Cert.Stats.Finite x) (n : Fin 256) :
    meanOf (probs x) (ix1 n) = ((Cert.Stats.meanS (Cert.Stats.row x n) : ℝ) : EReal) := by
  rw [meanOf_apply, Cert.Stats.reduceAdd12_apply, constant_apply, Ideal.ofBits_zero_f32, zero_add, sum_probs x hfin n,
    Cert.Stats.ofBits_n, Cert.Stats.div_coe_coe _ _ (by norm_num)]
  rfl

theorem meanR_eq (x : FVec Ideal S256x1024x1024 .f32) (hfin : Cert.Stats.Finite x) : meanR x = Cert.Stats.meanV x := by
  funext i
  obtain ⟨n, rfl⟩ : ∃ n : Fin 256, i = ix1 n := ⟨i 0, eq_ix1 i⟩
  exact meanOf_at x hfin n

/-! ## The standard deviation -/

/-- The variance's normaliser as the program computes it: `1048576 - 1`. -/
def dd : EReal := Ideal.ofBits .f32 0x49800000#32 - FloatOps.sitofp (F := Ideal) .f32 (1#32 : BitVec 32)

theorem dd_coe : dd = ((1048575 : ℝ) : EReal) := by
  rw [dd, Cert.Stats.ofBits_n, Cert.Stats.sitofp_coe, show ((1#32 : BitVec 32).toInt) = 1 from by decide, Int.cast_one,
    ← EReal.coe_sub]
  norm_num

theorem centredP_apply (p : FVec Ideal S256x1024x1024 .f32) (n : Fin 256) (h w : Fin 1024) :
    centredP p (ix3 n h w) = p (ix3 n h w) - meanOf p (ix1 n) := by
  unfold centredP
  rw [subf_apply,
    broadcastInDim_apply ![0, 1, 2] bcast_S256x1x1_S256x1024x1024_0_1_2 _ (ix3 n h w) (ix3 n (0 : Fin 1) (0 : Fin 1))
      (fun a => by match a with | ⟨0, _⟩ => rfl | ⟨1, _⟩ => rfl | ⟨2, _⟩ => rfl),
    hostDivf_apply,
    broadcastInDim_apply ![0] bcast_S256_S256x1x1_0 _ (ix3 n (0 : Fin 1) (0 : Fin 1)) (ix1 n)
      (fun a => by match a with | ⟨0, _⟩ => rfl),
    meanOf_apply]
  rfl

theorem varOf_apply (p : FVec Ideal S256x1024x1024 .f32) (j : S256.Idx) :
    varOf p j = Scalar.select (FloatOps.cmpf (F := Ideal) (φ := .f32) .ogt dd (Ideal.ofBits .f32 0x00000000#32))
      (Ideal.div (Host.reduceAdd (F := Ideal) (mulf (F := Ideal) (centredP p) (centredP p)) (constant (F := Ideal) S_ .f32 0x00000000#32)
          reducesTo_S256x1024x1024_S256_d1_2 h_S_ j) dd)
      (Ideal.ofBits .f32 0x7FC00000#32) := rfl

/-- The centred probability of row `n` at flat column `c`, squared. -/
theorem sq_centred_row (x : FVec Ideal S256x1024x1024 .f32) (hfin : Cert.Stats.Finite x) (n : Fin 256) (c : Fin 1048576) :
    mulf (F := Ideal) (centredP (probs x)) (centredP (probs x)) (ix3 n (⟨c.val / 1024, by omega⟩ : Fin 1024) (⟨c.val % 1024, by omega⟩ : Fin 1024))
      = (((Cert.Stats.sig (Cert.Stats.row x n c) - Cert.Stats.meanS (Cert.Stats.row x n))
          * (Cert.Stats.sig (Cert.Stats.row x n c) - Cert.Stats.meanS (Cert.Stats.row x n)) : ℝ) : EReal) := by
  rw [mulf_apply, centredP_apply, probs_row x hfin n c, meanOf_at x hfin n, ← EReal.coe_sub, ← EReal.coe_mul]

theorem varOf_at (x : FVec Ideal S256x1024x1024 .f32) (hfin : Cert.Stats.Finite x) (n : Fin 256) :
    varOf (probs x) (ix1 n) = ((Cert.Stats.varS (Cert.Stats.row x n) : ℝ) : EReal) := by
  have hs : ∑ c : Fin 1048576, mulf (F := Ideal) (centredP (probs x)) (centredP (probs x)) (ix3 n (⟨c.val / 1024, by omega⟩ : Fin 1024) (⟨c.val % 1024, by omega⟩ : Fin 1024))
      = ((∑ c : Fin 1048576, (Cert.Stats.sig (Cert.Stats.row x n c) - Cert.Stats.meanS (Cert.Stats.row x n))
          * (Cert.Stats.sig (Cert.Stats.row x n c) - Cert.Stats.meanS (Cert.Stats.row x n)) : ℝ) : EReal) := by
    rw [Cert.Stats.coe_sum]
    exact Finset.sum_congr rfl fun c _ => sq_centred_row x hfin n c
  rw [varOf_apply, Cert.Stats.reduceAdd12_apply, constant_apply, Ideal.ofBits_zero_f32, zero_add, hs, dd_coe,
    ← EReal.coe_zero, Cert.Stats.cmpf_ogt_coe, if_pos (by norm_num), select_one,
    Cert.Stats.div_coe_coe _ _ (by norm_num)]
  rfl

theorem stdOf_apply (p : FVec Ideal S256x1024x1024 .f32) (j : S256.Idx) : stdOf p j = Ideal.sqrt (varOf p j) := rfl

theorem stdR_eq (x : FVec Ideal S256x1024x1024 .f32) (hfin : Cert.Stats.Finite x) : stdR x = Cert.Stats.stdV x := by
  funext i
  obtain ⟨n, rfl⟩ : ∃ n : Fin 256, i = ix1 n := ⟨i 0, eq_ix1 i⟩
  show stdOf (probs x) (ix1 n) = ((Cert.Stats.stdS (Cert.Stats.row x n) : ℝ) : EReal)
  rw [stdOf_apply, varOf_at x hfin n, Cert.Stats.sqrt_coe _ (Cert.Stats.varS_nonneg _)]
  rfl

/-! ## The count -/

theorem cntOf_apply (p : FVec Ideal S256x1024x1024 .f32) (j : S256.Idx) :
    cntOf p j = FloatOps.sitofp (F := Ideal) .f32
      (Host.reduce IntOp.addi
        (extui 32 (cmpf (F := Ideal) .ogt p (broadcastInDim S256x1024x1024 ![] bcast_S_S256x1024x1024 (constant (F := Ideal) S_ .f32 0x3F000000#32))) natLt_1_32)
        (constantI S_ 32 0#32) reducesTo_S256x1024x1024_S256_d1_2 h_S_ j) := rfl

/-- The comparison bit of row `n` at flat column `c` is set exactly when the probability exceeds 1/2. -/
theorem bit_row (x : FVec Ideal S256x1024x1024 .f32) (hfin : Cert.Stats.Finite x) (n : Fin 256) (c : Fin 1048576) :
    (cmpf (F := Ideal) .ogt (probs x) (broadcastInDim S256x1024x1024 ![] bcast_S_S256x1024x1024 (constant (F := Ideal) S_ .f32 0x3F000000#32))
        (ix3 n (⟨c.val / 1024, by omega⟩ : Fin 1024) (⟨c.val % 1024, by omega⟩ : Fin 1024)) = 1#1)
      ↔ (1 / 2 : ℝ) < Cert.Stats.sig (Cert.Stats.row x n c) := by
  rw [cmpf_apply, probs_row x hfin n c,
    show (broadcastInDim S256x1024x1024 ![] bcast_S_S256x1024x1024 (constant (F := Ideal) S_ .f32 0x3F000000#32)) (ix3 n (⟨c.val / 1024, by omega⟩ : Fin 1024) (⟨c.val % 1024, by omega⟩ : Fin 1024))
      = Ideal.ofBits .f32 0x3F000000#32 from rfl,
    Cert.Stats.ofBits_half, Cert.Stats.cmpf_ogt_coe]
  by_cases hc : (1 / 2 : ℝ) < Cert.Stats.sig (Cert.Stats.row x n c)
  · simp [hc]
  · simp [hc]

theorem cntR_eq (x : FVec Ideal S256x1024x1024 .f32) (hfin : Cert.Stats.Finite x) : cntR x = Cert.Stats.cntV x := by
  funext i
  obtain ⟨n, rfl⟩ : ∃ n : Fin 256, i = ix1 n := ⟨i 0, eq_ix1 i⟩
  show cntOf (probs x) (ix1 n) = ((Cert.Stats.cntS (Cert.Stats.row x n) : ℝ) : EReal)
  rw [cntOf_apply, Cert.Stats.reduceAddi12_count]
  refine congrArg (fun r : ℝ => (r : EReal)) (Finset.sum_congr rfl fun c _ => ?_)
  exact if_congr (bit_row x hfin n c) rfl rfl

/-! ## The result over the specification's columns -/

theorem res_spec (x : FVec Ideal S256x1024x1024 .f32) (hfin : Cert.Stats.Finite x) :
    res x = tailR (Cert.Stats.meanV x) (Cert.Stats.stdV x) (Cert.Stats.cntV x) := by
  show tailR (meanR x) (stdR x) (cntR x) = _
  rw [meanR_eq x hfin, stdR_eq x hfin, cntR_eq x hfin]

end Cert.ReferenceIdeal.RefValue

end
-- ==== Proof.FiniteInputs.lean ====
/-
  The precondition, read back: every entry of the input is a real number.

  The printed predicate compares the absolute value of every entry with `+∞` and folds the
  answers by `and`.  If the fold is 1 then every comparison is 1, so every entry has
  `max a (-a) < ⊤`; of the three kinds of extended real only a real number satisfies that.
-/
import proofs.«114488_j90417651516041_2_alg».proof.Proof.Spec
import proofs.«114488_j90417651516041_2_alg».proof.Pre_finite_inputs
import proofs.«114488_j90417651516041_2_alg».proof.Proof.Gen.Pre_finite_inputs
import Idealize.ShloMosaic.Lib.ReduceAll
import Idealize.ShloMosaic.PureOps.Ideal

noncomputable section

namespace Cert.Stats

open Idealize.ShloMosaic

/-- A rank-0 shape has one index. -/
instance subsingleton_scalar_idx : Subsingleton Cert.Pre_finite_inputs.S_.Idx :=
  ⟨fun a b => funext fun d => d.elim0⟩

/-- The pattern of `+∞` denotes the top extended real. -/
theorem ofBits_inf : Ideal.ofBits .f32 0x7F800000#32 = ⊤ := by
  simp [Ideal.ofBits, Ideal.ieee]

/-- An extended real whose absolute value `max a (-a)` is below `+∞` is a real number. -/
theorem real_of_abs_lt_top (a : EReal) (h : max a (-a) < ⊤) : ∃ r : ℝ, a = (r : EReal) := by
  induction a using EReal.rec with
  | bot => simp at h
  | top => simp at h
  | coe r => exact ⟨r, rfl⟩

/-- Under the printed precondition every entry of the input array is a real number. -/
theorem finite_of_pre [Cert.Pre_finite_inputs.Facts]
    (x : FVec Ideal Cert.Pre_finite_inputs.S256x1024x1024 .f32)
    (h : Cert.Pre_finite_inputs.fn (F := Ideal) x = fun _ => 1#1) : Finite x := by
  intro i
  have h0 := congrFun h ValueIdx.ix0
  dsimp only [Cert.Pre_finite_inputs.fn] at h0
  have hi := Host.reduce_andi_all _ _ _ _ _ h0 i
  have hi' : BitVec.ofBool (decide (max (x i) (-(x i)) < Ideal.ofBits .f32 0x7F800000#32)) = 1#1 := hi
  rw [ofBits_inf] at hi'
  refine real_of_abs_lt_top (x i) ?_
  by_contra hn
  rw [decide_eq_false hn] at hi'
  exact absurd hi' (by decide)

end Cert.Stats

end
-- ==== Proof.lean ====
/-
  The certificate of the instance-statistics kernel against its reference.

  Both programs describe each of 256 instances of 1024 × 1024 logits by the mean, the sample standard
  deviation and the above-1/2 count of the probabilities `1 / (1 + e^{-x})`, and apply the same tail to
  the resulting [256, 3] array.  The kernel forms the probability as `1/2 · (tanh (x/2) + 1)`, streams
  each instance in 64 column blocks and accumulates the sums of the centred probability, of its square
  and of the indicator; the host then recovers mean and variance from the centred sums.  Over the
  extended reals, for real logits, these are the reference's mean, standard deviation and count
  (`1/2 · (tanh (x/2) + 1) = 1 / (1 + e^{-x})`; `Σ (p - μ)² = Σ q² - (Σ q)² / N` for `q = p - 1/2`; a 32-bit
  count of at most 2^20 ones does not wrap), so the results agree entry by entry.

  The three frames: the kernel's two programs run through the pipelined region with the accumulator's
  contents named point by point; the reference's is its run with the result dropped.  The ideal pass
  rewrote nothing, so `preserves` is trivial.
-/
import proofs.«114488_j90417651516041_2_alg».proof.Defs
import proofs.«114488_j90417651516041_2_alg».proof.Proof.Gen.Kernel
import proofs.«114488_j90417651516041_2_alg».proof.Proof.Gen.KernelIdeal
import proofs.«114488_j90417651516041_2_alg».proof.Proof.Gen.ReferenceIdeal
import proofs.«114488_j90417651516041_2_alg».proof.Proof.Gen.Pre_finite_inputs
import proofs.«114488_j90417651516041_2_alg».proof.Proof.KFrame
import proofs.«114488_j90417651516041_2_alg».proof.Proof.KFinal
import proofs.«114488_j90417651516041_2_alg».proof.Proof.RefValue
import proofs.«114488_j90417651516041_2_alg».proof.Proof.FiniteInputs
import Idealize.ShloMosaic.Adequacy
import Idealize.ShloMosaic.Init

noncomputable section

namespace Cert.Proof

open Idealize.ShloMosaic Idealize.SL.Sem

theorem frame_k : Cert.frame_Kernel := fun m ρ _ => Cert.Kernel.HFrame.frame m ρ
theorem frame_ki : Cert.frame_KernelIdeal := fun m ρ _ => Cert.KernelIdeal.HFrame.frame m ρ
theorem frame_ri : Cert.frame_ReferenceIdeal := fun m ρ _ =>
  (θ_run Cert.ReferenceIdeal.defs _ _).mono (fun _ h c => (h c).2) (Cert.ReferenceIdeal.RefRun.run m ρ)

/-- Both runs end with the result at the shared tail of the specification's three statistics of the
    (agreeing, finite) logits. -/
theorem algebraic : Cert.algebraic_KernelIdeal_ReferenceIdeal := by
  intro m ρ m' ρ' hpre hagree
  have hfin : ∀ c : Dev Cert.KernelIdeal.nD,
      Cert.Stats.Finite (m ((c.tc : Thread Cert.KernelIdeal.nD Cert.KernelIdeal.τ).loc Cert.KernelIdeal.main_arg0)) :=
    fun c => Cert.Stats.finite_of_pre _ (hpre c)
  refine ⟨fun c => Cert.ReferenceIdeal.RefRun.tailR
      (Cert.Stats.meanV (m ((c.tc : Thread Cert.KernelIdeal.nD Cert.KernelIdeal.τ).loc Cert.KernelIdeal.main_arg0)))
      (Cert.Stats.stdV (m ((c.tc : Thread Cert.KernelIdeal.nD Cert.KernelIdeal.τ).loc Cert.KernelIdeal.main_arg0)))
      (Cert.Stats.cntV (m ((c.tc : Thread Cert.KernelIdeal.nD Cert.KernelIdeal.τ).loc Cert.KernelIdeal.main_arg0))), ?_, ?_⟩
  · refine (θ_run Cert.KernelIdeal.defs _ _).mono (fun _ h c => ⟨(h c).1.trans ?_, (h c).2⟩)
      (Cert.KernelIdeal.HValue.run m ρ)
    obtain ⟨e0, e1, e2⟩ := Cert.KernelIdeal.HValue.cols_spec _ (hfin c)
    show Cert.ReferenceIdeal.RefRun.tailR _ _ _ = Cert.ReferenceIdeal.RefRun.tailR _ _ _
    rw [e0, e1, e2]
  · refine (θ_run Cert.ReferenceIdeal.defs _ _).mono (fun _ h c => ⟨(h c).1.trans ?_, (h c).2⟩)
      (Cert.ReferenceIdeal.RefRun.run m' ρ')
    rw [hagree c]
    exact Cert.ReferenceIdeal.RefValue.res_spec _ (hfin c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
